-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x900x256 : Shape := ⟨3, ![16, 900, 256]⟩
abbrev S16x900x4 : Shape := ⟨3, ![16, 900, 4]⟩
abbrev S1600x256 : Shape := ⟨2, ![1600, 256]⟩
abbrev S1600x4 : Shape := ⟨2, ![1600, 4]⟩
abbrev S16 : Shape := ⟨1, ![16]⟩
abbrev S_ : Shape := ⟨0, ![]⟩
abbrev S16x900 : Shape := ⟨2, ![16, 900]⟩

class Facts : Prop where
  bcast_S_S16x900x256 : S_.BroadcastsInDim S16x900x256 (![] : Fin 0 → Fin S16x900x256.rank)
  reducesTo_S16x900x256_S_d0_1_2 : S16x900x256.ReducesTo [0, 1, 2] S_
  h_S_ : 0 < S_.numel
  bcast_S_S16x900x4 : S_.BroadcastsInDim S16x900x4 (![] : Fin 0 → Fin S16x900x4.rank)
  reducesTo_S16x900x4_S_d0_1_2 : S16x900x4.ReducesTo [0, 1, 2] S_
  bcast_S_S1600x256 : S_.BroadcastsInDim S1600x256 (![] : Fin 0 → Fin S1600x256.rank)
  reducesTo_S1600x256_S_d0_1 : S1600x256.ReducesTo [0, 1] S_
  bcast_S_S1600x4 : S_.BroadcastsInDim S1600x4 (![] : Fin 0 → Fin S1600x4.rank)
  reducesTo_S1600x4_S_d0_1 : S1600x4.ReducesTo [0, 1] S_
  reducesTo_S16x900x256_S16x900_d2 : S16x900x256.ReducesTo [2] S16x900
  bcast_S_S16x900 : S_.BroadcastsInDim S16x900 (![] : Fin 0 → Fin S16x900.rank)
  reducesTo_S16x900_S_d0_1 : S16x900.ReducesTo [0, 1] S_

variable [Facts]

def fn_part1 {F : FTy → Type} [FloatOps F] (main_arg0 : FVec F S16x900x256 .f32) (main_v13 : IVec S_ 1) (main_v16 : IVec S1600x4 1) : IVec S_ 1 :=
  let main_c_5 : IVec S_ 1 := constantI S_ 1 1#1
  let main_v17 : IVec S_ 1 := (fun x v => Host.reduce IntOp.andi x v reducesTo_S1600x4_S_d0_1 h_S_) main_v16 main_c_5
  let main_v18 : IVec S_ 1 := andi main_v13 main_v17
  let main_v19 : FVec F S16x900x256 .f32 := mulf main_arg0 main_arg0
  let main_cst_6 : FVec F S_ .f32 := constant S_ .f32 0x00000000#32
  let main_v20 : FVec F S16x900 .f32 := (fun x v => Host.reduceAdd x v reducesTo_S16x900x256_S16x900_d2 h_S_) main_v19 main_cst_6
  let main_cst_7 : FVec F S_ .f32 := constant S_ .f32 0x00000000#32
  let main_v21 : FVec F S16x900 .f32 := broadcastInDim S16x900 ![] bcast_S_S16x900 main_cst_7
  let main_v22 : IVec S16x900 1 := cmpf .ogt main_v20 main_v21
  let main_c_8 : IVec S_ 1 := constantI S_ 1 1#1
  let main_v23 : IVec S_ 1 := (fun x v => Host.reduce IntOp.andi x v reducesTo_S16x900_S_d0_1 h_S_) main_v22 main_c_8
  let main_v24 : IVec S_ 1 := andi main_v18 main_v23
  main_v24

def fn {F : FTy → Type} [FloatOps F] (main_arg0 : FVec F S16x900x256 .f32) (main_arg1 : FVec F S16x900x4 .f32) (main_arg2 : FVec F S1600x256 .f32) (main_arg3 : FVec F S1600x4 .f32) (main_arg4 : IVec S16 32) : IVec S_ 1 :=
  let main_v0 : FVec F S16x900x256 .f32 := Host.absf main_arg0
  let main_cst : FVec F S_ .f32 := constant S_ .f32 0x7F800000#32
  let main_v1 : FVec F S16x900x256 .f32 := broadcastInDim S16x900x256 ![] bcast_S_S16x900x256 main_cst
  let main_v2 : IVec S16x900x256 1 := cmpf .olt main_v0 main_v1
  let main_c : IVec S_ 1 := constantI S_ 1 1#1
  let main_v3 : IVec S_ 1 := (fun x v => Host.reduce IntOp.andi x v reducesTo_S16x900x256_S_d0_1_2 h_S_) main_v2 main_c
  let main_v4 : FVec F S16x900x4 .f32 := Host.absf main_arg1
  let main_cst_0 : FVec F S_ .f32 := constant S_ .f32 0x7F800000#32
  let main_v5 : FVec F S16x900x4 .f32 := broadcastInDim S16x900x4 ![] bcast_S_S16x900x4 main_cst_0
  let main_v6 : IVec S16x900x4 1 := cmpf .olt main_v4 main_v5
  let main_c_1 : IVec S_ 1 := constantI S_ 1 1#1
  let main_v7 : IVec S_ 1 := (fun x v => Host.reduce IntOp.andi x v reducesTo_S16x900x4_S_d0_1_2 h_S_) main_v6 main_c_1
  let main_v8 : IVec S_ 1 := andi main_v3 main_v7
  let main_v9 : FVec F S1600x256 .f32 := Host.absf main_arg2
  let main_cst_2 : FVec F S_ .f32 := constant S_ .f32 0x7F800000#32
  let main_v10 : FVec F S1600x256 .f32 := broadcastInDim S1600x256 ![] bcast_S_S1600x256 main_cst_2
  let main_v11 : IVec S1600x256 1 := cmpf .olt main_v9 main_v10
  let main_c_3 : IVec S_ 1 := constantI S_ 1 1#1
  let main_v12 : IVec S_ 1 := (fun x v => Host.reduce IntOp.andi x v reducesTo_S1600x256_S_d0_1 h_S_) main_v11 main_c_3
  let main_v13 : IVec S_ 1 := andi main_v8 main_v12
  let main_v14 : FVec F S1600x4 .f32 := Host.absf main_arg3
  let main_cst_4 : FVec F S_ .f32 := constant S_ .f32 0x7F800000#32
  let main_v15 : FVec F S1600x4 .f32 := broadcastInDim S1600x4 ![] bcast_S_S1600x4 main_cst_4
  let main_v16 : IVec S1600x4 1 := cmpf .olt main_v14 main_v15
  fn_part1 (F := F) main_arg0 main_v13 main_v16
-- ==== Kernel.lean ====
abbrev S16x900x256 : Shape := ⟨3, ![16, 900, 256]⟩
abbrev S16x900x4 : Shape := ⟨3, ![16, 900, 4]⟩
abbrev S1600x256 : Shape := ⟨2, ![1600, 256]⟩
abbrev S1600x4 : Shape := ⟨2, ![1600, 4]⟩
abbrev S16 : Shape := ⟨1, ![16]⟩
abbrev S_ : Shape := ⟨0, ![]⟩
abbrev S1664x256 : Shape := ⟨2, ![1664, 256]⟩
abbrev S1664x4 : Shape := ⟨2, ![1664, 4]⟩
abbrev S1664x1 : Shape := ⟨2, ![1664, 1]⟩
abbrev S256x1664 : Shape := ⟨2, ![256, 1664]⟩
abbrev S4x1664 : Shape := ⟨2, ![4, 1664]⟩
abbrev S1x1664 : Shape := ⟨2, ![1, 1664]⟩
abbrev S1664 : Shape := ⟨1, ![1664]⟩
abbrev S14400x256 : Shape := ⟨2, ![14400, 256]⟩
abbrev S14400x4 : Shape := ⟨2, ![14400, 4]⟩
abbrev S14400x1600 : Shape := ⟨2, ![14400, 1600]⟩
abbrev S600x256 : Shape := ⟨2, ![600, 256]⟩
abbrev S600x4 : Shape := ⟨2, ![600, 4]⟩
abbrev S600x1600 : Shape := ⟨2, ![600, 1600]⟩
abbrev S600 : Shape := ⟨1, ![600]⟩
abbrev S600x1 : Shape := ⟨2, ![600, 1]⟩
abbrev S600x1664 : Shape := ⟨2, ![600, 1664]⟩
abbrev S16x900x1600 : Shape := ⟨3, ![16, 900, 1600]⟩

abbrev nBuf : Space → Nat
  | .hbm => 52
  | .vmem => 10
  | .smem => 0
  | _ => 0

abbrev bufTy : (tb : Table) → Fin (tcTables nBuf tb) → BufTy
  | .hbm, ⟨0, _⟩ => ⟨S16x900x256, .f32⟩
  | .hbm, ⟨1, _⟩ => ⟨S16x900x4, .f32⟩
  | .hbm, ⟨2, _⟩ => ⟨S1600x256, .f32⟩
  | .hbm, ⟨3, _⟩ => ⟨S1600x4, .f32⟩
  | .hbm, ⟨4, _⟩ => ⟨S16, .i32⟩
  | .hbm, ⟨5, _⟩ => ⟨S_, .i32⟩
  | .hbm, ⟨6, _⟩ => ⟨S_, .f32⟩
  | .hbm, ⟨7, _⟩ => ⟨S1664x256, .f32⟩
  | .hbm, ⟨8, _⟩ => ⟨S_, .i32⟩
  | .hbm, ⟨9, _⟩ => ⟨S_, .f32⟩
  | .hbm, ⟨10, _⟩ => ⟨S1664x4, .f32⟩
  | .hbm, ⟨11, _⟩ => ⟨S1664x1, .f32⟩
  | .hbm, ⟨12, _⟩ => ⟨S1664x1, .f32⟩
  | .hbm, ⟨13, _⟩ => ⟨S1664x1, .f32⟩
  | .hbm, ⟨14, _⟩ => ⟨S1664x1, .f32⟩
  | .hbm, ⟨15, _⟩ => ⟨S_, .f32⟩
  | .hbm, ⟨16, _⟩ => ⟨S1664x1, .f32⟩
  | .hbm, ⟨17, _⟩ => ⟨S1664x1, .f32⟩
  | .hbm, ⟨18, _⟩ => ⟨S1664x1, .f32⟩
  | .hbm, ⟨19, _⟩ => ⟨S_, .f32⟩
  | .hbm, ⟨20, _⟩ => ⟨S1664x1, .f32⟩
  | .hbm, ⟨21, _⟩ => ⟨S1664x1, .f32⟩
  | .hbm, ⟨22, _⟩ => ⟨S1664x1, .f32⟩
  | .hbm, ⟨23, _⟩ => ⟨S_, .f32⟩
  | .hbm, ⟨24, _⟩ => ⟨S1664x1, .f32⟩
  | .hbm, ⟨25, _⟩ => ⟨S1664x1, .f32⟩
  | .hbm, ⟨26, _⟩ => ⟨S1664x1, .f32⟩
  | .hbm, ⟨27, _⟩ => ⟨S_, .f32⟩
  | .hbm, ⟨28, _⟩ => ⟨S1664x1, .f32⟩
  | .hbm, ⟨29, _⟩ => ⟨S1664x1, .f32⟩
  | .hbm, ⟨30, _⟩ => ⟨S1664x1, .f32⟩
  | .hbm, ⟨31, _⟩ => ⟨S1664x4, .f32⟩
  | .hbm, ⟨32, _⟩ => ⟨S256x1664, .f32⟩
  | .hbm, ⟨33, _⟩ => ⟨S256x1664, .bf16⟩
  | .hbm, ⟨34, _⟩ => ⟨S4x1664, .f32⟩
  | .hbm, ⟨35, _⟩ => ⟨S4x1664, .f32⟩
  | .hbm, ⟨36, _⟩ => ⟨S1x1664, .f32⟩
  | .hbm, ⟨37, _⟩ => ⟨S1664, .f32⟩
  | .hbm, ⟨38, _⟩ => ⟨S1x1664, .f32⟩
  | .hbm, ⟨39, _⟩ => ⟨S1664, .f32⟩
  | .hbm, ⟨40, _⟩ => ⟨S1664, .f32⟩
  | .hbm, ⟨41, _⟩ => ⟨S1x1664, .f32⟩
  | .hbm, ⟨42, _⟩ => ⟨S1664, .f32⟩
  | .hbm, ⟨43, _⟩ => ⟨S1x1664, .f32⟩
  | .hbm, ⟨44, _⟩ => ⟨S1664, .f32⟩
  | .hbm, ⟨45, _⟩ => ⟨S1664, .f32⟩
  | .hbm, ⟨46, _⟩ => ⟨S1664, .f32⟩
  | .hbm, ⟨47, _⟩ => ⟨S1x1664, .f32⟩
  | .hbm, ⟨48, _⟩ => ⟨S14400x256, .f32⟩
  | .hbm, ⟨49, _⟩ => ⟨S14400x4, .f32⟩
  | .hbm, ⟨50, _⟩ => ⟨S14400x1600, .f32⟩
  | .hbm, ⟨51, _⟩ => ⟨S16x900x1600, .f32⟩
  | .local _ .vmem, ⟨0, _⟩ => ⟨S600x256, .f32⟩
  | .local _ .vmem, ⟨1, _⟩ => ⟨S600x256, .f32⟩
  | .local _ .vmem, ⟨2, _⟩ => ⟨S600x4, .f32⟩
  | .local _ .vmem, ⟨3, _⟩ => ⟨S600x4, .f32⟩
  | .local _ .vmem, ⟨4, _⟩ => ⟨S256x1664, .bf16⟩
  | .local _ .vmem, ⟨5, _⟩ => ⟨S4x1664, .f32⟩
  | .local _ .vmem, ⟨6, _⟩ => ⟨S4x1664, .f32⟩
  | .local _ .vmem, ⟨7, _⟩ => ⟨S1x1664, .f32⟩
  | .local _ .vmem, ⟨8, _⟩ => ⟨S600x1600, .f32⟩
  | .local _ .vmem, ⟨9, _⟩ => ⟨S600x1600, .f32⟩
  | _, _ => ⟨S16x900x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S600x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S600x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1664 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1664 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1664 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1664 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S600x1600 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  pads_S1600x256_S1664x256_0640_000 : S1600x256.Pads (![0, 0] : Fin 2 → Nat) ![64, 0] ![0, 0] S1664x256
  h_S_ : 0 < S_.numel
  pads_S1600x4_S1664x4_0640_000 : S1600x4.Pads (![0, 0] : Fin 2 → Nat) ![64, 0] ![0, 0] S1664x4
  slices_S1664x4_S1664x1_0_0 : S1664x4.Slices ![0, 0] S1664x1
  slices_S1664x4_S1664x1_0_1 : S1664x4.Slices ![0, 1] S1664x1
  slices_S1664x4_S1664x1_0_2 : S1664x4.Slices ![0, 2] S1664x1
  slices_S1664x4_S1664x1_0_3 : S1664x4.Slices ![0, 3] S1664x1
  bcast_S_S1664x1 : S_.BroadcastsInDim S1664x1 (![] : Fin 0 → Fin S1664x1.rank)
  concatenates_S1664x1_S1664x1_S1664x1_S1664x1_S1664x4_d1 : Shape.Concatenates [S1664x1, S1664x1, S1664x1, S1664x1] S1664x4 1
  transposes_S1664x256_S256x1664_1_0 : S1664x256.Transposes [1, 0] S256x1664
  bitsLt_bf16_f32 : FTy.bits .bf16 < FTy.bits .f32
  transposes_S1664x4_S4x1664_1_0 : S1664x4.Transposes [1, 0] S4x1664
  slices_S4x1664_S1x1664_2_0 : S4x1664.Slices ![2, 0] S1x1664
  shapeCasts_S1x1664_S1664 : S1x1664.ShapeCasts S1664
  slices_S4x1664_S1x1664_0_0 : S4x1664.Slices ![0, 0] S1x1664
  slices_S4x1664_S1x1664_3_0 : S4x1664.Slices ![3, 0] S1x1664
  slices_S4x1664_S1x1664_1_0 : S4x1664.Slices ![1, 0] S1x1664
  shapeCasts_S1664_S1x1664 : S1664.ShapeCasts S1x1664
  shapeCasts_S16x900x256_S14400x256 : S16x900x256.ShapeCasts S14400x256
  shapeCasts_S16x900x4_S14400x4 : S16x900x4.ShapeCasts S14400x4
  inb_S600x256_S600x256_0_0 : ∀ a, (![0, 0] : Fin 2 → Nat) a + S600x256.size a ≤ S600x256.size a
  h_S600x256 : 0 < S600x256.numel
  shapeCasts_S600x256_S600x256 : S600x256.ShapeCasts S600x256
  reduces_S600x256_S600 : S600x256.Reduces [1] S600
  shapeCasts_S600_S600x1 : S600.ShapeCasts S600x1
  broadcasts_S600x1_S600x256 : S600x1.Broadcasts S600x256
  inb_S256x1664_S256x1664_0_0 : ∀ a, (![0, 0] : Fin 2 → Nat) a + S256x1664.size a ≤ S256x1664.size a
  h_S256x1664 : 0 < S256x1664.numel
  shapeCasts_S256x1664_S256x1664 : S256x1664.ShapeCasts S256x1664
  inb_S600x4_S600x4_0_0 : ∀ a, (![0, 0] : Fin 2 → Nat) a + S600x4.size a ≤ S600x4.size a
  h_S600x4 : 0 < S600x4.numel
  shapeCasts_S600x4_S600x4 : S600x4.ShapeCasts S600x4
  slices_S600x4_o0_0_S600x1 : S600x4.Slices ![0, 0] S600x1
  slices_S600x4_o0_1_S600x1 : S600x4.Slices ![0, 1] S600x1
  slices_S600x4_o0_2_S600x1 : S600x4.Slices ![0, 2] S600x1
  slices_S600x4_o0_3_S600x1 : S600x4.Slices ![0, 3] S600x1
  inb_S4x1664_S4x1664_0_0 : ∀ a, (![0, 0] : Fin 2 → Nat) a + S4x1664.size a ≤ S4x1664.size a
  h_S4x1664 : 0 < S4x1664.numel
  shapeCasts_S4x1664_S4x1664 : S4x1664.ShapeCasts S4x1664
  slices_S4x1664_o0_0_S1x1664 : S4x1664.Slices ![0, 0] S1x1664
  slices_S4x1664_o1_0_S1x1664 : S4x1664.Slices ![1, 0] S1x1664
  slices_S4x1664_o2_0_S1x1664 : S4x1664.Slices ![2, 0] S1x1664
  slices_S4x1664_o3_0_S1x1664 : S4x1664.Slices ![3, 0] S1x1664
  broadcasts_S600x1_S600x1664 : S600x1.Broadcasts S600x1664
  broadcasts_S1x1664_S600x1664 : S1x1664.Broadcasts S600x1664
  inb_S1x1664_S1x1664_0_0 : ∀ a, (![0, 0] : Fin 2 → Nat) a + S1x1664.size a ≤ S1x1664.size a
  h_S1x1664 : 0 < S1x1664.numel
  shapeCasts_S1x1664_S1x1664 : S1x1664.ShapeCasts S1x1664
  slices_S600x1664_o0_0_S600x1600 : S600x1664.Slices ![0, 0] S600x1600
  inb_S600x1600_S600x1600_0_0 : ∀ a, (![0, 0] : Fin 2 → Nat) a + S600x1600.size a ≤ S600x1600.size a
  h_S600x1600 : 0 < S600x1600.numel
  shapeCasts_S14400x1600_S16x900x1600 : S14400x1600.ShapeCasts S16x900x1600
  dot_S600x256_S256x1664_S600x1664_1_0_0_1_n_n_wf : DotDims.WF S600x256 S256x1664 S600x1664 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S600x256.size a ≤ S14400x256.size a
  hwx0_0 : ∀ i : grid0.Coords, EltTy.bits .f32 = 32 ∨ (Rect.block (s := S14400x256) S600x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S600x4.size a ≤ S14400x4.size a
  hwx0_1 : ∀ i : grid0.Coords, EltTy.bits .f32 = 32 ∨ (Rect.block (s := S14400x4) S600x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1664.size a ≤ S256x1664.size a
  hwx0_2 : ∀ i : grid0.Coords, EltTy.bits .bf16 = 32 ∨ (Rect.block (s := S256x1664) S256x1664.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1664.size a ≤ S4x1664.size a
  hwx0_3 : ∀ i : grid0.Coords, EltTy.bits .f32 = 32 ∨ (Rect.block (s := S4x1664) S4x1664.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x1664.size a ≤ S4x1664.size a
  hwx0_4 : ∀ i : grid0.Coords, EltTy.bits .f32 = 32 ∨ (Rect.block (s := S4x1664) S4x1664.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1664.size a ≤ S1x1664.size a
  hwx0_5 : ∀ i : grid0.Coords, EltTy.bits .f32 = 32 ∨ (Rect.block (s := S1x1664) S1x1664.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S600x1600.size a ≤ S14400x1600.size a
  hwx0_6 : ∀ i : grid0.Coords, EltTy.bits .f32 = 32 ∨ (Rect.block (s := S14400x1600) S600x1600.size (cc0_transform_6 i) (hinb0_6 i)).WholeWords (EltTy.packing .f32)

variable [Facts₀]

def dot_S600x256_S256x1664_S600x1664_1_0_0_1_n_n : DotDims S600x256 S256x1664 S600x1664 where
  lhsContracting := [1]
  rhsContracting := [0]
  lhsNonContracting := [0]
  rhsNonContracting := [1]
  lhsBatch := []
  rhsBatch := []
  wf := dot_S600x256_S256x1664_S600x1664_1_0_0_1_n_n_wf

abbrev win0_0 : Pipeline.Window sig grid0 :=
  Pipeline.Window.ofSpec (Memref.whole main_v35) S600x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S600x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S256x1664.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S4x1664.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S4x1664.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S1x1664.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v37) S600x1600.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x900x256 : Shape := ⟨3, ![16, 900, 256]⟩
abbrev S16x900x4 : Shape := ⟨3, ![16, 900, 4]⟩
abbrev S1600x256 : Shape := ⟨2, ![1600, 256]⟩
abbrev S1600x4 : Shape := ⟨2, ![1600, 4]⟩
abbrev S16 : Shape := ⟨1, ![16]⟩
abbrev S14400x256 : Shape := ⟨2, ![14400, 256]⟩
abbrev S14400x4 : Shape := ⟨2, ![14400, 4]⟩
abbrev S_ : Shape := ⟨0, ![]⟩
abbrev S14400 : Shape := ⟨1, ![14400]⟩
abbrev S14400x1 : Shape := ⟨2, ![14400, 1]⟩
abbrev S256x1600 : Shape := ⟨2, ![256, 1600]⟩
abbrev S14400x1600 : Shape := ⟨2, ![14400, 1600]⟩
abbrev S14400x1x4 : Shape := ⟨3, ![14400, 1, 4]⟩
abbrev S1x1600x4 : Shape := ⟨3, ![1, 1600, 4]⟩
abbrev S14400x1600x4 : Shape := ⟨3, ![14400, 1600, 4]⟩
abbrev S1600x1 : Shape := ⟨2, ![1600, 1]⟩
abbrev S1600 : Shape := ⟨1, ![1600]⟩
abbrev S14400x2 : Shape := ⟨2, ![14400, 2]⟩
abbrev S14400x1x2 : Shape := ⟨3, ![14400, 1, 2]⟩
abbrev S1600x2 : Shape := ⟨2, ![1600, 2]⟩
abbrev S1x1600x2 : Shape := ⟨3, ![1, 1600, 2]⟩
abbrev S14400x1600x2 : Shape := ⟨3, ![14400, 1600, 2]⟩
abbrev S14400x1600x1 : Shape := ⟨3, ![14400, 1600, 1]⟩
abbrev S1x1600 : Shape := ⟨2, ![1, 1600]⟩
abbrev S16x900x1600 : Shape := ⟨3, ![16, 900, 1600]⟩

abbrev nBuf : Space → Nat
  | .hbm => 170
  | .vmem => 0
  | .smem => 0
  | _ => 0

abbrev hbmTy0_0 (i : Nat) : BufTy := match i % 128 with
  | 0 => ⟨S16x900x256, .f32⟩
  | 1 => ⟨S16x900x4, .f32⟩
  | 2 => ⟨S1600x256, .f32⟩
  | 3 => ⟨S1600x4, .f32⟩
  | 4 => ⟨S16, .i32⟩
  | 5 => ⟨S14400x256, .f32⟩
  | 6 => ⟨S14400x4, .f32⟩
  | 7 => ⟨S14400x256, .f32⟩
  | 8 => ⟨S_, .f32⟩
  | 9 => ⟨S14400, .f32⟩
  | 10 => ⟨S14400x1, .f32⟩
  | 11 => ⟨S14400x1, .f32⟩
  | 12 => ⟨S14400x256, .f32⟩
  | 13 => ⟨S14400x256, .f32⟩
  | 14 => ⟨S256x1600, .f32⟩
  | 15 => ⟨S14400x1600, .f32⟩
  | 16 => ⟨S_, .f32⟩
  | 17 => ⟨S14400x1600, .f32⟩
  | 18 => ⟨S14400x1600, .f32⟩
  | 19 => ⟨S14400x1x4, .f32⟩
  | 20 => ⟨S1x1600x4, .f32⟩
  | 21 => ⟨S14400x1600x4, .f32⟩
  | 22 => ⟨S14400x1600x4, .f32⟩
  | 23 => ⟨S14400x1600x4, .f32⟩
  | 24 => ⟨S14400x1600x4, .f32⟩
  | 25 => ⟨S_, .f32⟩
  | 26 => ⟨S14400x1600, .f32⟩
  | 27 => ⟨S14400x1, .f32⟩
  | 28 => ⟨S14400x1, .f32⟩
  | 29 => ⟨S14400x1, .f32⟩
  | 30 => ⟨S14400x1, .f32⟩
  | 31 => ⟨S_, .f32⟩
  | 32 => ⟨S14400x1, .f32⟩
  | 33 => ⟨S14400x1, .f32⟩
  | 34 => ⟨S14400x1, .f32⟩
  | 35 => ⟨S_, .f32⟩
  | 36 => ⟨S14400x1, .f32⟩
  | 37 => ⟨S14400x1, .f32⟩
  | 38 => ⟨S14400x1, .f32⟩
  | 39 => ⟨S_, .f32⟩
  | 40 => ⟨S14400x1, .f32⟩
  | 41 => ⟨S14400x1, .f32⟩
  | 42 => ⟨S14400x1, .f32⟩
  | 43 => ⟨S_, .f32⟩
  | 44 => ⟨S14400x1, .f32⟩
  | 45 => ⟨S14400x1, .f32⟩
  | 46 => ⟨S14400x1, .f32⟩
  | 47 => ⟨S14400x4, .f32⟩
  | 48 => ⟨S1600x1, .f32⟩
  | 49 => ⟨S1600x1, .f32⟩
  | 50 => ⟨S1600x1, .f32⟩
  | 51 => ⟨S1600x1, .f32⟩
  | 52 => ⟨S_, .f32⟩
  | 53 => ⟨S1600x1, .f32⟩
  | 54 => ⟨S1600x1, .f32⟩
  | 55 => ⟨S1600x1, .f32⟩
  | 56 => ⟨S_, .f32⟩
  | 57 => ⟨S1600x1, .f32⟩
  | 58 => ⟨S1600x1, .f32⟩
  | 59 => ⟨S1600x1, .f32⟩
  | 60 => ⟨S_, .f32⟩
  | 61 => ⟨S1600x1, .f32⟩
  | 62 => ⟨S1600x1, .f32⟩
  | 63 => ⟨S1600x1, .f32⟩
  | 64 => ⟨S_, .f32⟩
  | 65 => ⟨S1600x1, .f32⟩
  | 66 => ⟨S1600x1, .f32⟩
  | 67 => ⟨S1600x1, .f32⟩
  | 68 => ⟨S1600x4, .f32⟩
  | 69 => ⟨S14400x1, .f32⟩
  | 70 => ⟨S14400, .f32⟩
  | 71 => ⟨S14400x1, .f32⟩
  | 72 => ⟨S14400, .f32⟩
  | 73 => ⟨S14400, .f32⟩
  | 74 => ⟨S14400x1, .f32⟩
  | 75 => ⟨S14400, .f32⟩
  | 76 => ⟨S14400x1, .f32⟩
  | 77 => ⟨S14400, .f32⟩
  | 78 => ⟨S14400, .f32⟩
  | 79 => ⟨S14400, .f32⟩
  | 80 => ⟨S1600x1, .f32⟩
  | 81 => ⟨S1600, .f32⟩
  | 82 => ⟨S1600x1, .f32⟩
  | 83 => ⟨S1600, .f32⟩
  | 84 => ⟨S1600, .f32⟩
  | 85 => ⟨S1600x1, .f32⟩
  | 86 => ⟨S1600, .f32⟩
  | 87 => ⟨S1600x1, .f32⟩
  | 88 => ⟨S1600, .f32⟩
  | 89 => ⟨S1600, .f32⟩
  | 90 => ⟨S1600, .f32⟩
  | 91 => ⟨S14400x2, .f32⟩
  | 92 => ⟨S14400x1x2, .f32⟩
  | 93 => ⟨S1600x2, .f32⟩
  | 94 => ⟨S1x1600x2, .f32⟩
  | 95 => ⟨S14400x1600x2, .f32⟩
  | 96 => ⟨S14400x1600x2, .f32⟩
  | 97 => ⟨S14400x1600x2, .f32⟩
  | 98 => ⟨S14400x2, .f32⟩
  | 99 => ⟨S14400x1x2, .f32⟩
  | 100 => ⟨S1600x2, .f32⟩
  | 101 => ⟨S1x1600x2, .f32⟩
  | 102 => ⟨S14400x1600x2, .f32⟩
  | 103 => ⟨S14400x1600x2, .f32⟩
  | 104 => ⟨S14400x1600x2, .f32⟩
  | 105 => ⟨S14400x1600x2, .f32⟩
  | 106 => ⟨S_, .f32⟩
  | 107 => ⟨S_, .f32⟩
  | 108 => ⟨S14400x1600x2, .f32⟩
  | 109 => ⟨S14400x1600x2, .f32⟩
  | 110 => ⟨S14400x1600x1, .f32⟩
  | 111 => ⟨S14400x1600, .f32⟩
  | 112 => ⟨S14400x1600x1, .f32⟩
  | 113 => ⟨S14400x1600, .f32⟩
  | 114 => ⟨S14400x1600, .f32⟩
  | 115 => ⟨S14400x1, .f32⟩
  | 116 => ⟨S1x1600, .f32⟩
  | 117 => ⟨S14400x1600, .f32⟩
  | 118 => ⟨S14400x1600, .f32⟩
  | 119 => ⟨S14400x1600, .f32⟩
  | 120 => ⟨S14400x1600, .f32⟩
  | 121 => ⟨S14400x1600, .f32⟩
  | 122 => ⟨S14400x2, .f32⟩
  | 123 => ⟨S14400x1x2, .f32⟩
  | 124 => ⟨S1600x2, .f32⟩
  | 125 => ⟨S1x1600x2, .f32⟩
  | 126 => ⟨S14400x1600x2, .f32⟩
  | 127 => ⟨S14400x1600x2, .f32⟩
  | _ => ⟨S16x900x256, .f32⟩

abbrev hbmTy0_1 (i : Nat) : BufTy := match i % 128 with
  | 0 => ⟨S14400x1600x2, .f32⟩
  | 1 => ⟨S14400x2, .f32⟩
  | 2 => ⟨S14400x1x2, .f32⟩
  | 3 => ⟨S1600x2, .f32⟩
  | 4 => ⟨S1x1600x2, .f32⟩
  | 5 => ⟨S14400x1600x2, .f32⟩
  | 6 => ⟨S14400x1600x2, .f32⟩
  | 7 => ⟨S14400x1600x2, .f32⟩
  | 8 => ⟨S14400x1600x2, .f32⟩
  | 9 => ⟨S_, .f32⟩
  | 10 => ⟨S_, .f32⟩
  | 11 => ⟨S14400x1600x2, .f32⟩
  | 12 => ⟨S14400x1600x2, .f32⟩
  | 13 => ⟨S14400x1600x1, .f32⟩
  | 14 => ⟨S14400x1600, .f32⟩
  | 15 => ⟨S14400x1600x1, .f32⟩
  | 16 => ⟨S14400x1600, .f32⟩
  | 17 => ⟨S14400x1600, .f32⟩
  | 18 => ⟨S14400x1600, .f32⟩
  | 19 => ⟨S14400x1600, .f32⟩
  | 20 => ⟨S14400x1600, .f32⟩
  | 21 => ⟨S14400x1600, .f32⟩
  | 22 => ⟨S_, .f32⟩
  | 23 => ⟨S14400x1600, .f32⟩
  | 24 => ⟨S14400x1600, .f32⟩
  | 25 => ⟨S_, .f32⟩
  | 26 => ⟨S14400x1600, .f32⟩
  | 27 => ⟨S14400x1600, .f32⟩
  | 28 => ⟨S14400x1600, .f32⟩
  | 29 => ⟨S_, .f32⟩
  | 30 => ⟨S14400x1600, .f32⟩
  | 31 => ⟨S14400x1600, .f32⟩
  | 32 => ⟨S14400x1600, .f32⟩
  | 33 => ⟨S16x900x1600, .f32⟩
  | 34 => ⟨S16x900x1600, .f32⟩
  | 35 => ⟨S16x900x1600, .f32⟩
  | 36 => ⟨S_, .f32⟩
  | 37 => ⟨S16x900x1600, .f32⟩
  | 38 => ⟨S16x900x1600, .f32⟩
  | 39 => ⟨S_, .f32⟩
  | 40 => ⟨S16x900x1600, .f32⟩
  | 41 => ⟨S16x900x1600, .f32⟩
  | _ => ⟨S16x900x256, .f32⟩

abbrev hbmTy (i : Nat) : BufTy := match i / 128 with
  | 0 => hbmTy0_0 i
  | 1 => hbmTy0_1 i
  | _ => ⟨S16x900x256, .f32⟩

abbrev bufTy : (tb : Table) → Fin (tcTables nBuf tb) → BufTy
  | .hbm, ⟨i, _⟩ => hbmTy i
  | _, _ => ⟨S16x900x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call1_cst : Ref sig .tc := ⟨.hbm, 16, rfl⟩
abbrev main_call1_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_cst_8 : Ref sig .tc := ⟨.hbm, 106, rfl⟩
abbrev main_call2_v0 : Ref sig .tc := ⟨.hbm, 107, rfl⟩
abbrev main_call2_v1 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_cst_9 : Ref sig .tc := ⟨.hbm, 137, rfl⟩
abbrev main_call3_v0 : Ref sig .tc := ⟨.hbm, 138, rfl⟩
abbrev main_call3_v1 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_cst_10 : Ref sig .tc := ⟨.hbm, 150, rfl⟩
abbrev main_v124 : Ref sig .tc := ⟨.hbm, 151, rfl⟩
abbrev main_v125 : Ref sig .tc := ⟨.hbm, 152, rfl⟩
abbrev main_cst_11 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_cst_12 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_cst_13 : Ref sig .tc := ⟨.hbm, 164, rfl⟩
abbrev main_v135 : Ref sig .tc := ⟨.hbm, 165, rfl⟩
abbrev main_v136 : Ref sig .tc := ⟨.hbm, 166, rfl⟩
abbrev main_cst_14 : Ref sig .tc := ⟨.hbm, 167, rfl⟩
abbrev main_v137 : Ref sig .tc := ⟨.hbm, 168, rfl⟩
abbrev main_v138 : Ref sig .tc := ⟨.hbm, 169, rfl⟩

abbrev nD : Nat := 1
abbrev τ : Topo := Topo.v7x

variable {F : FTy → Type} [FloatOps F]

class Facts₀ : Prop where
  shapeCasts_S16x900x256_S14400x256 : S16x900x256.ShapeCasts S14400x256
  shapeCasts_S16x900x4_S14400x4 : S16x900x4.ShapeCasts S14400x4
  reducesTo_S14400x256_S14400_d1 : S14400x256.ReducesTo [1] S14400
  h_S_ : 0 < S_.numel
  bcast_S14400_S14400x1_0 : S14400.BroadcastsInDim S14400x1 (![0] : Fin 1 → Fin S14400x1.rank)
  bcast_S14400x1_S14400x256_0_1 : S14400x1.BroadcastsInDim S14400x256 (![0, 1] : Fin 2 → Fin S14400x256.rank)
  transposes_S1600x256_S256x1600_1_0 : S1600x256.Transposes [1, 0] S256x1600
  bcast_S_S14400x1600 : S_.BroadcastsInDim S14400x1600 (![] : Fin 0 → Fin S14400x1600.rank)
  bcast_S14400x4_S14400x1x4_0_2 : S14400x4.BroadcastsInDim S14400x1x4 (![0, 2] : Fin 2 → Fin S14400x1x4.rank)
  bcast_S1600x4_S1x1600x4_1_2 : S1600x4.BroadcastsInDim S1x1600x4 (![1, 2] : Fin 2 → Fin S1x1600x4.rank)
  bcast_S14400x1x4_S14400x1600x4_0_1_2 : S14400x1x4.BroadcastsInDim S14400x1600x4 (![0, 1, 2] : Fin 3 → Fin S14400x1600x4.rank)
  bcast_S1x1600x4_S14400x1600x4_0_1_2 : S1x1600x4.BroadcastsInDim S14400x1600x4 (![0, 1, 2] : Fin 3 → Fin S14400x1600x4.rank)
  reducesTo_S14400x1600x4_S14400x1600_d2 : S14400x1600x4.ReducesTo [2] S14400x1600
  slices_S14400x4_S14400x1_0_0 : S14400x4.Slices ![0, 0] S14400x1
  slices_S14400x4_S14400x1_0_1 : S14400x4.Slices ![0, 1] S14400x1
  slices_S14400x4_S14400x1_0_2 : S14400x4.Slices ![0, 2] S14400x1
  slices_S14400x4_S14400x1_0_3 : S14400x4.Slices ![0, 3] S14400x1
  bcast_S_S14400x1 : S_.BroadcastsInDim S14400x1 (![] : Fin 0 → Fin S14400x1.rank)
  concatenates_S14400x1_S14400x1_S14400x1_S14400x1_S14400x4_d1 : Shape.Concatenates [S14400x1, S14400x1, S14400x1, S14400x1] S14400x4 1
  slices_S1600x4_S1600x1_0_0 : S1600x4.Slices ![0, 0] S1600x1
  slices_S1600x4_S1600x1_0_1 : S1600x4.Slices ![0, 1] S1600x1
  slices_S1600x4_S1600x1_0_2 : S1600x4.Slices ![0, 2] S1600x1
  slices_S1600x4_S1600x1_0_3 : S1600x4.Slices ![0, 3] S1600x1
  bcast_S_S1600x1 : S_.BroadcastsInDim S1600x1 (![] : Fin 0 → Fin S1600x1.rank)
  concatenates_S1600x1_S1600x1_S1600x1_S1600x1_S1600x4_d1 : Shape.Concatenates [S1600x1, S1600x1, S1600x1, S1600x1] S1600x4 1
  shapeCasts_S14400x1_S14400 : S14400x1.ShapeCasts S14400
  shapeCasts_S1600x1_S1600 : S1600x1.ShapeCasts S1600
  slices_S14400x4_S14400x2_0_0 : S14400x4.Slices ![0, 0] S14400x2
  bcast_S14400x2_S14400x1x2_0_2 : S14400x2.BroadcastsInDim S14400x1x2 (![0, 2] : Fin 2 → Fin S14400x1x2.rank)
  slices_S1600x4_S1600x2_0_0 : S1600x4.Slices ![0, 0] S1600x2
  bcast_S1600x2_S1x1600x2_1_2 : S1600x2.BroadcastsInDim S1x1600x2 (![1, 2] : Fin 2 → Fin S1x1600x2.rank)
  bcast_S14400x1x2_S14400x1600x2_0_1_2 : S14400x1x2.BroadcastsInDim S14400x1600x2 (![0, 1, 2] : Fin 3 → Fin S14400x1600x2.rank)
  bcast_S1x1600x2_S14400x1600x2_0_1_2 : S1x1600x2.BroadcastsInDim S14400x1600x2 (![0, 1, 2] : Fin 3 → Fin S14400x1600x2.rank)
  slices_S14400x4_S14400x2_0_2 : S14400x4.Slices ![0, 2] S14400x2
  slices_S1600x4_S1600x2_0_2 : S1600x4.Slices ![0, 2] S1600x2
  bcast_S_S14400x1600x2 : S_.BroadcastsInDim S14400x1600x2 (![] : Fin 0 → Fin S14400x1600x2.rank)
  slices_S14400x1600x2_S14400x1600x1_0_0_0 : S14400x1600x2.Slices ![0, 0, 0] S14400x1600x1
  shapeCasts_S14400x1600x1_S14400x1600 : S14400x1600x1.ShapeCasts S14400x1600
  slices_S14400x1600x2_S14400x1600x1_0_0_1 : S14400x1600x2.Slices ![0, 0, 1] S14400x1600x1
  bcast_S1600_S1x1600_1 : S1600.BroadcastsInDim S1x1600 (![1] : Fin 1 → Fin S1x1600.rank)
  bcast_S14400x1_S14400x1600_0_1 : S14400x1.BroadcastsInDim S14400x1600 (![0, 1] : Fin 2 → Fin S14400x1600.rank)
  bcast_S1x1600_S14400x1600_0_1 : S1x1600.BroadcastsInDim S14400x1600 (![0, 1] : Fin 2 → Fin S14400x1600.rank)
  shapeCasts_S14400x1600_S16x900x1600 : S14400x1600.ShapeCasts S16x900x1600
  bcast_S_S16x900x1600 : S_.BroadcastsInDim S16x900x1600 (![] : Fin 0 → Fin S16x900x1600.rank)
  dot_S14400x256_S256x1600_S14400x1600_1_0_0_1_n_n_wf : DotDims.WF S14400x256 S256x1600 S14400x1600 [1] [0] [0] [1] [] []

variable [Facts₀]

def dot_S14400x256_S256x1600_S14400x1600_1_0_0_1_n_n : DotDims S14400x256 S256x1600 S14400x1600 where
  lhsContracting := [1]
  rhsContracting := [0]
  lhsNonContracting := [0]
  rhsNonContracting := [1]
  lhsBatch := []
  rhsBatch := []
  wf := dot_S14400x256_S256x1600_S14400x1600_1_0_0_1_n_n_wf

class Facts : Prop extends Facts₀ where

variable [Facts]
-- ==== Proof.BEntry.lean ====
/-
  What the kernel's region finds and what its body computes, named once for the modules that reason about them:
  the contents of the TensorCore buffers when the region is entered (the host lines before it applied to the
  launch memory), and the value the body stores into the output block as one term over the six loaded blocks.
-/
import proofs.«132197_j57208964382737_2_alg».proof.Proof.Gen.Kernel.Launch
import proofs.«132197_j57208964382737_2_alg».proof.Proof.Gen.Kernel.Skeleton

noncomputable section

namespace Cert.Kernel.BEntry

open Idealize.ShloMosaic Idealize.ShloMosaic.TcCoe Idealize.SL.Sem
open Cert.Kernel Cert.Kernel.Gen

variable {F : FTy → Type} [FloatOps F]

/-- Core c's buffer contents when the region is entered: the five stretches of host lines before it, in
    order, applied to the launch memory. -/
abbrev V0 (m : (ℓ : Loc nD τ sig) → Buf (Elt F) ℓ) (c : Dev nD) : Valuation τ sig (Elt F) :=
  StableHlo.after (List.flatten [hostOps0, hostOps0_1, hostOps0_2, hostOps0_3, hostOps0_4]) (fun b => m (c, b))
/-- The same read at a TensorCore reference. -/
abbrev V (m : (ℓ : Loc nD τ sig) → Buf (Elt F) ℓ) (c : Dev nD) (b : Ref sig .tc) : Buf (Elt F) ((c : Thread nD τ).loc b) :=
  V0 m c (Proc.devRef .tc b)

/-- The value the body stores into its [600, 1600] output block, from the six blocks it loads: the logit rows x0,
    the box rows x1, the transposed embeddings x2, the transposed target boxes in centre form x3 and in corner
    form x4, and the target areas x5. -/
def stored (x0 : Vec F S600x256 .f32) (x1 : Vec F S600x4 .f32) (x2 : Vec F S256x1664 .bf16)
    (x3 : Vec F S4x1664 .f32) (x4 : Vec F S4x1664 .f32) (x5 : Vec F S1x1664 .f32) : FVec F S600x1600 .f32 :=
  k0_pay1 (k0_pay2 x0 x2) (k0_pay10 x1) (k0_pay11 x1)
    (k0_pay18 (k0_pay6 x1) (k0_pay7 x1) (k0_pay13 x3) (k0_pay14 x3) (k0_pay15 x1 x3) (k0_pay16 x1) (k0_pay17 x3))
    (k0_pay22 x4) (k0_pay23 x4)
    (k0_pay25 (k0_pay8 x1) (k0_pay9 x1) (k0_pay10 x1) (k0_pay11 x1) x4 x5)
    (k0_pay26 (k0_pay8 x1) (k0_pay9 x1) (k0_pay10 x1) (k0_pay11 x1) x4 x5)
    (k0_pay27 (k0_pay8 x1) x4) (k0_pay28 (k0_pay9 x1) x4)

end Cert.Kernel.BEntry

end
-- ==== Proof.BFrame.lean ====
/-
  The frame run of the kernel's program: under no hypothesis on the memory, every weakly fair execution of @main —
  the host lines that lay out the operands, the one region over its 24 grid points, the reshape after it — terminates
  without a fault, leaves the five argument arrays as launched, and leaves the region's output array at what the
  pipeline's proof data computes: block t of it is the body's stored value over the six input blocks at point t.
  The body loads each input block whole, computes, and stores the [600, 1600] output block whole; the windows of the
  four target-side operands stay at block (0, 0) for the whole grid and are found in place at every point.
-/
import proofs.«132197_j57208964382737_2_alg».proof.Proof.BEntry
import proofs.«132197_j57208964382737_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.BFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.BEntry

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the reshape after it: it reduces to the region
    continued by the later line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The line after the region touches only unscoped TensorCore buffers: the region's arrays and the buffers that
    bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the line after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the line after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the line after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the line after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the line after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (where it is
    not fetched its block index has not moved), for any proof data whose arrays are the region-entry contents and
    whose body leaves the input blocks in place. -/

theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a frame run read at the five argument arrays —
    none is an array of the region, and no host line writes one — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c)⟩) h

/-! ## The body's accesses: each block whole -/

abbrev rA : Rect S600x256 := Rect.unit (s := S600x256) ![0, 0] S600x256.size inb_S600x256_S600x256_0_0
abbrev rB : Rect S600x4 := Rect.unit (s := S600x4) ![0, 0] S600x4.size inb_S600x4_S600x4_0_0
abbrev rC : Rect S256x1664 := Rect.unit (s := S256x1664) ![0, 0] S256x1664.size inb_S256x1664_S256x1664_0_0
abbrev rD : Rect S4x1664 := Rect.unit (s := S4x1664) ![0, 0] S4x1664.size inb_S4x1664_S4x1664_0_0
abbrev rE : Rect S1x1664 := Rect.unit (s := S1x1664) ![0, 0] S1x1664.size inb_S1x1664_S1x1664_0_0
abbrev rO : Rect S600x1600 := Rect.unit (s := S600x1600) ![0, 0] S600x1600.size inb_S600x1600_S600x1600_0_0

/-- The output window's staging buffer after the body, from the six input blocks: its one store, of the body's
    value over the loaded blocks. -/
def out6 (x0 : Vec F S600x256 .f32) (x1 : Vec F S600x4 .f32) (x2 : Vec F S256x1664 .bf16) (x3 : Vec F S4x1664 .f32) (x4 : Vec F S4x1664 .f32) (x5 : Vec F S1x1664 .f32) : Vec F S600x1600 .f32 :=
  View.canon [⟨rO, stored (View.ld x0 rA) (View.ld x1 rB) (View.ld x2 rC) (View.ld x3 rD) (View.ld x4 rD) (View.ld x5 rE)⟩]

/-- The one store covers the buffer. -/
theorem cover6 (p0 : Vec F S600x1600 .f32) (y : S600x1600.Idx) :
    ∃ pc ∈ ([⟨rO, p0⟩] : List (View.Piece (Elt F) S600x1600 .f32)), y ∈ pc.1.set :=
  View.cover_of_tiled [⟨rO, p0⟩] S600x1600.size (by rfl) y

/-! ## The body's triple -/

set_option maxHeartbeats 4000000 in
/-- The body on whole staging memrefs, the inputs' at contents x0 … x5 and the output's at anything, runs to the
    continuation holding the inputs' as they were and the output's at out6 of them. -/
theorem sound_kernel (c : Dev nD) (E : Set ℕ) (i : grid0.Coords) (arg1 : Memref sig .tc .vmem S600x256 .f32) (harg1 : arg1.IsWhole) (arg2 : Memref sig .tc .vmem S600x4 .f32) (harg2 : arg2.IsWhole) (arg3 : Memref sig .tc .vmem S256x1664 .bf16) (harg3 : arg3.IsWhole) (arg4 : Memref sig .tc .vmem S4x1664 .f32) (harg4 : arg4.IsWhole) (arg5 : Memref sig .tc .vmem S4x1664 .f32) (harg5 : arg5.IsWhole) (arg6 : Memref sig .tc .vmem S1x1664 .f32) (harg6 : arg6.IsWhole) (arg7 : Memref sig .tc .vmem S600x1600 .f32) (harg7 : arg7.IsWhole)
    (x0 : Vec F S600x256 .f32) (x1 : Vec F S600x4 .f32) (x2 : Vec F S256x1664 .bf16) (x3 : Vec F S4x1664 .f32) (x4 : Vec F S4x1664 .f32) (x5 : Vec F S1x1664 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out6 x0 x1 x2 x3 x4 x5)) -∗ K ⟨⟩))
      ⊢ wp frame (wpE (defs₀ (F := F)) Variants.none c none) E (cc0__cost_kernel i arg1 harg1 arg2 harg2 arg3 harg3 arg4 harg4 arg5 harg5 arg6 harg6 arg7 harg7) K := by
  simp only [cc0__cost_kernel_eq_skeleton]; unfold cc0__cost_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  unfold out6 stored
  exact View.read_writes_eq_canon _ _ _ (cover6 _)

/-! ## The pipeline's proof data -/

/-- The proof data of the one pipeline on core c: the arrays as the region finds them; after the body at point t
    each input's buffer at its block and the output's at out6 of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = out6 (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the body's triple applies; the invariant and
    the core's owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters: every weakly fair execution of @main terminates, and every final state has
    the region's arrays at what the library computes from the proof data and every other unscoped buffer as the
    line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.BFrame

end
-- ==== Proof.KEntry.lean ====
/-
  What the kernel's region finds and what its body computes, named once for the modules that reason about them:
  the contents of the TensorCore buffers when the region is entered (the host lines before it applied to the
  launch memory), and the value the body stores into the output block as one term over the six loaded blocks.
-/
import proofs.«132197_j57208964382737_2_alg».proof.Proof.Gen.KernelIdeal.Launch
import proofs.«132197_j57208964382737_2_alg».proof.Proof.Gen.KernelIdeal.Skeleton

noncomputable section

namespace Cert.KernelIdeal.KEntry

open Idealize.ShloMosaic Idealize.ShloMosaic.TcCoe Idealize.SL.Sem
open Cert.KernelIdeal Cert.KernelIdeal.Gen

variable {F : FTy → Type} [FloatOps F]

/-- Core c's buffer contents when the region is entered: the five stretches of host lines before it, in
    order, applied to the launch memory. -/
abbrev V0 (m : (ℓ : Loc nD τ sig) → Buf (Elt F) ℓ) (c : Dev nD) : Valuation τ sig (Elt F) :=
  StableHlo.after (List.flatten [hostOps0, hostOps0_1, hostOps0_2, hostOps0_3, hostOps0_4]) (fun b => m (c, b))
/-- The same read at a TensorCore reference. -/
abbrev V (m : (ℓ : Loc nD τ sig) → Buf (Elt F) ℓ) (c : Dev nD) (b : Ref sig .tc) : Buf (Elt F) ((c : Thread nD τ).loc b) :=
  V0 m c (Proc.devRef .tc b)

/-- The value the body stores into its [600, 1600] output block, from the six blocks it loads: the logit rows x0,
    the box rows x1, the transposed embeddings x2, the transposed target boxes in centre form x3 and in corner
    form x4, and the target areas x5. -/
def stored (x0 : Vec F S600x256 .f32) (x1 : Vec F S600x4 .f32) (x2 : Vec F S256x1664 .bf16)
    (x3 : Vec F S4x1664 .f32) (x4 : Vec F S4x1664 .f32) (x5 : Vec F S1x1664 .f32) : FVec F S600x1600 .f32 :=
  k0_pay1 (k0_pay2 x0 x2) (k0_pay10 x1) (k0_pay11 x1)
    (k0_pay18 (k0_pay6 x1) (k0_pay7 x1) (k0_pay13 x3) (k0_pay14 x3) (k0_pay15 x1 x3) (k0_pay16 x1) (k0_pay17 x3))
    (k0_pay22 x4) (k0_pay23 x4)
    (k0_pay25 (k0_pay8 x1) (k0_pay9 x1) (k0_pay10 x1) (k0_pay11 x1) x4 x5)
    (k0_pay26 (k0_pay8 x1) (k0_pay9 x1) (k0_pay10 x1) (k0_pay11 x1) x4 x5)
    (k0_pay27 (k0_pay8 x1) x4) (k0_pay28 (k0_pay9 x1) x4)

end Cert.KernelIdeal.KEntry

end
-- ==== Proof.KFrame.lean ====
/-
  The frame run of the kernel's program: under no hypothesis on the memory, every weakly fair execution of @main —
  the host lines that lay out the operands, the one region over its 24 grid points, the reshape after it — terminates
  without a fault, leaves the five argument arrays as launched, and leaves the region's output array at what the
  pipeline's proof data computes: block t of it is the body's stored value over the six input blocks at point t.
  The body loads each input block whole, computes, and stores the [600, 1600] output block whole; the windows of the
  four target-side operands stay at block (0, 0) for the whole grid and are found in place at every point.
-/
import proofs.«132197_j57208964382737_2_alg».proof.Proof.KEntry
import proofs.«132197_j57208964382737_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.KFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.KEntry

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the reshape after it: it reduces to the region
    continued by the later line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The line after the region touches only unscoped TensorCore buffers: the region's arrays and the buffers that
    bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the line after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the line after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the line after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the line after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the line after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (where it is
    not fetched its block index has not moved), for any proof data whose arrays are the region-entry contents and
    whose body leaves the input blocks in place. -/

theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a frame run read at the five argument arrays —
    none is an array of the region, and no host line writes one — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c)⟩) h

/-! ## The body's accesses: each block whole -/

abbrev rA : Rect S600x256 := Rect.unit (s := S600x256) ![0, 0] S600x256.size inb_S600x256_S600x256_0_0
abbrev rB : Rect S600x4 := Rect.unit (s := S600x4) ![0, 0] S600x4.size inb_S600x4_S600x4_0_0
abbrev rC : Rect S256x1664 := Rect.unit (s := S256x1664) ![0, 0] S256x1664.size inb_S256x1664_S256x1664_0_0
abbrev rD : Rect S4x1664 := Rect.unit (s := S4x1664) ![0, 0] S4x1664.size inb_S4x1664_S4x1664_0_0
abbrev rE : Rect S1x1664 := Rect.unit (s := S1x1664) ![0, 0] S1x1664.size inb_S1x1664_S1x1664_0_0
abbrev rO : Rect S600x1600 := Rect.unit (s := S600x1600) ![0, 0] S600x1600.size inb_S600x1600_S600x1600_0_0

/-- The output window's staging buffer after the body, from the six input blocks: its one store, of the body's
    value over the loaded blocks. -/
def out6 (x0 : Vec F S600x256 .f32) (x1 : Vec F S600x4 .f32) (x2 : Vec F S256x1664 .bf16) (x3 : Vec F S4x1664 .f32) (x4 : Vec F S4x1664 .f32) (x5 : Vec F S1x1664 .f32) : Vec F S600x1600 .f32 :=
  View.canon [⟨rO, stored (View.ld x0 rA) (View.ld x1 rB) (View.ld x2 rC) (View.ld x3 rD) (View.ld x4 rD) (View.ld x5 rE)⟩]

/-- The one store covers the buffer. -/
theorem cover6 (p0 : Vec F S600x1600 .f32) (y : S600x1600.Idx) :
    ∃ pc ∈ ([⟨rO, p0⟩] : List (View.Piece (Elt F) S600x1600 .f32)), y ∈ pc.1.set :=
  View.cover_of_tiled [⟨rO, p0⟩] S600x1600.size (by rfl) y

/-! ## The body's triple -/

set_option maxHeartbeats 4000000 in
/-- The body on whole staging memrefs, the inputs' at contents x0 … x5 and the output's at anything, runs to the
    continuation holding the inputs' as they were and the output's at out6 of them. -/
theorem sound_kernel (c : Dev nD) (E : Set ℕ) (i : grid0.Coords) (arg1 : Memref sig .tc .vmem S600x256 .f32) (harg1 : arg1.IsWhole) (arg2 : Memref sig .tc .vmem S600x4 .f32) (harg2 : arg2.IsWhole) (arg3 : Memref sig .tc .vmem S256x1664 .bf16) (harg3 : arg3.IsWhole) (arg4 : Memref sig .tc .vmem S4x1664 .f32) (harg4 : arg4.IsWhole) (arg5 : Memref sig .tc .vmem S4x1664 .f32) (harg5 : arg5.IsWhole) (arg6 : Memref sig .tc .vmem S1x1664 .f32) (harg6 : arg6.IsWhole) (arg7 : Memref sig .tc .vmem S600x1600 .f32) (harg7 : arg7.IsWhole)
    (x0 : Vec F S600x256 .f32) (x1 : Vec F S600x4 .f32) (x2 : Vec F S256x1664 .bf16) (x3 : Vec F S4x1664 .f32) (x4 : Vec F S4x1664 .f32) (x5 : Vec F S1x1664 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out6 x0 x1 x2 x3 x4 x5)) -∗ K ⟨⟩))
      ⊢ wp frame (wpE (defs₀ (F := F)) Variants.none c none) E (cc0__cost_kernel i arg1 harg1 arg2 harg2 arg3 harg3 arg4 harg4 arg5 harg5 arg6 harg6 arg7 harg7) K := by
  simp only [cc0__cost_kernel_eq_skeleton]; unfold cc0__cost_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  unfold out6 stored
  exact View.read_writes_eq_canon _ _ _ (cover6 _)

/-! ## The pipeline's proof data -/

/-- The proof data of the one pipeline on core c: the arrays as the region finds them; after the body at point t
    each input's buffer at its block and the output's at out6 of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = out6 (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the body's triple applies; the invariant and
    the core's owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters: every weakly fair execution of @main terminates, and every final state has
    the region's arrays at what the library computes from the proof data and every other unscoped buffer as the
    line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.KFrame

end
-- ==== Proof.KBlocks.lean ====
/-
  The input blocks of the region read at coordinates: at grid point t the logit and box blocks are rows
  600·t … 600·t + 599 of their arrays, and the four target-side blocks are their whole arrays; and the output
  blocks, 600 rows each, tile the [14400, 1600] output array.
-/
import proofs.«132197_j57208964382737_2_alg».proof.Proof.KFrame
import Idealize.ShloMosaic.Lib.Pipeline.Value
import Idealize.ShloMosaic.Lib.ValueIdx

noncomputable section

namespace Cert.KernelIdeal.KBlocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.KEntry Cert.KernelIdeal.KFrame

variable {F : FTy → Type} [FloatOps F]
variable (m : (ℓ : Loc nD τ sig) → Buf (Elt F) ℓ)

/-- The printed index maps over the grid: the row-blocked windows sit at block (t, 0), the others at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem N24 : cfg0.N = 24 := N_0

/-- Row p of the logit block at point t is row 600·t + p of the [14400, 256] array. -/
theorem blk0_apply (c : Dev nD) (t : Fin cfg0.N) (p : Fin 600) (k : Fin 256) (r : Fin 14400) (hr : r.val = t.val * 600 + p.val) :
    (iblk m c 0 t : Vec F S600x256 .f32) (ix2 p k) = (V m c main_v35 : S14400x256.Idx → Elt F .f32) (ix2 r k) := by
  obtain ⟨e0, e1, -⟩ := idx_facts t
  unfold iblk
  rw [View.read_apply]
  show V m c main_v35 _ = V m c main_v35 _
  refine congrArg (V m c main_v35 : S14400x256.Idx → Elt F .f32) ?_
  funext a
  apply Fin.ext
  match a with
  | ⟨0, _⟩ => show win0_0.index t (0 : Fin 2) * 600 + 1 * p.val = r.val; rw [e0, hr]; omega
  | ⟨1, _⟩ => show win0_0.index t (1 : Fin 2) * 256 + 1 * k.val = k.val; rw [e1]; omega

/-- Row p of the box block at point t is row 600·t + p of the [14400, 4] array. -/
theorem blk1_apply (c : Dev nD) (t : Fin cfg0.N) (p : Fin 600) (j : Fin 4) (r : Fin 14400) (hr : r.val = t.val * 600 + p.val) :
    (iblk m c 1 t : Vec F S600x4 .f32) (ix2 p j) = (V m c main_v36 : S14400x4.Idx → Elt F .f32) (ix2 r j) := by
  obtain ⟨-, -, e0, e1, -⟩ := idx_facts t
  unfold iblk
  rw [View.read_apply]
  show V m c main_v36 _ = V m c main_v36 _
  refine congrArg (V m c main_v36 : S14400x4.Idx → Elt F .f32) ?_
  funext a
  apply Fin.ext
  match a with
  | ⟨0, _⟩ => show win0_1.index t (0 : Fin 2) * 600 + 1 * p.val = r.val; rw [e0, hr]; omega
  | ⟨1, _⟩ => show win0_1.index t (1 : Fin 2) * 4 + 1 * j.val = j.val; rw [e1]; omega

/-- The embedding block at every point is the whole transposed [256, 1664] array. -/
theorem blk2_apply (c : Dev nD) (t : Fin cfg0.N) (k : Fin 256) (q : Fin 1664) :
    (iblk m c 2 t : Vec F S256x1664 .bf16) (ix2 k q) = (V m c main_v20 : S256x1664.Idx → Elt F .bf16) (ix2 k q) := by
  obtain ⟨-, -, -, -, e0, e1, -⟩ := idx_facts t
  unfold iblk
  rw [View.read_apply]
  show V m c main_v20 _ = V m c main_v20 _
  refine congrArg (V m c main_v20 : S256x1664.Idx → Elt F .bf16) ?_
  funext a
  apply Fin.ext
  match a with
  | ⟨0, _⟩ => show win0_2.index t (0 : Fin 2) * 256 + 1 * k.val = k.val; rw [e0]; omega
  | ⟨1, _⟩ => show win0_2.index t (1 : Fin 2) * 1664 + 1 * q.val = q.val; rw [e1]; omega

/-- The target boxes in centre form: the whole transposed [4, 1664] array. -/
theorem blk3_apply (c : Dev nD) (t : Fin cfg0.N) (j : Fin 4) (q : Fin 1664) :
    (iblk m c 3 t : Vec F S4x1664 .f32) (ix2 j q) = (V m c main_v21 : S4x1664.Idx → Elt F .f32) (ix2 j q) := by
  obtain ⟨-, -, -, -, -, -, e0, e1, -⟩ := idx_facts t
  unfold iblk
  rw [View.read_apply]
  show V m c main_v21 _ = V m c main_v21 _
  refine congrArg (V m c main_v21 : S4x1664.Idx → Elt F .f32) ?_
  funext a
  apply Fin.ext
  match a with
  | ⟨0, _⟩ => show win0_3.index t (0 : Fin 2) * 4 + 1 * j.val = j.val; rw [e0]; omega
  | ⟨1, _⟩ => show win0_3.index t (1 : Fin 2) * 1664 + 1 * q.val = q.val; rw [e1]; omega

/-- The target boxes in corner form: the whole transposed [4, 1664] array. -/
theorem blk4_apply (c : Dev nD) (t : Fin cfg0.N) (j : Fin 4) (q : Fin 1664) :
    (iblk m c 4 t : Vec F S4x1664 .f32) (ix2 j q) = (V m c main_v22 : S4x1664.Idx → Elt F .f32) (ix2 j q) := by
  obtain ⟨-, -, -, -, -, -, -, -, e0, e1, -⟩ := idx_facts t
  unfold iblk
  rw [View.read_apply]
  show V m c main_v22 _ = V m c main_v22 _
  refine congrArg (V m c main_v22 : S4x1664.Idx → Elt F .f32) ?_
  funext a
  apply Fin.ext
  match a with
  | ⟨0, _⟩ => show win0_4.index t (0 : Fin 2) * 4 + 1 * j.val = j.val; rw [e0]; omega
  | ⟨1, _⟩ => show win0_4.index t (1 : Fin 2) * 1664 + 1 * q.val = q.val; rw [e1]; omega

/-- The target areas: the whole [1, 1664] array. -/
theorem blk5_apply (c : Dev nD) (t : Fin cfg0.N) (u : Fin 1) (q : Fin 1664) :
    (iblk m c 5 t : Vec F S1x1664 .f32) (ix2 u q) = (V m c main_v34 : S1x1664.Idx → Elt F .f32) (ix2 u q) := by
  obtain ⟨-, -, -, -, -, -, -, -, -, -, e0, e1, -⟩ := idx_facts t
  unfold iblk
  rw [View.read_apply]
  show V m c main_v34 _ = V m c main_v34 _
  refine congrArg (V m c main_v34 : S1x1664.Idx → Elt F .f32) ?_
  funext a
  apply Fin.ext
  match a with
  | ⟨0, _⟩ => show win0_5.index t (0 : Fin 2) * 1 + 1 * u.val = u.val; rw [e0]; omega
  | ⟨1, _⟩ => show win0_5.index t (1 : Fin 2) * 1664 + 1 * q.val = q.val; rw [e1]; omega

/-- An index of the output array is in point t's block iff its row is among the block's 600 rows. -/
theorem mem_blk6 (t : Fin cfg0.N) (i : S14400x1600.Idx) :
    i ∈ ((cfg0.win 6).blk t).view.set ↔ ∀ a : Fin 2, win0_6.index t a * S600x1600.size a ≤ (i a).val ∧ (i a).val < win0_6.index t a * S600x1600.size a + S600x1600.size a := by
  show i ∈ ((View.whole main_v37).slice (win0_6.rect t)).set ↔ _
  rw [View.set_slice_whole, Rect.mem_set_unit]
  exact Iff.rfl

/-- Every index of the output array is in the block of the point that its row, divided by 600, names. -/
theorem cover6 (i : S14400x1600.Idx) :
    ∃ t : Fin cfg0.N, (cfg0.win 6).flush t = true ∧ i ∈ ((cfg0.win 6).blk t).view.set := by
  have hi0 : (i 0).val < 14400 := (i 0).isLt
  have hi1 : (i 1).val < 1600 := (i 1).isLt
  have hN : cfg0.N = 24 := N_0
  let t : Fin cfg0.N := ⟨(i 0).val / 600, by rw [hN]; omega⟩
  obtain ⟨-, -, -, -, -, -, -, -, -, -, -, -, e0, e1⟩ := idx_facts t
  refine ⟨t, flush0_6 t, ?_⟩
  rw [mem_blk6]
  intro a
  have ht : t.val = (i 0).val / 600 := rfl
  match a with
  | ⟨0, _⟩ => show win0_6.index t (0 : Fin 2) * 600 ≤ (i 0).val ∧ (i 0).val < win0_6.index t (0 : Fin 2) * 600 + 600; rw [e0, ht]; omega
  | ⟨1, _⟩ => show win0_6.index t (1 : Fin 2) * 1600 ≤ (i 1).val ∧ (i 1).val < win0_6.index t (1 : Fin 2) * 1600 + 1600; rw [e1]; omega

/-- An element (p, q) of the output block at point t sits at row 600·t + p, column q of the array. -/
theorem emb6 (t : Fin cfg0.N) (p : Fin 600) (q : Fin 1600) (r : Fin 14400) (hr : r.val = t.val * 600 + p.val) :
    ((cfg0.win 6).blk t).view.emb (ix2 p q) = (ix2 r q : S14400x1600.Idx) := by
  obtain ⟨-, -, -, -, -, -, -, -, -, -, -, -, e0, e1⟩ := idx_facts t
  funext a
  apply Fin.ext
  match a with
  | ⟨0, _⟩ => show win0_6.index t (0 : Fin 2) * 600 + 1 * p.val = r.val; rw [e0, hr]; omega
  | ⟨1, _⟩ => show win0_6.index t (1 : Fin 2) * 1600 + 1 * q.val = q.val; rw [e1]; omega

end Cert.KernelIdeal.KBlocks

end
-- ==== Proof.Spec.lean ====
/-
  The specification shared by both sides of the value claim: the matching-cost volume of a set-prediction
  matcher, entry by entry.  For a prediction row r (a logit vector x of 256 entries and a box (cx, cy, w, h))
  and a target column c (an embedding e of 256 entries and a box (tcx, tcy, tw, th)) the entry is

      logistic ( 1·L1 + 1·cls + 1·(0 − giou) )

  with  cls  = max (Σₖ (xₖ · rsqrt (Σⱼ xⱼ·xⱼ)) · eₖ) 0      (the cosine-like class cost, rectified),
        L1   = |cx − tcx| + |cy − tcy| + |w − tw| + |h − th|   (the box distance), and
        giou = iou − (hull − union) / hull                      (the generalized intersection over union of the
                                                                 two boxes in corner form).
  Everything is written on the extended reals with the textbook operations; the float words 1/2, 1 and 0 stay
  as their words (the same word stands on both sides and is never evaluated).
-/
import Idealize.ShloMosaic.PureOps.Ideal
import Idealize.ShloMosaic.PureOps.Ideal.Laws
import Idealize.ShloMosaic.Lib.ValueIdx

noncomputable section

namespace Cert.CostSpec

open Idealize.ShloMosaic Idealize.ShloMosaic.ValueIdx

/-- The float word of 1/2. -/
abbrev half : EReal := Ideal.ofBits .f32 0x3F000000#32
/-- The float word of 1. -/
abbrev one : EReal := Ideal.ofBits .f32 0x3F800000#32
/-- The float word of 0. -/
abbrev zero : EReal := Ideal.ofBits .f32 0x00000000#32

/-- The low corner coordinate of a box from its centre and extent: centre − extent/2. -/
def lo (ctr ext : EReal) : EReal := ctr - half * ext
/-- The high corner coordinate: centre + extent/2. -/
def hi (ctr ext : EReal) : EReal := ctr + half * ext

/-- The L1 distance of two boxes in centre form, summed left to right. -/
def boxL1 (cx cy w h tcx tcy tw th : EReal) : EReal :=
  ((max (cx - tcx) (-(cx - tcx)) + max (cy - tcy) (-(cy - tcy))) + max (w - tw) (-(w - tw))) + max (h - th) (-(h - th))

/-- The generalized intersection over union of two boxes given by their corners, with the areas
    a1 and a2 of the two boxes: iou − (hull − union) / hull. -/
def giou (x1 y1 x2 y2 tx1 ty1 tx2 ty2 a1 a2 : EReal) : EReal :=
  let inter := max (min x2 tx2 - max x1 tx1) zero * max (min y2 ty2 - max y1 ty1) zero
  let union := (a1 + a2) - inter
  let hull := max (max x2 tx2 - min x1 tx1) zero * max (max y2 ty2 - min y1 ty1) zero
  Ideal.div inter union - Ideal.div (hull - union) hull

/-- One entry of the cost volume from the class cost, the prediction box in centre form, and the target box
    given three ways: in centre form (for the L1 term), by its corners, and by its area. -/
def cellRaw (cls cx cy w h tcx tcy tw th tx1 ty1 tx2 ty2 a2 : EReal) : EReal :=
  Ideal.logistic ((one * boxL1 cx cy w h tcx tcy tw th + one * cls)
    + one * (zero - giou (lo cx w) (lo cy h) (hi cx w) (hi cy h) tx1 ty1 tx2 ty2
        ((hi cx w - lo cx w) * (hi cy h - lo cy h)) a2))

/-- One entry of the cost volume from the class cost and the two boxes in centre form: the target's corners
    and area computed from its centre form. -/
def cell (cls cx cy w h tcx tcy tw th : EReal) : EReal :=
  cellRaw cls cx cy w h tcx tcy tw th (lo tcx tw) (lo tcy th) (hi tcx tw) (hi tcy th)
    ((hi tcx tw - lo tcx tw) * (hi tcy th - lo tcy th))

/-- The rectified class cost of a logit row x against an embedding row e. -/
def cls (x e : Fin 256 → EReal) : EReal :=
  max (∑ k : Fin 256, (x k * Ideal.rsqrt (∑ j : Fin 256, x j * x j)) * e k) zero

/-- The cost volume as ONE function of the four float argument arrays, at batch b, query q, target c. -/
def G (logits : (⟨3, ![16, 900, 256]⟩ : Shape).Idx → EReal) (boxes : (⟨3, ![16, 900, 4]⟩ : Shape).Idx → EReal)
    (embs : (⟨2, ![1600, 256]⟩ : Shape).Idx → EReal) (tbox : (⟨2, ![1600, 4]⟩ : Shape).Idx → EReal)
    (b : Fin 16) (q : Fin 900) (c : Fin 1600) : EReal :=
  cell (cls (fun k => logits (ix3 b q k)) (fun k => embs (ix2 c k)))
    (boxes (ix3 b q 0)) (boxes (ix3 b q 1)) (boxes (ix3 b q 2)) (boxes (ix3 b q 3))
    (tbox (ix2 c 0)) (tbox (ix2 c 1)) (tbox (ix2 c 2)) (tbox (ix2 c 3))

/-- The result array: the cost volume read at an index of [16, 900, 1600]. -/
def Gout (logits : (⟨3, ![16, 900, 256]⟩ : Shape).Idx → EReal) (boxes : (⟨3, ![16, 900, 4]⟩ : Shape).Idx → EReal)
    (embs : (⟨2, ![1600, 256]⟩ : Shape).Idx → EReal) (tbox : (⟨2, ![1600, 4]⟩ : Shape).Idx → EReal) :
    (⟨3, ![16, 900, 1600]⟩ : Shape).Idx → EReal :=
  fun i => G logits boxes embs tbox (i 0) (i 1) (i 2)

/-- The same volume with the batch and query axes merged into one row axis r = b·900 + q: what the
    kernel's region writes before the final reshape. -/
def Grow (logits : (⟨3, ![16, 900, 256]⟩ : Shape).Idx → EReal) (boxes : (⟨3, ![16, 900, 4]⟩ : Shape).Idx → EReal)
    (embs : (⟨2, ![1600, 256]⟩ : Shape).Idx → EReal) (tbox : (⟨2, ![1600, 4]⟩ : Shape).Idx → EReal) :
    (⟨2, ![14400, 1600]⟩ : Shape).Idx → EReal :=
  fun i => G logits boxes embs tbox ⟨(i 0).val / 900, by have h : (i 0).val < 14400 := (i 0).isLt; show (i 0).val / 900 < 16; omega⟩
    ⟨(i 0).val % 900, Nat.mod_lt _ (by decide)⟩ (i 1)

end Cert.CostSpec

end
-- ==== Proof.KTail.lean ====
/-
  The line after the region: the [14400, 1600] output array is reshaped to [16, 900, 1600]; entry (b, q, c) of
  the result is entry (900·b + q, c) of the array.  With the array at the row-merged cost volume, the result is the
  cost volume.
-/
import proofs.«132197_j57208964382737_2_alg».proof.Proof.KFrame
import proofs.«132197_j57208964382737_2_alg».proof.Proof.Spec
import Idealize.ShloMosaic.Lib.Pipeline.Value
import Idealize.ShloMosaic.Lib.ValueIdx
import Idealize.ShloMosaic.Lib.StableHlo.Run

noncomputable section

namespace Cert.KernelIdeal.KTail

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.KEntry Cert.KernelIdeal.KFrame

variable {F : FTy → Type} [FloatOps F]
variable (m : (ℓ : Loc nD τ sig) → Buf (Elt F) ℓ)

/-- The result buffer after the line that follows the region: the reshape of whatever the region's output
    array ends holding. -/
theorem tail_v38 (c : Dev nD) (X : S14400x1600.Idx → Elt F .f32) (hX : (dats m 0 c).arrAt 6 cfg0.N = X) :
    (Pipeline.afterTail₀ cfgs (dats m) 0 (V0 m) [hostOps1] c main_v38 : S16x900x1600.Idx → Elt F .f32)
      = shapeCast S16x900x1600 X shapeCasts_S14400x1600_S16x900x1600 := by
  unfold Pipeline.afterTail₀
  show StableHlo.after hostOps1 _ (Proc.devRef .tc main_v38) = _
  after_results
  rw [(Pipeline.withArrays_arr spec0 launch0.win.arr_inj c _ _ 6).trans hX]
  rfl

/-- The reshape of the row-merged cost volume is the cost volume. -/
theorem reshape_Grow (a0 : S16x900x256.Idx → EReal) (a1 : S16x900x4.Idx → EReal) (a2 : S1600x256.Idx → EReal) (a3 : S1600x4.Idx → EReal) :
    shapeCast S16x900x1600 (Cert.CostSpec.Grow a0 a1 a2 a3 : S14400x1600.Idx → EReal) shapeCasts_S14400x1600_S16x900x1600
      = Cert.CostSpec.Gout a0 a1 a2 a3 := by
  funext i
  obtain ⟨b, q, c, rfl⟩ : ∃ (b : Fin 16) (q : Fin 900) (c : Fin 1600), i = ix3 b q c := ⟨i 0, i 1, i 2, eq_ix3 i⟩
  have hb : b.val * 900 + q.val < 14400 := by have := b.isLt; have := q.isLt; omega
  rw [shapeCast_apply _ shapeCasts_S14400x1600_S16x900x1600 (ix3 b q c) (ix2 ⟨b.val * 900 + q.val, hb⟩ c)
    (by rewrite [Shape.rowMajor_val_three, Shape.rowMajor_val_two]; show (b.val * 900 + q.val) * 1600 + c.val = (b.val * 900 + q.val) * 1600 + c.val; rfl)]
  show Cert.CostSpec.G a0 a1 a2 a3 _ _ _ = Cert.CostSpec.G a0 a1 a2 a3 _ _ _
  have e0 : (⟨(b.val * 900 + q.val) / 900, by omega⟩ : Fin 16) = b := Fin.ext (by show (b.val * 900 + q.val) / 900 = b.val; have := q.isLt; omega)
  have e1 : (⟨(b.val * 900 + q.val) % 900, Nat.mod_lt _ (by decide)⟩ : Fin 900) = q := Fin.ext (by show (b.val * 900 + q.val) % 900 = q.val; have := q.isLt; omega)
  exact congrArg₂ (fun x y => Cert.CostSpec.G a0 a1 a2 a3 x y c) e0 e1

end Cert.KernelIdeal.KTail

end
-- ==== Proof.LibKeepdims.lean ====
/-
  Layout operations read at an index given by coordinates, for the "keepdims" column forms: a vector given a trailing
  unit axis ([a] → [a, 1]), a column broadcast along its rows ([a, 1] → [a, b]), one column or one row cut out of a
  matrix, the first columns of a matrix kept, and the sum along the rows of a matrix at the ideal values. Each is the
  library's general lemma for the operation with both indices written by coordinates, so that it applies to an
  operation on literal shapes by unification. Also the three pointwise operations the library's index vocabulary does not list, read at
  an index at the ideal values: absolute value, reciprocal square root and the logistic function.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-! ## A trailing unit axis added, and a column broadcast along its rows -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One column, one row, and the first columns of a matrix -/

/-- Column `o` of an `[a, n]` matrix, cut out as an `[a, 1]` column, reads at `(p, u)` the matrix at `(p, k)` for
    the column index `k` whose value is `o`. -/
theorem sliceColumn_apply {a n : ℕ} (o : ℕ) (X : (⟨2, ![a, n]⟩ : Shape).Idx → α)
    (h : (⟨2, ![a, n]⟩ : Shape).Slices ![0, o] ⟨2, ![a, 1]⟩) (p : Fin a) (u : Fin 1) (k : Fin n) (hk : k.val = o) :
    extractStridedSlice ⟨2, ![a, 1]⟩ ![0, o] X h (ix2 p u) = X (ix2 p k) :=
  slice2_axis1_apply o X h p u k (by have hu : u.val = 0 := by omega
                                     rw [hk, hu, Nat.add_zero])

/-- Row `o` of an `[n, b]` matrix, cut out as a `[1, b]` row, reads at `(u, c)` the matrix at `(k, c)` for the row
    index `k` whose value is `o`. -/
theorem sliceRow_apply {n b : ℕ} (o : ℕ) (X : (⟨2, ![n, b]⟩ : Shape).Idx → α)
    (h : (⟨2, ![n, b]⟩ : Shape).Slices ![o, 0] ⟨2, ![1, b]⟩) (u : Fin 1) (c : Fin b) (k : Fin n) (hk : k.val = o) :
    extractStridedSlice ⟨2, ![1, b]⟩ ![o, 0] X h (ix2 u c) = X (ix2 k c) :=
  slice2_axis0_apply o X h u c k (by have hu : u.val = 0 := by omega
                                     rw [hk, hu, Nat.add_zero])

/-- The first `m` columns of an `[a, n]` matrix read, at `(p, q)`, the matrix at `(p, q)` with `q` taken as a
    column index of the whole matrix. -/
theorem sliceFirstColumns_apply {a n m : ℕ} (X : (⟨2, ![a, n]⟩ : Shape).Idx → α)
    (h : (⟨2, ![a, n]⟩ : Shape).Slices ![0, 0] ⟨2, ![a, m]⟩) (p : Fin a) (q : Fin m) (hmn : m ≤ n) :
    extractStridedSlice ⟨2, ![a, m]⟩ ![0, 0] X h (ix2 p q) = X (ix2 p (Fin.castLE hmn q)) :=
  slice2_axis1_apply 0 X h p q (Fin.castLE hmn q) (Nat.zero_add _).symm

/-! ## The sum along the rows of a matrix, at the ideal values -/

/-- At the ideal values the sum of an `[a, b]` matrix along axis 1, read at `p`, is the sum over row `p`. -/
theorem multiReduction_add_rows_apply {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun c =>
      match c with
      | ⟨0, _⟩ => Fin.ext rfl
      | ⟨1, _⟩ => Fin.ext rfl))

/-! ## Three pointwise operations at an index, at the ideal values -/

section AtIdeal
variable {s : Shape} {φ : FTy}

/-- An absolute value at an index is the larger of the element and its negation. -/
theorem absf_apply (a : FVec Ideal s φ) (i : s.Idx) : absf a i = max (a i) (-(a i)) := rfl
/-- A reciprocal square root at an index is the extended reals' one of the element. -/
theorem rsqrt_apply (a : FVec Ideal s φ) (i : s.Idx) : rsqrt a i = Ideal.rsqrt (a i) := rfl
/-- A logistic function at an index is the extended reals' one of the element. -/
theorem logistic_apply (a : FVec Ideal s φ) (i : s.Idx) : logistic a i = Ideal.logistic (a i) := rfl
/-- A scalar constant at the ideal values is the extended real its word encodes. -/
theorem scalar_ofBits (b : BitVec φ.bits) : Scalar.ofBits (F := Ideal) φ b = Ideal.ofBits φ b := rfl

end AtIdeal

end Cert.LibKeepdims

end
-- ==== Proof.KStoredBox.lean ====
/-
  The kernel body's box coordinates at an index. The prediction box of row p is the four entries of row p of the
  box block; its corners are centre ∓ extent/2. The target box of column c is the four entries of column c of
  the transposed target block. Each is read through the column or row slice that cuts it out.
-/
import proofs.«132197_j57208964382737_2_alg».proof.Proof.KEntry
import proofs.«132197_j57208964382737_2_alg».proof.Proof.Spec
import proofs.«132197_j57208964382737_2_alg».proof.Proof.LibKeepdims

noncomputable section

namespace Cert.KernelIdeal.KValue

open Idealize.ShloMosaic Idealize.ShloMosaic.ValueIdx
open Cert.KernelIdeal Cert.KernelIdeal.Gen Cert.LibKeepdims

/-! ## The prediction box: the four columns of the box block -/

/-- The box block after its identity reshape is the block. -/
theorem pay3_eq (x1 : Vec Ideal S600x4 .f32) : k0_pay3 (F := Ideal) x1 = x1 := by
  unfold k0_pay3
  exact shapeCast_self x1 _

/-- The centre abscissa of row p. -/
theorem pay4_apply (x1 : Vec Ideal S600x4 .f32) (p : Fin 600) :
    k0_pay4 (F := Ideal) x1 (ix2 p (0 : Fin 1)) = x1 (ix2 p (0 : Fin 4)) := by
  unfold k0_pay4
  rw [pay3_eq]
  exact sliceColumn_apply 0 x1 _ p 0 0 rfl

/-- The centre ordinate of row p. -/
theorem pay5_apply (x1 : Vec Ideal S600x4 .f32) (p : Fin 600) :
    k0_pay5 (F := Ideal) x1 (ix2 p (0 : Fin 1)) = x1 (ix2 p (1 : Fin 4)) := by
  unfold k0_pay5
  rw [pay3_eq]
  exact sliceColumn_apply 1 x1 _ p 0 1 rfl

/-- The width of row p. -/
theorem pay6_apply (x1 : Vec Ideal S600x4 .f32) (p : Fin 600) :
    k0_pay6 (F := Ideal) x1 (ix2 p (0 : Fin 1)) = x1 (ix2 p (2 : Fin 4)) := by
  unfold k0_pay6
  rw [pay3_eq]
  exact sliceColumn_apply 2 x1 _ p 0 2 rfl

/-- The height of row p. -/
theorem pay7_apply (x1 : Vec Ideal S600x4 .f32) (p : Fin 600) :
    k0_pay7 (F := Ideal) x1 (ix2 p (0 : Fin 1)) = x1 (ix2 p (3 : Fin 4)) := by
  unfold k0_pay7
  rw [pay3_eq]
  exact sliceColumn_apply 3 x1 _ p 0 3 rfl

/-- The left edge of row p: centre abscissa − width/2. -/
theorem pay8_apply (x1 : Vec Ideal S600x4 .f32) (p : Fin 600) :
    k0_pay8 (F := Ideal) x1 (ix2 p (0 : Fin 1)) = CostSpec.lo (x1 (ix2 p (0 : Fin 4))) (x1 (ix2 p (2 : Fin 4))) := by
  unfold k0_pay8
  simp only [subf_apply, mulf_apply, broadcast_apply, scalar_ofBits, pay4_apply, pay6_apply]
  rfl

/-- The top edge of row p: centre ordinate − height/2. -/
theorem pay9_apply (x1 : Vec Ideal S600x4 .f32) (p : Fin 600) :
    k0_pay9 (F := Ideal) x1 (ix2 p (0 : Fin 1)) = CostSpec.lo (x1 (ix2 p (1 : Fin 4))) (x1 (ix2 p (3 : Fin 4))) := by
  unfold k0_pay9
  simp only [subf_apply, mulf_apply, broadcast_apply, scalar_ofBits, pay5_apply, pay7_apply]
  rfl

/-- The right edge of row p: centre abscissa + width/2. -/
theorem pay10_apply (x1 : Vec Ideal S600x4 .f32) (p : Fin 600) :
    k0_pay10 (F := Ideal) x1 (ix2 p (0 : Fin 1)) = CostSpec.hi (x1 (ix2 p (0 : Fin 4))) (x1 (ix2 p (2 : Fin 4))) := by
  unfold k0_pay10
  simp only [addf_apply, mulf_apply, broadcast_apply, scalar_ofBits, pay4_apply, pay6_apply]
  rfl

/-- The bottom edge of row p: centre ordinate + height/2. -/
theorem pay11_apply (x1 : Vec Ideal S600x4 .f32) (p : Fin 600) :
    k0_pay11 (F := Ideal) x1 (ix2 p (0 : Fin 1)) = CostSpec.hi (x1 (ix2 p (1 : Fin 4))) (x1 (ix2 p (3 : Fin 4))) := by
  unfold k0_pay11
  simp only [addf_apply, mulf_apply, broadcast_apply, scalar_ofBits, pay5_apply, pay7_apply]
  rfl

/-! ## The target box in centre form: the four rows of the transposed target block -/

/-- The transposed target block after its identity reshape is the block. -/
theorem pay12_eq (x3 : Vec Ideal S4x1664 .f32) : k0_pay12 (F := Ideal) x3 = x3 := by
  unfold k0_pay12
  exact shapeCast_self x3 _

/-- The target width of column c. -/
theorem pay13_apply (x3 : Vec Ideal S4x1664 .f32) (c : Fin 1664) :
    k0_pay13 (F := Ideal) x3 (ix2 (0 : Fin 1) c) = x3 (ix2 (2 : Fin 4) c) := by
  unfold k0_pay13
  rw [pay12_eq]
  exact sliceRow_apply 2 x3 _ 0 c 2 rfl

/-- The target height of column c. -/
theorem pay14_apply (x3 : Vec Ideal S4x1664 .f32) (c : Fin 1664) :
    k0_pay14 (F := Ideal) x3 (ix2 (0 : Fin 1) c) = x3 (ix2 (3 : Fin 4) c) := by
  unfold k0_pay14
  rw [pay12_eq]
  exact sliceRow_apply 3 x3 _ 0 c 3 rfl

/-! ## The target box in corner form: the four rows of the transposed corner block -/

/-- The transposed corner block after its identity reshape is the block. -/
theorem pay19_eq (x4 : Vec Ideal S4x1664 .f32) : k0_pay19 (F := Ideal) x4 = x4 := by
  unfold k0_pay19
  exact shapeCast_self x4 _

/-- The target's left edge at column c. -/
theorem pay20_apply (x4 : Vec Ideal S4x1664 .f32) (c : Fin 1664) :
    k0_pay20 (F := Ideal) x4 (ix2 (0 : Fin 1) c) = x4 (ix2 (0 : Fin 4) c) := by
  unfold k0_pay20
  rw [pay19_eq]
  exact sliceRow_apply 0 x4 _ 0 c 0 rfl

/-- The target's top edge at column c. -/
theorem pay21_apply (x4 : Vec Ideal S4x1664 .f32) (c : Fin 1664) :
    k0_pay21 (F := Ideal) x4 (ix2 (0 : Fin 1) c) = x4 (ix2 (1 : Fin 4) c) := by
  unfold k0_pay21
  rw [pay19_eq]
  exact sliceRow_apply 1 x4 _ 0 c 1 rfl

/-- The target's right edge at column c. -/
theorem pay22_apply (x4 : Vec Ideal S4x1664 .f32) (c : Fin 1664) :
    k0_pay22 (F := Ideal) x4 (ix2 (0 : Fin 1) c) = x4 (ix2 (2 : Fin 4) c) := by
  unfold k0_pay22
  rw [pay19_eq]
  exact sliceRow_apply 2 x4 _ 0 c 2 rfl

/-- The target's bottom edge at column c. -/
theorem pay23_apply (x4 : Vec Ideal S4x1664 .f32) (c : Fin 1664) :
    k0_pay23 (F := Ideal) x4 (ix2 (0 : Fin 1) c) = x4 (ix2 (3 : Fin 4) c) := by
  unfold k0_pay23
  rw [pay19_eq]
  exact sliceRow_apply 3 x4 _ 0 c 3 rfl

end Cert.KernelIdeal.KValue

end
-- ==== Proof.KStoredCls.lean ====
/-
  The kernel body's class cost at an index: row p of the logit block is scaled by the reciprocal square root of its
  own sum of squares, multiplied into column c of the transposed embedding block, and rectified.
-/
import proofs.«132197_j57208964382737_2_alg».proof.Proof.KEntry
import proofs.«132197_j57208964382737_2_alg».proof.Proof.Spec
import proofs.«132197_j57208964382737_2_alg».proof.Proof.LibKeepdims

noncomputable section

open scoped BigOperators

namespace Cert.KernelIdeal.KValue

open Idealize.ShloMosaic Idealize.ShloMosaic.ValueIdx
open Cert.KernelIdeal Cert.KernelIdeal.Gen Cert.LibKeepdims

/-- The body's one contraction: rows of a [600, 256] matrix against columns of a [256, 1664] matrix. -/
abbrev rowsByColumns : DotDims S600x256 S256x1664 S600x1664 := dot_S600x256_S256x1664_S600x1664_1_0_0_1_n_n

/-! ## The contraction's operand indices by coordinates -/

theorem lhsIdx_row (i : S600x1664.Idx) (q : rowsByColumns.contr.Idx) : (rowsByColumns.lhsIdx i q 0).val = (i 0).val := by
  unfold DotDims.lhsIdx
  rw [dif_neg (show ¬(0 : Fin S600x256.rank) ∈ rowsByColumns.lhsBatch by decide),
    dif_pos (show (0 : Fin S600x256.rank) ∈ rowsByColumns.lhsNonContracting by decide)]
  rfl
theorem lhsIdx_contr (i : S600x1664.Idx) (q : rowsByColumns.contr.Idx) :
    (rowsByColumns.lhsIdx i q 1).val = (q ⟨0, by decide⟩).val :=
  rowsByColumns.lhsIdx_val_of_single rfl i q
theorem rhsIdx_contr (i : S600x1664.Idx) (q : rowsByColumns.contr.Idx) :
    (rowsByColumns.rhsIdx i q 0).val = (q ⟨0, by decide⟩).val :=
  rowsByColumns.rhsIdx_val_of_single rfl i q
theorem rhsIdx_column (i : S600x1664.Idx) (q : rowsByColumns.contr.Idx) : (rowsByColumns.rhsIdx i q 1).val = (i 1).val := by
  unfold DotDims.rhsIdx
  rw [dif_neg (show ¬(1 : Fin S256x1664.rank) ∈ rowsByColumns.rhsBatch by decide),
    dif_pos (show (1 : Fin S256x1664.rank) ∈ rowsByColumns.rhsNonContracting by decide)]
  rfl

/-- The contraction into the zero accumulator, read at (p, c): the sum over k of the left operand at (p, k) times the
    right operand at (k, c). -/
theorem matmul_zero_apply (l : FVec Ideal S600x256 .bf16) (r : FVec Ideal S256x1664 .bf16) (p : Fin 600) (c : Fin 1664) :
    FloatOps.matmul rowsByColumns none l r (constant (F := Ideal) S600x1664 .f32 0x00000000#32) (ix2 p c)
      = ∑ k : Fin 256, l (ix2 p k) * r (ix2 k c) := by
  rw [Ideal.matmul_constant_zero_apply, ← Equiv.sum_comp (contrEquiv1 rowsByColumns 256 rfl rfl).symm]
  refine Finset.sum_congr rfl fun k _ => ?_
  have hk := contrEquiv1_symm_val rowsByColumns 256 rfl rfl k
  have el : rowsByColumns.lhsIdx (ix2 p c) ((contrEquiv1 rowsByColumns 256 rfl rfl).symm k) = ix2 p k :=
    funext fun a => Fin.ext (by
      match a with
      | ⟨0, _⟩ => exact lhsIdx_row _ _
      | ⟨1, _⟩ => exact (lhsIdx_contr _ _).trans hk)
  have er : rowsByColumns.rhsIdx (ix2 p c) ((contrEquiv1 rowsByColumns 256 rfl rfl).symm k) = ix2 k c :=
    funext fun a => Fin.ext (by
      match a with
      | ⟨0, _⟩ => exact (rhsIdx_contr _ _).trans hk
      | ⟨1, _⟩ => exact rhsIdx_column _ _)
  rw [el, er]

/-! ## The scale of a row -/

/-- The reciprocal square root of each row's sum of squares, spread back over the row, read at (p, k). -/
theorem rowScale_apply (x0 : FVec Ideal S600x256 .f32) (hr : S600x256.Reduces [1] S600) (hφ : FKind.Formats .f32)
    (hacc : (0x00000000#32 : BitVec 32) = 0x00000000#32) (hc : S600.ShapeCasts S600x1)
    (hb : S600x1.Broadcasts S600x256) (p : Fin 600) (k : Fin 256) :
    broadcastTo S600x256 (rsqrt (shapeCast S600x1 (multiReduction .add [1] S600 (mulf x0 x0) 0x00000000#32 hr hφ hacc) hc)) hb (ix2 p k)
      = Ideal.rsqrt (∑ j : Fin 256, x0 (ix2 p j) * x0 (ix2 p j)) := by
  refine (broadcastTo_a1_ab_apply _ hb p k).trans ?_
  refine (rsqrt_apply _ _).trans (congrArg Ideal.rsqrt ?_)
  refine (shapeCast_a_a1_apply _ hc p 0).trans ?_
  exact multiReduction_add_rows_apply (mulf x0 x0) _ hr hφ hacc p

/-! ## The class cost -/

/-- The rectified class cost of row p against column c. -/
theorem pay2_apply (x0 : Vec Ideal S600x256 .f32) (x2 : Vec Ideal S256x1664 .bf16) (p : Fin 600) (c : Fin 1664) :
    k0_pay2 (F := Ideal) x0 x2 (ix2 p c)
      = CostSpec.cls (fun k => x0 (ix2 p k)) (fun k => x2 (ix2 k c)) := by
  unfold k0_pay2
  simp only [shapeCast_self, maximumf_apply, broadcast_apply, scalar_ofBits, matmul, matmul_zero_apply, truncf_apply,
    mulf_apply]
  unfold CostSpec.cls
  refine congrArg (fun s => max s CostSpec.zero) (Finset.sum_congr rfl fun k _ => ?_)
  exact congrArg (fun t => x0 (ix2 p k) * t * x2 (ix2 k c)) (rowScale_apply x0 _ _ _ _ _ p k)

end Cert.KernelIdeal.KValue

end
-- ==== Proof.KStoredL1.lean ====
/-
  The kernel body's box distance at an index: the sum, left to right, of the absolute differences of the four
  centre-form coordinates of the prediction box of row p and the target box of column c.
-/
import proofs.«132197_j57208964382737_2_alg».proof.Proof.KEntry
import proofs.«132197_j57208964382737_2_alg».proof.Proof.Spec
import proofs.«132197_j57208964382737_2_alg».proof.Proof.LibKeepdims
import proofs.«132197_j57208964382737_2_alg».proof.Proof.KStoredBox

noncomputable section

open scoped BigOperators

namespace Cert.KernelIdeal.KValue

open Idealize.ShloMosaic Idealize.ShloMosaic.ValueIdx
open Cert.KernelIdeal Cert.KernelIdeal.Gen Cert.LibKeepdims

/-! ## The two target rows the body cuts out in passing -/

/-- The target's centre abscissa at column c: row 0 of the transposed target block. -/
theorem targetRow0_apply {α : Type} (x3 : S4x1664.Idx → α) (h : S4x1664.Slices ![0, 0] S1x1664) (c : Fin 1664) :
    extractStridedSlice S1x1664 ![0, 0] x3 h (ix2 (0 : Fin 1) c) = x3 (ix2 (0 : Fin 4) c) :=
  sliceRow_apply 0 x3 h 0 c 0 rfl

/-- The target's centre ordinate at column c: row 1 of the transposed target block. -/
theorem targetRow1_apply {α : Type} (x3 : S4x1664.Idx → α) (h : S4x1664.Slices ![1, 0] S1x1664) (c : Fin 1664) :
    extractStridedSlice S1x1664 ![1, 0] x3 h (ix2 (0 : Fin 1) c) = x3 (ix2 (1 : Fin 4) c) :=
  sliceRow_apply 1 x3 h 0 c 1 rfl

/-! ## The four terms -/

/-- The distance of the centre abscissas of row p and column c. -/
theorem pay15_apply (x1 : Vec Ideal S600x4 .f32) (x3 : Vec Ideal S4x1664 .f32) (p : Fin 600) (c : Fin 1664) :
    k0_pay15 (F := Ideal) x1 x3 (ix2 p c)
      = max (x1 (ix2 p (0 : Fin 4)) - x3 (ix2 (0 : Fin 4) c)) (-(x1 (ix2 p (0 : Fin 4)) - x3 (ix2 (0 : Fin 4) c))) := by
  unfold k0_pay15
  simp only [absf_apply, subf_apply, broadcastTo_a1_ab_apply, broadcastTo_1b_ab_apply, pay4_apply, pay12_eq, targetRow0_apply]

/-- The prediction's centre ordinate, spread over the columns. -/
theorem pay16_apply (x1 : Vec Ideal S600x4 .f32) (p : Fin 600) (c : Fin 1664) :
    k0_pay16 (F := Ideal) x1 (ix2 p c) = x1 (ix2 p (1 : Fin 4)) := by
  unfold k0_pay16
  simp only [broadcastTo_a1_ab_apply, pay5_apply]

/-- The target's centre ordinate, spread over the rows. -/
theorem pay17_apply (x3 : Vec Ideal S4x1664 .f32) (p : Fin 600) (c : Fin 1664) :
    k0_pay17 (F := Ideal) x3 (ix2 p c) = x3 (ix2 (1 : Fin 4) c) := by
  unfold k0_pay17
  simp only [broadcastTo_1b_ab_apply, pay12_eq, targetRow1_apply]

/-- The running sum of the four absolute differences, over the pieces it is given. -/
theorem pay18_apply (v18 v19 : FVec Ideal S600x1 .f32) (v36 v37 : FVec Ideal S1x1664 .f32)
    (v41 v42 v43 : FVec Ideal S600x1664 .f32) (p : Fin 600) (c : Fin 1664) :
    k0_pay18 (F := Ideal) v18 v19 v36 v37 v41 v42 v43 (ix2 p c)
      = ((v41 (ix2 p c) + max (v42 (ix2 p c) - v43 (ix2 p c)) (-(v42 (ix2 p c) - v43 (ix2 p c))))
          + max (v18 (ix2 p (0 : Fin 1)) - v36 (ix2 (0 : Fin 1) c)) (-(v18 (ix2 p (0 : Fin 1)) - v36 (ix2 (0 : Fin 1) c))))
        + max (v19 (ix2 p (0 : Fin 1)) - v37 (ix2 (0 : Fin 1) c)) (-(v19 (ix2 p (0 : Fin 1)) - v37 (ix2 (0 : Fin 1) c))) := by
  unfold k0_pay18
  simp only [addf_apply, absf_apply, subf_apply, broadcastTo_a1_ab_apply, broadcastTo_1b_ab_apply]

/-! ## The box distance -/

/-- The box distance of row p and column c. -/
theorem boxL1_apply (x1 : Vec Ideal S600x4 .f32) (x3 : Vec Ideal S4x1664 .f32) (p : Fin 600) (c : Fin 1664) :
    k0_pay18 (F := Ideal) (k0_pay6 x1) (k0_pay7 x1) (k0_pay13 x3) (k0_pay14 x3) (k0_pay15 x1 x3) (k0_pay16 x1) (k0_pay17 x3) (ix2 p c)
      = CostSpec.boxL1 (x1 (ix2 p (0 : Fin 4))) (x1 (ix2 p (1 : Fin 4))) (x1 (ix2 p (2 : Fin 4))) (x1 (ix2 p (3 : Fin 4)))
          (x3 (ix2 (0 : Fin 4) c)) (x3 (ix2 (1 : Fin 4) c)) (x3 (ix2 (2 : Fin 4) c)) (x3 (ix2 (3 : Fin 4) c)) := by
  rw [pay18_apply, pay15_apply, pay16_apply, pay17_apply, pay6_apply, pay7_apply, pay13_apply, pay14_apply]
  rfl

end Cert.KernelIdeal.KValue

end
-- ==== Proof.KStoredIou.lean ====
/-
  The kernel body's overlap terms at an index, over the prediction box's four edges given as columns: the
  intersection area of the two boxes, their union area, the quotient of the two, and the low corner of their hull.
-/
import proofs.«132197_j57208964382737_2_alg».proof.Proof.KEntry
import proofs.«132197_j57208964382737_2_alg».proof.Proof.Spec
import proofs.«132197_j57208964382737_2_alg».proof.Proof.LibKeepdims
import proofs.«132197_j57208964382737_2_alg».proof.Proof.KStoredBox

noncomputable section

open scoped BigOperators

namespace Cert.KernelIdeal.KValue

open Idealize.ShloMosaic Idealize.ShloMosaic.ValueIdx
open Cert.KernelIdeal Cert.KernelIdeal.Gen Cert.LibKeepdims

/-- The area of the intersection of the box with edges (l, t, r, b) at row p and the target box of column c. -/
theorem pay24_apply (l t r b : FVec Ideal S600x1 .f32) (x4 : Vec Ideal S4x1664 .f32) (p : Fin 600) (c : Fin 1664) :
    k0_pay24 (F := Ideal) l t r b x4 (ix2 p c)
      = max (min (r (ix2 p (0 : Fin 1))) (x4 (ix2 (2 : Fin 4) c)) - max (l (ix2 p (0 : Fin 1))) (x4 (ix2 (0 : Fin 4) c))) CostSpec.zero
        * max (min (b (ix2 p (0 : Fin 1))) (x4 (ix2 (3 : Fin 4) c)) - max (t (ix2 p (0 : Fin 1))) (x4 (ix2 (1 : Fin 4) c))) CostSpec.zero := by
  unfold k0_pay24
  simp only [mulf_apply, maximumf_apply, minimumf_apply, subf_apply, broadcast_apply, scalar_ofBits,
    broadcastTo_a1_ab_apply, broadcastTo_1b_ab_apply, pay20_apply, pay21_apply, pay22_apply, pay23_apply]

/-- The area of the union: the two areas added, less the intersection. -/
theorem pay25_apply (l t r b : FVec Ideal S600x1 .f32) (x4 : Vec Ideal S4x1664 .f32) (x5 : Vec Ideal S1x1664 .f32)
    (p : Fin 600) (c : Fin 1664) :
    k0_pay25 (F := Ideal) l t r b x4 x5 (ix2 p c)
      = (((r (ix2 p (0 : Fin 1)) - l (ix2 p (0 : Fin 1))) * (b (ix2 p (0 : Fin 1)) - t (ix2 p (0 : Fin 1))))
          + x5 (ix2 (0 : Fin 1) c)) - k0_pay24 (F := Ideal) l t r b x4 (ix2 p c) := by
  unfold k0_pay25
  simp only [shapeCast_self, subf_apply, addf_apply, mulf_apply, broadcastTo_a1_ab_apply, broadcastTo_1b_ab_apply]

/-- The intersection over the union. -/
theorem pay26_apply (l t r b : FVec Ideal S600x1 .f32) (x4 : Vec Ideal S4x1664 .f32) (x5 : Vec Ideal S1x1664 .f32)
    (p : Fin 600) (c : Fin 1664) :
    k0_pay26 (F := Ideal) l t r b x4 x5 (ix2 p c)
      = Ideal.div (k0_pay24 (F := Ideal) l t r b x4 (ix2 p c)) (k0_pay25 (F := Ideal) l t r b x4 x5 (ix2 p c)) := by
  unfold k0_pay26
  simp only [divf_apply]

/-- The hull's left edge: the smaller of the two left edges. -/
theorem pay27_apply (l : FVec Ideal S600x1 .f32) (x4 : Vec Ideal S4x1664 .f32) (p : Fin 600) (c : Fin 1664) :
    k0_pay27 (F := Ideal) l x4 (ix2 p c) = min (l (ix2 p (0 : Fin 1))) (x4 (ix2 (0 : Fin 4) c)) := by
  unfold k0_pay27
  simp only [minimumf_apply, broadcastTo_a1_ab_apply, broadcastTo_1b_ab_apply, pay20_apply]

/-- The hull's top edge: the smaller of the two top edges. -/
theorem pay28_apply (t : FVec Ideal S600x1 .f32) (x4 : Vec Ideal S4x1664 .f32) (p : Fin 600) (c : Fin 1664) :
    k0_pay28 (F := Ideal) t x4 (ix2 p c) = min (t (ix2 p (0 : Fin 1))) (x4 (ix2 (1 : Fin 4) c)) := by
  unfold k0_pay28
  simp only [minimumf_apply, broadcastTo_a1_ab_apply, broadcastTo_1b_ab_apply, pay21_apply]

end Cert.KernelIdeal.KValue

end
-- ==== Proof.KStored.lean ====
/-
  The value the kernel body stores, at an index: the logistic function of the box distance plus the class cost less
  the generalized intersection over union, of the prediction of row p and the target of column q. The output block
  keeps the first 1600 of the 1664 padded columns, so column q of the block is column q of the padded arrays.
-/
import proofs.«132197_j57208964382737_2_alg».proof.Proof.KEntry
import proofs.«132197_j57208964382737_2_alg».proof.Proof.Spec
import proofs.«132197_j57208964382737_2_alg».proof.Proof.LibKeepdims
import proofs.«132197_j57208964382737_2_alg».proof.Proof.KStoredBox
import proofs.«132197_j57208964382737_2_alg».proof.Proof.KStoredCls
import proofs.«132197_j57208964382737_2_alg».proof.Proof.KStoredL1
import proofs.«132197_j57208964382737_2_alg».proof.Proof.KStoredIou

noncomputable section

open scoped BigOperators

namespace Cert.KernelIdeal.KValue

open Idealize.ShloMosaic Idealize.ShloMosaic.ValueIdx
open Cert.KernelIdeal Cert.KernelIdeal.Gen Cert.LibKeepdims

/-- The first 1600 columns of a [600, 1664] array, read at (p, q). -/
theorem keptColumns_apply {α : Type} (X : S600x1664.Idx → α) (h : S600x1664.Slices ![0, 0] S600x1600) (p : Fin 600) (q : Fin 1600) :
    extractStridedSlice S600x1600 ![0, 0] X h (ix2 p q) = X (ix2 p (Fin.castLE (by decide : 1600 ≤ 1664) q)) :=
  sliceFirstColumns_apply X h p q (by decide)

/-- The stored value over the pieces it is given: the class cost v13, the prediction's right and bottom edges v28 and
    v31, the box distance v56, the target's right and bottom edges v61 and v62, the union area v90, the intersection
    over the union v91, and the hull's left and top edges v94 and v97. -/
theorem pay1_apply (v13 : FVec Ideal S600x1664 .f32) (v28 v31 : FVec Ideal S600x1 .f32) (v56 : FVec Ideal S600x1664 .f32)
    (v61 v62 : FVec Ideal S1x1664 .f32) (v90 v91 v94 v97 : FVec Ideal S600x1664 .f32) (p : Fin 600) (q : Fin 1600) :
    k0_pay1 (F := Ideal) v13 v28 v31 v56 v61 v62 v90 v91 v94 v97 (ix2 p q)
      = Ideal.logistic
          ((CostSpec.one * v56 (ix2 p (Fin.castLE (by decide : 1600 ≤ 1664) q))
              + CostSpec.one * v13 (ix2 p (Fin.castLE (by decide : 1600 ≤ 1664) q)))
            + CostSpec.one * (CostSpec.zero
                - (v91 (ix2 p (Fin.castLE (by decide : 1600 ≤ 1664) q))
                    - Ideal.div
                        (max (max (v28 (ix2 p (0 : Fin 1))) (v61 (ix2 (0 : Fin 1) (Fin.castLE (by decide : 1600 ≤ 1664) q)))
                                - v94 (ix2 p (Fin.castLE (by decide : 1600 ≤ 1664) q))) CostSpec.zero
                            * max (max (v31 (ix2 p (0 : Fin 1))) (v62 (ix2 (0 : Fin 1) (Fin.castLE (by decide : 1600 ≤ 1664) q)))
                                - v97 (ix2 p (Fin.castLE (by decide : 1600 ≤ 1664) q))) CostSpec.zero
                          - v90 (ix2 p (Fin.castLE (by decide : 1600 ≤ 1664) q)))
                        (max (max (v28 (ix2 p (0 : Fin 1))) (v61 (ix2 (0 : Fin 1) (Fin.castLE (by decide : 1600 ≤ 1664) q)))
                                - v94 (ix2 p (Fin.castLE (by decide : 1600 ≤ 1664) q))) CostSpec.zero
                            * max (max (v31 (ix2 p (0 : Fin 1))) (v62 (ix2 (0 : Fin 1) (Fin.castLE (by decide : 1600 ≤ 1664) q)))
                                - v97 (ix2 p (Fin.castLE (by decide : 1600 ≤ 1664) q))) CostSpec.zero)))) := by
  unfold k0_pay1
  simp only [logistic_apply, keptColumns_apply, addf_apply, mulf_apply, subf_apply, divf_apply, maximumf_apply,
    broadcast_apply, scalar_ofBits, broadcastTo_a1_ab_apply, broadcastTo_1b_ab_apply]

/-- THE STORED VALUE AT (p, q): the specification's entry of the class cost of logit row p against embedding column q,
    the prediction box of row p, and the target of column q in centre form, in corner form and by its area. -/
theorem stored_apply (x0 : Vec Ideal S600x256 .f32) (x1 : Vec Ideal S600x4 .f32) (x2 : Vec Ideal S256x1664 .bf16)
    (x3 x4 : Vec Ideal S4x1664 .f32) (x5 : Vec Ideal S1x1664 .f32) (p : Fin 600) (q : Fin 1600) :
    KEntry.stored (F := Ideal) x0 x1 x2 x3 x4 x5 (ix2 p q)
      = CostSpec.cellRaw
          (CostSpec.cls (fun k => x0 (ix2 p k)) (fun k => x2 (ix2 k (Fin.castLE (by decide : 1600 ≤ 1664) q))))
          (x1 (ix2 p (0 : Fin 4))) (x1 (ix2 p (1 : Fin 4))) (x1 (ix2 p (2 : Fin 4))) (x1 (ix2 p (3 : Fin 4)))
          (x3 (ix2 (0 : Fin 4) (Fin.castLE (by decide : 1600 ≤ 1664) q)))
          (x3 (ix2 (1 : Fin 4) (Fin.castLE (by decide : 1600 ≤ 1664) q)))
          (x3 (ix2 (2 : Fin 4) (Fin.castLE (by decide : 1600 ≤ 1664) q)))
          (x3 (ix2 (3 : Fin 4) (Fin.castLE (by decide : 1600 ≤ 1664) q)))
          (x4 (ix2 (0 : Fin 4) (Fin.castLE (by decide : 1600 ≤ 1664) q)))
          (x4 (ix2 (1 : Fin 4) (Fin.castLE (by decide : 1600 ≤ 1664) q)))
          (x4 (ix2 (2 : Fin 4) (Fin.castLE (by decide : 1600 ≤ 1664) q)))
          (x4 (ix2 (3 : Fin 4) (Fin.castLE (by decide : 1600 ≤ 1664) q)))
          (x5 (ix2 (0 : Fin 1) (Fin.castLE (by decide : 1600 ≤ 1664) q))) := by
  unfold KEntry.stored
  simp only [pay1_apply, pay2_apply, boxL1_apply, pay26_apply, pay25_apply, pay24_apply, pay27_apply, pay28_apply,
    pay8_apply, pay9_apply, pay10_apply, pay11_apply, pay22_apply, pay23_apply]
  rfl

end Cert.KernelIdeal.KValue

end
-- ==== Proof.KPrefixArgs.lean ====
/-
  No host line before the region writes an argument of the program: each of the five argument arrays is, when
  the region is entered, what the launch memory holds.
-/
import proofs.«132197_j57208964382737_2_alg».proof.Proof.KEntry
import proofs.«132197_j57208964382737_2_alg».proof.Proof.Spec
import Idealize.ShloMosaic.Lib.StableHlo.Run

noncomputable section

namespace Cert.KernelIdeal.KPrefix

open Idealize.ShloMosaic Idealize.ShloMosaic.TcCoe Idealize.SL.Sem Idealize.ShloMosaic.StableHlo
open Idealize.ShloMosaic.ValueIdx
open Cert.KernelIdeal Cert.KernelIdeal.Gen Cert.KernelIdeal.KEntry

variable {F : FTy → Type} [FloatOps F]

/-- The logits argument is untouched by the host lines. -/
theorem V_arg0 (m : (ℓ : Loc nD τ sig) → Buf (Elt F) ℓ) (c : Dev nD) :
    KEntry.V m c main_arg0 = m ((c.tc : Thread nD τ).loc main_arg0) := by
  dsimp only [KEntry.V, KEntry.V0]
  simp only [Gen.hostOps0, Gen.hostOps0_1, Gen.hostOps0_2, Gen.hostOps0_3, Gen.hostOps0_4, List.flatten_cons, List.flatten_nil, List.append_nil, List.cons_append, List.nil_append]
  after_results

/-- The boxes argument is untouched by the host lines. -/
theorem V_arg1 (m : (ℓ : Loc nD τ sig) → Buf (Elt F) ℓ) (c : Dev nD) :
    KEntry.V m c main_arg1 = m ((c.tc : Thread nD τ).loc main_arg1) := by
  dsimp only [KEntry.V, KEntry.V0]
  simp only [Gen.hostOps0, Gen.hostOps0_1, Gen.hostOps0_2, Gen.hostOps0_3, Gen.hostOps0_4, List.flatten_cons, List.flatten_nil, List.append_nil, List.cons_append, List.nil_append]
  after_results

/-- The embeddings argument is untouched by the host lines. -/
theorem V_arg2 (m : (ℓ : Loc nD τ sig) → Buf (Elt F) ℓ) (c : Dev nD) :
    KEntry.V m c main_arg2 = m ((c.tc : Thread nD τ).loc main_arg2) := by
  dsimp only [KEntry.V, KEntry.V0]
  simp only [Gen.hostOps0, Gen.hostOps0_1, Gen.hostOps0_2, Gen.hostOps0_3, Gen.hostOps0_4, List.flatten_cons, List.flatten_nil, List.append_nil, List.cons_append, List.nil_append]
  after_results

/-- The target-boxes argument is untouched by the host lines. -/
theorem V_arg3 (m : (ℓ : Loc nD τ sig) → Buf (Elt F) ℓ) (c : Dev nD) :
    KEntry.V m c main_arg3 = m ((c.tc : Thread nD τ).loc main_arg3) := by
  dsimp only [KEntry.V, KEntry.V0]
  simp only [Gen.hostOps0, Gen.hostOps0_1, Gen.hostOps0_2, Gen.hostOps0_3, Gen.hostOps0_4, List.flatten_cons, List.flatten_nil, List.append_nil, List.cons_append, List.nil_append]
  after_results

/-- The integer argument is untouched by the host lines. -/
theorem V_arg4 (m : (ℓ : Loc nD τ sig) → Buf (Elt F) ℓ) (c : Dev nD) :
    KEntry.V m c main_arg4 = m ((c.tc : Thread nD τ).loc main_arg4) := by
  dsimp only [KEntry.V, KEntry.V0]
  simp only [Gen.hostOps0, Gen.hostOps0_1, Gen.hostOps0_2, Gen.hostOps0_3, Gen.hostOps0_4, List.flatten_cons, List.flatten_nil, List.append_nil, List.cons_append, List.nil_append]
  after_results

end Cert.KernelIdeal.KPrefix
end
-- ==== Proof.KPrefixReshape.lean ====
/-
  The two prediction arrays as the region finds them: the host reshapes the [16, 900, ·] logits and boxes to
  [14400, ·], so row r of the reshaped array is batch r / 900, query r % 900 of the argument.
-/
import proofs.«132197_j57208964382737_2_alg».proof.Proof.KEntry
import proofs.«132197_j57208964382737_2_alg».proof.Proof.Spec
import Idealize.ShloMosaic.Lib.StableHlo.Run
import Idealize.ShloMosaic.Lib.ValueLayout
import Idealize.ShloMosaic.Lib.Pipeline.Value

noncomputable section

namespace Cert.KernelIdeal.KPrefix

open Idealize.ShloMosaic Idealize.ShloMosaic.TcCoe Idealize.SL.Sem Idealize.ShloMosaic.StableHlo
open Idealize.ShloMosaic.ValueIdx
open Cert.KernelIdeal Cert.KernelIdeal.Gen Cert.KernelIdeal.KEntry

/-- The reshaped logits are the shape cast of the logits argument. -/
theorem V_v35_eq (m : (ℓ : Loc nD τ sig) → Buf (Elt Ideal) ℓ) (c : Dev nD) :
    (KEntry.V (F := Ideal) m c main_v35 : S14400x256.Idx → EReal)
      = shapeCast S14400x256 (m ((c.tc : Thread nD τ).loc main_arg0) : S16x900x256.Idx → EReal) shapeCasts_S16x900x256_S14400x256 := by
  dsimp only [KEntry.V, KEntry.V0]
  simp only [Gen.hostOps0, Gen.hostOps0_1, Gen.hostOps0_2, Gen.hostOps0_3, Gen.hostOps0_4, List.flatten_cons, List.flatten_nil, List.append_nil, List.cons_append, List.nil_append]
  after_results
  rfl

/-- The reshaped boxes are the shape cast of the boxes argument. -/
theorem V_v36_eq (m : (ℓ : Loc nD τ sig) → Buf (Elt Ideal) ℓ) (c : Dev nD) :
    (KEntry.V (F := Ideal) m c main_v36 : S14400x4.Idx → EReal)
      = shapeCast S14400x4 (m ((c.tc : Thread nD τ).loc main_arg1) : S16x900x4.Idx → EReal) shapeCasts_S16x900x4_S14400x4 := by
  dsimp only [KEntry.V, KEntry.V0]
  simp only [Gen.hostOps0, Gen.hostOps0_1, Gen.hostOps0_2, Gen.hostOps0_3, Gen.hostOps0_4, List.flatten_cons, List.flatten_nil, List.append_nil, List.cons_append, List.nil_append]
  after_results
  rfl

/-- Row r, entry k of the reshaped logits is entry k of batch r / 900, query r % 900. -/
theorem V_v35_apply (m : (ℓ : Loc nD τ sig) → Buf (Elt Ideal) ℓ) (c : Dev nD) (r : Fin 14400) (k : Fin 256) :
    (KEntry.V (F := Ideal) m c main_v35 : S14400x256.Idx → EReal) (ix2 r k)
      = (m ((c.tc : Thread nD τ).loc main_arg0) : S16x900x256.Idx → EReal)
          (ix3 (⟨r.val / 900, by have := r.isLt; omega⟩ : Fin 16) (⟨r.val % 900, Nat.mod_lt _ (by decide)⟩ : Fin 900) k) := by
  rw [V_v35_eq]
  refine shapeCast_apply _ shapeCasts_S16x900x256_S14400x256 (ix2 r k) _ ?_
  rewrite [Shape.rowMajor_val_three, Shape.rowMajor_val_two]
  have hr := r.isLt
  show (r.val / 900 * 900 + r.val % 900) * 256 + k.val = r.val * 256 + k.val
  omega

/-- Row r, entry j of the reshaped boxes is entry j of batch r / 900, query r % 900. -/
theorem V_v36_apply (m : (ℓ : Loc nD τ sig) → Buf (Elt Ideal) ℓ) (c : Dev nD) (r : Fin 14400) (j : Fin 4) :
    (KEntry.V (F := Ideal) m c main_v36 : S14400x4.Idx → EReal) (ix2 r j)
      = (m ((c.tc : Thread nD τ).loc main_arg1) : S16x900x4.Idx → EReal)
          (ix3 (⟨r.val / 900, by have := r.isLt; omega⟩ : Fin 16) (⟨r.val % 900, Nat.mod_lt _ (by decide)⟩ : Fin 900) j) := by
  rw [V_v36_eq]
  refine shapeCast_apply _ shapeCasts_S16x900x4_S14400x4 (ix2 r j) _ ?_
  rewrite [Shape.rowMajor_val_three, Shape.rowMajor_val_two]
  have hr := r.isLt
  show (r.val / 900 * 900 + r.val % 900) * 4 + j.val = r.val * 4 + j.val
  omega

end Cert.KernelIdeal.KPrefix
end
-- ==== Proof.LibPadCols.lean ====
/-
  General layout lemmas about a matrix padded with extra rows at the end and then transposed: the extra rows
  become extra columns, and a column inside the unpadded range is the corresponding row of the matrix.
-/
import Idealize.ShloMosaic.Lib.Pipeline.Value
import Idealize.ShloMosaic.Lib.ValueIdx
import Idealize.ShloMosaic.Lib.KernelVsHost

namespace Cert.LibPadCols

open Idealize.ShloMosaic Idealize.ShloMosaic.ValueIdx

variable {α : Type}

/-- A matrix of n rows padded with p further rows at the end (no low padding, no interior padding), read at a
    row q' that is row q of the matrix (q' = q as numbers, so q' lies inside the unpadded range), is the matrix
    at row q: the padding value is never seen. -/
theorem pad_rows_apply_inside {n n' w p : Nat} (x : (⟨2, ![n, w]⟩ : Shape).Idx → α) {u : Shape} (v : u.Idx → α)
    (hp : (⟨2, ![n, w]⟩ : Shape).Pads (![0, 0] : Fin 2 → Nat) ![p, 0] ![0, 0] ⟨2, ![n', w]⟩) (hu : 0 < u.numel)
    (q : Fin n) (q' : Fin n') (hq : q'.val = q.val) (k : Fin w) :
    pad (⟨2, ![n', w]⟩ : Shape) (![0, 0] : Fin 2 → Nat) ![p, 0] ![0, 0] x v hp hu (ix2 q' k) = x (ix2 q k) :=
  pad_apply_of_inside (![0, 0] : Fin 2 → Nat) ![p, 0] ![0, 0] x v hp hu (ix2 q' k) (ix2 q k) (fun a => match a with
    | ⟨0, _⟩ => by show q'.val = 0 + q.val * (0 + 1); omega
    | ⟨1, _⟩ => by show k.val = 0 + k.val * (0 + 1); omega)

/-- The transpose of a matrix padded with p further rows at the end, read at row k and at a column q' inside
    the unpadded range (q' = q as numbers), is the matrix at row q, column k. -/
theorem transpose_pad_rows_apply {n n' w p : Nat} (x : (⟨2, ![n, w]⟩ : Shape).Idx → α) {u : Shape} (v : u.Idx → α)
    (hp : (⟨2, ![n, w]⟩ : Shape).Pads (![0, 0] : Fin 2 → Nat) ![p, 0] ![0, 0] ⟨2, ![n', w]⟩) (hu : 0 < u.numel)
    (ht : (⟨2, ![n', w]⟩ : Shape).Transposes [1, 0] ⟨2, ![w, n']⟩)
    (q : Fin n) (q' : Fin n') (hq : q'.val = q.val) (k : Fin w) :
    transpose (⟨2, ![w, n']⟩ : Shape) [1, 0]
        (pad (⟨2, ![n', w]⟩ : Shape) (![0, 0] : Fin 2 → Nat) ![p, 0] ![0, 0] x v hp hu) ht (ix2 k q')
      = x (ix2 q k) :=
  (transpose_apply [1, 0] _ ht (ix2 k q') (ix2 q' k) (fun b => match b with
    | ⟨0, _⟩ => rfl
    | ⟨1, _⟩ => rfl)).trans (pad_rows_apply_inside x v hp hu q q' hq k)

/-- Four one-column matrices laid side by side (a concatenation along axis 1), read at row r and column k:
    the k-th piece at row r (its one column is column 0). -/
theorem concat4_cols_apply {n : Nat} (x0 x1 x2 x3 : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1) (r : Fin n) :
    concatenate (⟨2, ![n, 4]⟩ : Shape) 1 [⟨⟨2, ![n, 1]⟩, x0⟩, ⟨⟨2, ![n, 1]⟩, x1⟩, ⟨⟨2, ![n, 1]⟩, x2⟩, ⟨⟨2, ![n, 1]⟩, x3⟩] h (ix2 r (0 : Fin 4)) = x0 (ix2 r (0 : Fin 1))
    ∧ concatenate (⟨2, ![n, 4]⟩ : Shape) 1 [⟨⟨2, ![n, 1]⟩, x0⟩, ⟨⟨2, ![n, 1]⟩, x1⟩, ⟨⟨2, ![n, 1]⟩, x2⟩, ⟨⟨2, ![n, 1]⟩, x3⟩] h (ix2 r (1 : Fin 4)) = x1 (ix2 r (0 : Fin 1))
    ∧ concatenate (⟨2, ![n, 4]⟩ : Shape) 1 [⟨⟨2, ![n, 1]⟩, x0⟩, ⟨⟨2, ![n, 1]⟩, x1⟩, ⟨⟨2, ![n, 1]⟩, x2⟩, ⟨⟨2, ![n, 1]⟩, x3⟩] h (ix2 r (2 : Fin 4)) = x2 (ix2 r (0 : Fin 1))
    ∧ concatenate (⟨2, ![n, 4]⟩ : Shape) 1 [⟨⟨2, ![n, 1]⟩, x0⟩, ⟨⟨2, ![n, 1]⟩, x1⟩, ⟨⟨2, ![n, 1]⟩, x2⟩, ⟨⟨2, ![n, 1]⟩, x3⟩] h (ix2 r (3 : Fin 4)) = x3 (ix2 r (0 : Fin 1)) := by
  have hi : ∀ (k : Fin 4) (b : Fin 2), b.cast (rfl : (2 : Nat) = 2) ≠ (1 : Fin 2) →
      ((ix2 r (0 : Fin 1) : (⟨2, ![n, 1]⟩ : Shape).Idx) b).val = ((ix2 r k : (⟨2, ![n, 4]⟩ : Shape).Idx) (b.cast rfl)).val :=
    fun k b => match b with
    | ⟨0, _⟩ => fun _ => rfl
    | ⟨1, _⟩ => fun hb => absurd rfl hb
  refine ⟨?_, ?_, ?_, ?_⟩
  · exact concatenate_apply_piece (t := (⟨2, ![n, 4]⟩ : Shape)) (1 : Fin 2) ([⟨⟨2, ![n, 1]⟩, x0⟩, ⟨⟨2, ![n, 1]⟩, x1⟩, ⟨⟨2, ![n, 1]⟩, x2⟩, ⟨⟨2, ![n, 1]⟩, x3⟩] : List ((s : Shape) × (s.Idx → α))) h (ix2 r (0 : Fin 4)) 0 (by show 0 < 4; omega) ⟨2, ![n, 1]⟩ x0 rfl rfl 0 rfl
      (ix2 r (0 : Fin 1)) (hi 0) rfl
  · exact concatenate_apply_piece (t := (⟨2, ![n, 4]⟩ : Shape)) (1 : Fin 2) ([⟨⟨2, ![n, 1]⟩, x0⟩, ⟨⟨2, ![n, 1]⟩, x1⟩, ⟨⟨2, ![n, 1]⟩, x2⟩, ⟨⟨2, ![n, 1]⟩, x3⟩] : List ((s : Shape) × (s.Idx → α))) h (ix2 r (1 : Fin 4)) 1 (by show 1 < 4; omega) ⟨2, ![n, 1]⟩ x1 rfl rfl 1 rfl
      (ix2 r (0 : Fin 1)) (hi 1) rfl
  · exact concatenate_apply_piece (t := (⟨2, ![n, 4]⟩ : Shape)) (1 : Fin 2) ([⟨⟨2, ![n, 1]⟩, x0⟩, ⟨⟨2, ![n, 1]⟩, x1⟩, ⟨⟨2, ![n, 1]⟩, x2⟩, ⟨⟨2, ![n, 1]⟩, x3⟩] : List ((s : Shape) × (s.Idx → α))) h (ix2 r (2 : Fin 4)) 2 (by show 2 < 4; omega) ⟨2, ![n, 1]⟩ x2 rfl rfl 2 rfl
      (ix2 r (0 : Fin 1)) (hi 2) rfl
  · exact concatenate_apply_piece (t := (⟨2, ![n, 4]⟩ : Shape)) (1 : Fin 2) ([⟨⟨2, ![n, 1]⟩, x0⟩, ⟨⟨2, ![n, 1]⟩, x1⟩, ⟨⟨2, ![n, 1]⟩, x2⟩, ⟨⟨2, ![n, 1]⟩, x3⟩] : List ((s : Shape) × (s.Idx → α))) h (ix2 r (3 : Fin 4)) 3 (by show 3 < 4; omega) ⟨2, ![n, 1]⟩ x3 rfl rfl 3 rfl
      (ix2 r (0 : Fin 1)) (hi 3) rfl

end Cert.LibPadCols
-- ==== Proof.KPrefixCols.lean ====
/-
  The transposed embeddings and the transposed target boxes (centre form) as the region finds them: the host
  pads each with 64 rows of the converted integer zero, transposes it (and converts the embeddings to bf16, the
  identity on extended reals), so column q < 1600 of the transposed array is row q of the argument.
-/
import proofs.«132197_j57208964382737_2_alg».proof.Proof.KEntry
import proofs.«132197_j57208964382737_2_alg».proof.Proof.Spec
import Idealize.ShloMosaic.Lib.StableHlo.Run
import Idealize.ShloMosaic.Lib.ValueLayout
import Idealize.ShloMosaic.Lib.Pipeline.Value
import proofs.«132197_j57208964382737_2_alg».proof.Proof.LibPadCols

noncomputable section

namespace Cert.KernelIdeal.KPrefix

open Idealize.ShloMosaic Idealize.ShloMosaic.TcCoe Idealize.SL.Sem Idealize.ShloMosaic.StableHlo
open Idealize.ShloMosaic.ValueIdx
open Cert.KernelIdeal Cert.KernelIdeal.Gen Cert.KernelIdeal.KEntry

/-- The transposed, converted embeddings as the host operations' composed term. -/
theorem V_v20_eq (m : (ℓ : Loc nD τ sig) → Buf (Elt Ideal) ℓ) (c : Dev nD) :
    (KEntry.V (F := Ideal) m c main_v20 : S256x1664.Idx → EReal)
      = truncf (F := Ideal) .bf16 (transpose S256x1664 [1, 0]
          (pad S1664x256 ![0, 0] ![64, 0] ![0, 0] (m ((c.tc : Thread nD τ).loc main_arg2) : S1600x256.Idx → EReal)
            (sitofp (F := Ideal) .f32 (constantI S_ 32 0#32)) pads_S1600x256_S1664x256_0640_000 h_S_)
          transposes_S1664x256_S256x1664_1_0) bitsLt_bf16_f32 := by
  dsimp only [KEntry.V, KEntry.V0]
  simp only [Gen.hostOps0, Gen.hostOps0_1, Gen.hostOps0_2, Gen.hostOps0_3, Gen.hostOps0_4, List.flatten_cons, List.flatten_nil, List.append_nil, List.cons_append, List.nil_append]
  after_results
  rfl

/-- The transposed target boxes (centre form) as the host operations' composed term. -/
theorem V_v21_eq (m : (ℓ : Loc nD τ sig) → Buf (Elt Ideal) ℓ) (c : Dev nD) :
    (KEntry.V (F := Ideal) m c main_v21 : S4x1664.Idx → EReal)
      = transpose S4x1664 [1, 0]
          (pad S1664x4 ![0, 0] ![64, 0] ![0, 0] (m ((c.tc : Thread nD τ).loc main_arg3) : S1600x4.Idx → EReal)
            (sitofp (F := Ideal) .f32 (constantI S_ 32 0#32)) pads_S1600x4_S1664x4_0640_000 h_S_)
          transposes_S1664x4_S4x1664_1_0 := by
  dsimp only [KEntry.V, KEntry.V0]
  simp only [Gen.hostOps0, Gen.hostOps0_1, Gen.hostOps0_2, Gen.hostOps0_3, Gen.hostOps0_4, List.flatten_cons, List.flatten_nil, List.append_nil, List.cons_append, List.nil_append]
  after_results
  rfl

/-- Entry k of column q < 1600 of the transposed embeddings is entry k of embedding row q. -/
theorem V_v20_apply (m : (ℓ : Loc nD τ sig) → Buf (Elt Ideal) ℓ) (c : Dev nD) (k : Fin 256) (q : Fin 1600) :
    (KEntry.V (F := Ideal) m c main_v20 : S256x1664.Idx → EReal) (ix2 k (Fin.castLE (by decide) q : Fin 1664))
      = (m ((c.tc : Thread nD τ).loc main_arg2) : S1600x256.Idx → EReal) (ix2 q k) := by
  rw [V_v20_eq, truncf_apply]
  exact Cert.LibPadCols.transpose_pad_rows_apply _ _ pads_S1600x256_S1664x256_0640_000 h_S_
    transposes_S1664x256_S256x1664_1_0 q (Fin.castLE (by decide) q) rfl k

/-- Entry j of column q < 1600 of the transposed target boxes is entry j of target box q. -/
theorem V_v21_apply (m : (ℓ : Loc nD τ sig) → Buf (Elt Ideal) ℓ) (c : Dev nD) (j : Fin 4) (q : Fin 1600) :
    (KEntry.V (F := Ideal) m c main_v21 : S4x1664.Idx → EReal) (ix2 j (Fin.castLE (by decide) q : Fin 1664))
      = (m ((c.tc : Thread nD τ).loc main_arg3) : S1600x4.Idx → EReal) (ix2 q j) := by
  rw [V_v21_eq]
  exact Cert.LibPadCols.transpose_pad_rows_apply _ _ pads_S1600x4_S1664x4_0640_000 h_S_
    transposes_S1664x4_S4x1664_1_0 q (Fin.castLE (by decide) q) rfl j

end Cert.KernelIdeal.KPrefix
end
-- ==== Proof.KPrefixHead.lean ====
/-
  The host lines before the region, cut at the concatenation of the four corner columns: the buffer contents
  after the first part are named W, and each corner column is read off W as centre ∓ half · extent of the
  padded target boxes' columns.
-/
import proofs.«132197_j57208964382737_2_alg».proof.Proof.KEntry
import proofs.«132197_j57208964382737_2_alg».proof.Proof.Spec
import Idealize.ShloMosaic.Lib.StableHlo.Run
import Idealize.ShloMosaic.Lib.ValueLayout
import Idealize.ShloMosaic.Lib.Pipeline.Value

noncomputable section

namespace Cert.KernelIdeal.KPrefix

open Idealize.ShloMosaic Idealize.ShloMosaic.TcCoe Idealize.SL.Sem Idealize.ShloMosaic.StableHlo
open Idealize.ShloMosaic.ValueIdx
open Cert.KernelIdeal Cert.KernelIdeal.Gen Cert.KernelIdeal.KEntry

/-- The target boxes padded with 64 rows of the converted integer zero. -/
def padded (t : FVec Ideal S1600x4 .f32) : FVec Ideal S1664x4 .f32 :=
  pad S1664x4 ![0, 0] ![64, 0] ![0, 0] t (sitofp (F := Ideal) .f32 (constantI S_ 32 0#32)) pads_S1600x4_S1664x4_0640_000 h_S_

/-- The word of one half, broadcast down a column. -/
def halfCol : FVec Ideal S1664x1 .f32 :=
  broadcastInDim S1664x1 ![] bcast_S_S1664x1 (constant (F := Ideal) S_ .f32 0x3F000000#32)

/-- Column 0 of the padded target boxes (the centres' x), as a one-column matrix. -/
def col0 (t : FVec Ideal S1600x4 .f32) : FVec Ideal S1664x1 .f32 := extractStridedSlice S1664x1 ![0, 0] (padded t) slices_S1664x4_S1664x1_0_0
/-- Column 1 of the padded target boxes (the centres' y). -/
def col1 (t : FVec Ideal S1600x4 .f32) : FVec Ideal S1664x1 .f32 := extractStridedSlice S1664x1 ![0, 1] (padded t) slices_S1664x4_S1664x1_0_1
/-- Column 2 of the padded target boxes (the widths). -/
def col2 (t : FVec Ideal S1600x4 .f32) : FVec Ideal S1664x1 .f32 := extractStridedSlice S1664x1 ![0, 2] (padded t) slices_S1664x4_S1664x1_0_2
/-- Column 3 of the padded target boxes (the heights). -/
def col3 (t : FVec Ideal S1600x4 .f32) : FVec Ideal S1664x1 .f32 := extractStridedSlice S1664x1 ![0, 3] (padded t) slices_S1664x4_S1664x1_0_3

/-- The buffers after every host line up to (not including) the concatenation of the corner columns. -/
def W (m : (ℓ : Loc nD τ sig) → Buf (Elt Ideal) ℓ) (c : Dev nD) : Valuation τ sig (Elt Ideal) :=
  StableHlo.after (hostOps0 ++ hostOps0_1 ++ hostOps0_2 ++ hostOps0_3 ++ (hostOps0_4 (F := Ideal)).take 20) (fun b => m (c, b))

/-- The buffers when the region is entered are the remaining host lines applied to W. -/
theorem V_split (m : (ℓ : Loc nD τ sig) → Buf (Elt Ideal) ℓ) (c : Dev nD) (b : Ref sig .tc) :
    KEntry.V (F := Ideal) m c b = StableHlo.after ((hostOps0_4 (F := Ideal)).drop 20) (W m c) (Proc.devRef .tc b) := by
  show StableHlo.after (List.flatten [hostOps0, hostOps0_1, hostOps0_2, hostOps0_3, hostOps0_4]) (fun b => m (c, b)) (Proc.devRef .tc b) = _
  unfold W
  rw [← StableHlo.after_append]
  congr 2

/-- The low x corner column: centre x − half · width. -/
theorem W_v8 (m : (ℓ : Loc nD τ sig) → Buf (Elt Ideal) ℓ) (c : Dev nD) :
    (W m c (Proc.devRef .tc main_v8) : FVec Ideal S1664x1 .f32) = subf (col0 (m ((c.tc : Thread nD τ).loc main_arg3))) (mulf halfCol (col2 (m ((c.tc : Thread nD τ).loc main_arg3)))) := by
  unfold W
  simp only [Gen.hostOps0, Gen.hostOps0_1, Gen.hostOps0_2, Gen.hostOps0_3, Gen.hostOps0_4, List.take_succ_cons, List.take_zero, List.append_nil, List.cons_append, List.nil_append]
  after_results
  rfl

/-- The low y corner column: centre y − half · height. -/
theorem W_v11 (m : (ℓ : Loc nD τ sig) → Buf (Elt Ideal) ℓ) (c : Dev nD) :
    (W m c (Proc.devRef .tc main_v11) : FVec Ideal S1664x1 .f32) = subf (col1 (m ((c.tc : Thread nD τ).loc main_arg3))) (mulf halfCol (col3 (m ((c.tc : Thread nD τ).loc main_arg3)))) := by
  unfold W
  simp only [Gen.hostOps0, Gen.hostOps0_1, Gen.hostOps0_2, Gen.hostOps0_3, Gen.hostOps0_4, List.take_succ_cons, List.take_zero, List.append_nil, List.cons_append, List.nil_append]
  after_results
  rfl

/-- The high x corner column: centre x + half · width. -/
theorem W_v14 (m : (ℓ : Loc nD τ sig) → Buf (Elt Ideal) ℓ) (c : Dev nD) :
    (W m c (Proc.devRef .tc main_v14) : FVec Ideal S1664x1 .f32) = addf (col0 (m ((c.tc : Thread nD τ).loc main_arg3))) (mulf halfCol (col2 (m ((c.tc : Thread nD τ).loc main_arg3)))) := by
  unfold W
  simp only [Gen.hostOps0, Gen.hostOps0_1, Gen.hostOps0_2, Gen.hostOps0_3, Gen.hostOps0_4, List.take_succ_cons, List.take_zero, List.append_nil, List.cons_append, List.nil_append]
  after_results
  rfl

/-- The high y corner column: centre y + half · height. -/
theorem W_v17 (m : (ℓ : Loc nD τ sig) → Buf (Elt Ideal) ℓ) (c : Dev nD) :
    (W m c (Proc.devRef .tc main_v17) : FVec Ideal S1664x1 .f32) = addf (col1 (m ((c.tc : Thread nD τ).loc main_arg3))) (mulf halfCol (col3 (m ((c.tc : Thread nD τ).loc main_arg3)))) := by
  unfold W
  simp only [Gen.hostOps0, Gen.hostOps0_1, Gen.hostOps0_2, Gen.hostOps0_3, Gen.hostOps0_4, List.take_succ_cons, List.take_zero, List.append_nil, List.cons_append, List.nil_append]
  after_results
  rfl

end Cert.KernelIdeal.KPrefix
end
-- ==== Proof.KPrefixTail.lean ====
/-
  The last host lines before the region, from ANY buffer contents Wv before the concatenation: the corner
  columns are laid side by side and transposed, and the target areas are (row 2 − row 0) · (row 3 − row 1) of
  that transposed array.
-/
import proofs.«132197_j57208964382737_2_alg».proof.Proof.KEntry
import proofs.«132197_j57208964382737_2_alg».proof.Proof.Spec
import Idealize.ShloMosaic.Lib.StableHlo.Run
import Idealize.ShloMosaic.Lib.ValueLayout
import Idealize.ShloMosaic.Lib.Pipeline.Value

noncomputable section

namespace Cert.KernelIdeal.KPrefix

open Idealize.ShloMosaic Idealize.ShloMosaic.TcCoe Idealize.SL.Sem Idealize.ShloMosaic.StableHlo
open Idealize.ShloMosaic.ValueIdx
open Cert.KernelIdeal Cert.KernelIdeal.Gen Cert.KernelIdeal.KEntry

/-- The transposed corner-form array built from the four corner columns held in Wv. -/
def cornersT (Wv : Valuation τ sig (Elt Ideal)) : FVec Ideal S4x1664 .f32 :=
  transpose S4x1664 [1, 0]
    (concatenate S1664x4 1
      [⟨S1664x1, (Wv (Proc.devRef .tc main_v8) : FVec Ideal S1664x1 .f32)⟩,
       ⟨S1664x1, (Wv (Proc.devRef .tc main_v11) : FVec Ideal S1664x1 .f32)⟩,
       ⟨S1664x1, (Wv (Proc.devRef .tc main_v14) : FVec Ideal S1664x1 .f32)⟩,
       ⟨S1664x1, (Wv (Proc.devRef .tc main_v17) : FVec Ideal S1664x1 .f32)⟩]
      concatenates_S1664x1_S1664x1_S1664x1_S1664x1_S1664x4_d1)
    transposes_S1664x4_S4x1664_1_0

/-- Row 0 of the transposed corner-form array (the low x corners), as a vector. -/
def rowT0 (Wv : Valuation τ sig (Elt Ideal)) : FVec Ideal S1664 .f32 :=
  shapeCast S1664 (extractStridedSlice S1x1664 ![0, 0] (cornersT Wv) slices_S4x1664_S1x1664_0_0) shapeCasts_S1x1664_S1664
/-- Row 1 (the low y corners). -/
def rowT1 (Wv : Valuation τ sig (Elt Ideal)) : FVec Ideal S1664 .f32 :=
  shapeCast S1664 (extractStridedSlice S1x1664 ![1, 0] (cornersT Wv) slices_S4x1664_S1x1664_1_0) shapeCasts_S1x1664_S1664
/-- Row 2 (the high x corners). -/
def rowT2 (Wv : Valuation τ sig (Elt Ideal)) : FVec Ideal S1664 .f32 :=
  shapeCast S1664 (extractStridedSlice S1x1664 ![2, 0] (cornersT Wv) slices_S4x1664_S1x1664_2_0) shapeCasts_S1x1664_S1664
/-- Row 3 (the high y corners). -/
def rowT3 (Wv : Valuation τ sig (Elt Ideal)) : FVec Ideal S1664 .f32 :=
  shapeCast S1664 (extractStridedSlice S1x1664 ![3, 0] (cornersT Wv) slices_S4x1664_S1x1664_3_0) shapeCasts_S1x1664_S1664

/-- The corner-form array after the remaining host lines. -/
theorem tail_v22 (Wv : Valuation τ sig (Elt Ideal)) :
    (StableHlo.after ((hostOps0_4 (F := Ideal)).drop 20) Wv (Proc.devRef .tc main_v22) : FVec Ideal S4x1664 .f32) = cornersT Wv := by
  simp only [Gen.hostOps0_4, List.drop_succ_cons, List.drop_zero]
  after_results
  rfl

/-- The target areas after the remaining host lines: (high x − low x) · (high y − low y), as one row. -/
theorem tail_v34 (Wv : Valuation τ sig (Elt Ideal)) :
    (StableHlo.after ((hostOps0_4 (F := Ideal)).drop 20) Wv (Proc.devRef .tc main_v34) : FVec Ideal S1x1664 .f32)
      = shapeCast S1x1664 (mulf (subf (rowT2 Wv) (rowT0 Wv)) (subf (rowT3 Wv) (rowT1 Wv))) shapeCasts_S1664_S1x1664 := by
  simp only [Gen.hostOps0_4, List.drop_succ_cons, List.drop_zero]
  after_results_simp
  rfl

end Cert.KernelIdeal.KPrefix
end
-- ==== Proof.KPrefixCorner.lean ====
/-
  The corner form of the target boxes and their areas as the region finds them, entry by entry: for a target
  q < 1600 the four rows of the transposed corner array are centre ∓ half · extent of target box q, and the
  area entry is (high x − low x) · (high y − low y).
-/
import proofs.«132197_j57208964382737_2_alg».proof.Proof.KPrefixHead
import proofs.«132197_j57208964382737_2_alg».proof.Proof.KPrefixTail
import proofs.«132197_j57208964382737_2_alg».proof.Proof.LibPadCols
import proofs.«132197_j57208964382737_2_alg».proof.Proof.Spec
import Idealize.ShloMosaic.Lib.StableHlo.Run
import Idealize.ShloMosaic.Lib.ValueLayout
import Idealize.ShloMosaic.Lib.Pipeline.Value

noncomputable section

namespace Cert.KernelIdeal.KPrefix

open Idealize.ShloMosaic Idealize.ShloMosaic.TcCoe Idealize.SL.Sem Idealize.ShloMosaic.StableHlo
open Idealize.ShloMosaic.ValueIdx
open Cert.KernelIdeal Cert.KernelIdeal.Gen Cert.KernelIdeal.KEntry

/-- Row q < 1600 of column 0 of the padded target boxes is entry 0 of target box q (its centre x). -/
theorem col0_apply (t : FVec Ideal S1600x4 .f32) (q : Fin 1600) :
    col0 t (ix2 (Fin.castLE (by decide) q : Fin 1664) (0 : Fin 1)) = t (ix2 q (0 : Fin 4)) := by
  unfold col0
  refine (extractStridedSlice_apply ![0, 0] (padded t) slices_S1664x4_S1664x1_0_0
    (ix2 (Fin.castLE (by decide) q : Fin 1664) (0 : Fin 1)) (ix2 (Fin.castLE (by decide) q : Fin 1664) (0 : Fin 4)) (fun a => match a with
      | ⟨0, _⟩ => by show q.val = 0 + q.val; omega
      | ⟨1, _⟩ => by show (0 : Nat) = 0 + 0; rfl)).trans ?_
  unfold padded
  exact Cert.LibPadCols.pad_rows_apply_inside t _ pads_S1600x4_S1664x4_0640_000 h_S_ q (Fin.castLE (by decide) q) rfl (0 : Fin 4)

/-- Row q < 1600 of column 1 of the padded target boxes is entry 1 of target box q (its centre y). -/
theorem col1_apply (t : FVec Ideal S1600x4 .f32) (q : Fin 1600) :
    col1 t (ix2 (Fin.castLE (by decide) q : Fin 1664) (0 : Fin 1)) = t (ix2 q (1 : Fin 4)) := by
  unfold col1
  refine (extractStridedSlice_apply ![0, 1] (padded t) slices_S1664x4_S1664x1_0_1
    (ix2 (Fin.castLE (by decide) q : Fin 1664) (0 : Fin 1)) (ix2 (Fin.castLE (by decide) q : Fin 1664) (1 : Fin 4)) (fun a => match a with
      | ⟨0, _⟩ => by show q.val = 0 + q.val; omega
      | ⟨1, _⟩ => by show (1 : Nat) = 1 + 0; rfl)).trans ?_
  unfold padded
  exact Cert.LibPadCols.pad_rows_apply_inside t _ pads_S1600x4_S1664x4_0640_000 h_S_ q (Fin.castLE (by decide) q) rfl (1 : Fin 4)

/-- Row q < 1600 of column 2 of the padded target boxes is entry 2 of target box q (its width). -/
theorem col2_apply (t : FVec Ideal S1600x4 .f32) (q : Fin 1600) :
    col2 t (ix2 (Fin.castLE (by decide) q : Fin 1664) (0 : Fin 1)) = t (ix2 q (2 : Fin 4)) := by
  unfold col2
  refine (extractStridedSlice_apply ![0, 2] (padded t) slices_S1664x4_S1664x1_0_2
    (ix2 (Fin.castLE (by decide) q : Fin 1664) (0 : Fin 1)) (ix2 (Fin.castLE (by decide) q : Fin 1664) (2 : Fin 4)) (fun a => match a with
      | ⟨0, _⟩ => by show q.val = 0 + q.val; omega
      | ⟨1, _⟩ => by show (2 : Nat) = 2 + 0; rfl)).trans ?_
  unfold padded
  exact Cert.LibPadCols.pad_rows_apply_inside t _ pads_S1600x4_S1664x4_0640_000 h_S_ q (Fin.castLE (by decide) q) rfl (2 : Fin 4)

/-- Row q < 1600 of column 3 of the padded target boxes is entry 3 of target box q (its height). -/
theorem col3_apply (t : FVec Ideal S1600x4 .f32) (q : Fin 1600) :
    col3 t (ix2 (Fin.castLE (by decide) q : Fin 1664) (0 : Fin 1)) = t (ix2 q (3 : Fin 4)) := by
  unfold col3
  refine (extractStridedSlice_apply ![0, 3] (padded t) slices_S1664x4_S1664x1_0_3
    (ix2 (Fin.castLE (by decide) q : Fin 1664) (0 : Fin 1)) (ix2 (Fin.castLE (by decide) q : Fin 1664) (3 : Fin 4)) (fun a => match a with
      | ⟨0, _⟩ => by show q.val = 0 + q.val; omega
      | ⟨1, _⟩ => by show (3 : Nat) = 3 + 0; rfl)).trans ?_
  unfold padded
  exact Cert.LibPadCols.pad_rows_apply_inside t _ pads_S1600x4_S1664x4_0640_000 h_S_ q (Fin.castLE (by decide) q) rfl (3 : Fin 4)

/-- The broadcast half column reads the word of one half everywhere. -/
theorem halfCol_apply (i : S1664x1.Idx) : halfCol i = CostSpec.half := by
  unfold halfCol
  exact (broadcastInDim_apply _ bcast_S_S1664x1 _ i ix0 (fun a => a.elim0)).trans rfl

/-- The low x corner of target q: centre x − half · width. -/
theorem W_v8_apply (m : (ℓ : Loc nD τ sig) → Buf (Elt Ideal) ℓ) (c : Dev nD) (q : Fin 1600) :
    (W m c (Proc.devRef .tc main_v8) : FVec Ideal S1664x1 .f32) (ix2 (Fin.castLE (by decide) q : Fin 1664) (0 : Fin 1))
      = CostSpec.lo ((m ((c.tc : Thread nD τ).loc main_arg3) : S1600x4.Idx → EReal) (ix2 q (0 : Fin 4)))
          ((m ((c.tc : Thread nD τ).loc main_arg3) : S1600x4.Idx → EReal) (ix2 q (2 : Fin 4))) := by
  rw [W_v8, subf_apply, mulf_apply, col0_apply, col2_apply, halfCol_apply]
  rfl

/-- The low y corner of target q: centre y − half · height. -/
theorem W_v11_apply (m : (ℓ : Loc nD τ sig) → Buf (Elt Ideal) ℓ) (c : Dev nD) (q : Fin 1600) :
    (W m c (Proc.devRef .tc main_v11) : FVec Ideal S1664x1 .f32) (ix2 (Fin.castLE (by decide) q : Fin 1664) (0 : Fin 1))
      = CostSpec.lo ((m ((c.tc : Thread nD τ).loc main_arg3) : S1600x4.Idx → EReal) (ix2 q (1 : Fin 4)))
          ((m ((c.tc : Thread nD τ).loc main_arg3) : S1600x4.Idx → EReal) (ix2 q (3 : Fin 4))) := by
  rw [W_v11, subf_apply, mulf_apply, col1_apply, col3_apply, halfCol_apply]
  rfl

/-- The high x corner of target q: centre x + half · width. -/
theorem W_v14_apply (m : (ℓ : Loc nD τ sig) → Buf (Elt Ideal) ℓ) (c : Dev nD) (q : Fin 1600) :
    (W m c (Proc.devRef .tc main_v14) : FVec Ideal S1664x1 .f32) (ix2 (Fin.castLE (by decide) q : Fin 1664) (0 : Fin 1))
      = CostSpec.hi ((m ((c.tc : Thread nD τ).loc main_arg3) : S1600x4.Idx → EReal) (ix2 q (0 : Fin 4)))
          ((m ((c.tc : Thread nD τ).loc main_arg3) : S1600x4.Idx → EReal) (ix2 q (2 : Fin 4))) := by
  rw [W_v14, addf_apply, mulf_apply, col0_apply, col2_apply, halfCol_apply]
  rfl

/-- The high y corner of target q: centre y + half · height. -/
theorem W_v17_apply (m : (ℓ : Loc nD τ sig) → Buf (Elt Ideal) ℓ) (c : Dev nD) (q : Fin 1600) :
    (W m c (Proc.devRef .tc main_v17) : FVec Ideal S1664x1 .f32) (ix2 (Fin.castLE (by decide) q : Fin 1664) (0 : Fin 1))
      = CostSpec.hi ((m ((c.tc : Thread nD τ).loc main_arg3) : S1600x4.Idx → EReal) (ix2 q (1 : Fin 4)))
          ((m ((c.tc : Thread nD τ).loc main_arg3) : S1600x4.Idx → EReal) (ix2 q (3 : Fin 4))) := by
  rw [W_v17, addf_apply, mulf_apply, col1_apply, col3_apply, halfCol_apply]
  rfl

/-- Row 0 of the transposed corner-form array at column q' is corner column 0 at row q'. -/
theorem cornersT_apply0 (Wv : Valuation τ sig (Elt Ideal)) (q' : Fin 1664) :
    cornersT Wv (ix2 (0 : Fin 4) q') = (Wv (Proc.devRef .tc main_v8) : FVec Ideal S1664x1 .f32) (ix2 q' (0 : Fin 1)) := by
  unfold cornersT
  refine (transpose_apply [1, 0] _ transposes_S1664x4_S4x1664_1_0 (ix2 (0 : Fin 4) q') (ix2 q' (0 : Fin 4)) (fun b => match b with
    | ⟨0, _⟩ => rfl
    | ⟨1, _⟩ => rfl)).trans ?_
  exact (Cert.LibPadCols.concat4_cols_apply _ _ _ _ concatenates_S1664x1_S1664x1_S1664x1_S1664x1_S1664x4_d1 q').1

/-- Row 1 of the transposed corner-form array at column q' is corner column 1 at row q'. -/
theorem cornersT_apply1 (Wv : Valuation τ sig (Elt Ideal)) (q' : Fin 1664) :
    cornersT Wv (ix2 (1 : Fin 4) q') = (Wv (Proc.devRef .tc main_v11) : FVec Ideal S1664x1 .f32) (ix2 q' (0 : Fin 1)) := by
  unfold cornersT
  refine (transpose_apply [1, 0] _ transposes_S1664x4_S4x1664_1_0 (ix2 (1 : Fin 4) q') (ix2 q' (1 : Fin 4)) (fun b => match b with
    | ⟨0, _⟩ => rfl
    | ⟨1, _⟩ => rfl)).trans ?_
  exact (Cert.LibPadCols.concat4_cols_apply _ _ _ _ concatenates_S1664x1_S1664x1_S1664x1_S1664x1_S1664x4_d1 q').2.1

/-- Row 2 of the transposed corner-form array at column q' is corner column 2 at row q'. -/
theorem cornersT_apply2 (Wv : Valuation τ sig (Elt Ideal)) (q' : Fin 1664) :
    cornersT Wv (ix2 (2 : Fin 4) q') = (Wv (Proc.devRef .tc main_v14) : FVec Ideal S1664x1 .f32) (ix2 q' (0 : Fin 1)) := by
  unfold cornersT
  refine (transpose_apply [1, 0] _ transposes_S1664x4_S4x1664_1_0 (ix2 (2 : Fin 4) q') (ix2 q' (2 : Fin 4)) (fun b => match b with
    | ⟨0, _⟩ => rfl
    | ⟨1, _⟩ => rfl)).trans ?_
  exact (Cert.LibPadCols.concat4_cols_apply _ _ _ _ concatenates_S1664x1_S1664x1_S1664x1_S1664x1_S1664x4_d1 q').2.2.1

/-- Row 3 of the transposed corner-form array at column q' is corner column 3 at row q'. -/
theorem cornersT_apply3 (Wv : Valuation τ sig (Elt Ideal)) (q' : Fin 1664) :
    cornersT Wv (ix2 (3 : Fin 4) q') = (Wv (Proc.devRef .tc main_v17) : FVec Ideal S1664x1 .f32) (ix2 q' (0 : Fin 1)) := by
  unfold cornersT
  refine (transpose_apply [1, 0] _ transposes_S1664x4_S4x1664_1_0 (ix2 (3 : Fin 4) q') (ix2 q' (3 : Fin 4)) (fun b => match b with
    | ⟨0, _⟩ => rfl
    | ⟨1, _⟩ => rfl)).trans ?_
  exact (Cert.LibPadCols.concat4_cols_apply _ _ _ _ concatenates_S1664x1_S1664x1_S1664x1_S1664x1_S1664x4_d1 q').2.2.2

/-- Entry q' of row 0 of the transposed corner-form array, read as a vector. -/
theorem rowT0_apply (Wv : Valuation τ sig (Elt Ideal)) (q' : Fin 1664) :
    rowT0 Wv (ix1 q') = cornersT Wv (ix2 (0 : Fin 4) q') := by
  unfold rowT0
  refine (shapeCast_apply _ shapeCasts_S1x1664_S1664 (ix1 q') (ix2 (0 : Fin 1) q') ?_).trans ?_
  · rewrite [Shape.rowMajor_val_two, Shape.rowMajor_val_one]
    show 0 * 1664 + q'.val = q'.val
    omega
  · exact extractStridedSlice_apply ![0, 0] _ slices_S4x1664_S1x1664_0_0 (ix2 (0 : Fin 1) q') (ix2 (0 : Fin 4) q') (fun a => match a with
      | ⟨0, _⟩ => by show (0 : Nat) = 0 + 0; rfl
      | ⟨1, _⟩ => by show q'.val = 0 + q'.val; omega)

/-- Entry q' of row 1 of the transposed corner-form array, read as a vector. -/
theorem rowT1_apply (Wv : Valuation τ sig (Elt Ideal)) (q' : Fin 1664) :
    rowT1 Wv (ix1 q') = cornersT Wv (ix2 (1 : Fin 4) q') := by
  unfold rowT1
  refine (shapeCast_apply _ shapeCasts_S1x1664_S1664 (ix1 q') (ix2 (0 : Fin 1) q') ?_).trans ?_
  · rewrite [Shape.rowMajor_val_two, Shape.rowMajor_val_one]
    show 0 * 1664 + q'.val = q'.val
    omega
  · exact extractStridedSlice_apply ![1, 0] _ slices_S4x1664_S1x1664_1_0 (ix2 (0 : Fin 1) q') (ix2 (1 : Fin 4) q') (fun a => match a with
      | ⟨0, _⟩ => by show (1 : Nat) = 1 + 0; rfl
      | ⟨1, _⟩ => by show q'.val = 0 + q'.val; omega)

/-- Entry q' of row 2 of the transposed corner-form array, read as a vector. -/
theorem rowT2_apply (Wv : Valuation τ sig (Elt Ideal)) (q' : Fin 1664) :
    rowT2 Wv (ix1 q') = cornersT Wv (ix2 (2 : Fin 4) q') := by
  unfold rowT2
  refine (shapeCast_apply _ shapeCasts_S1x1664_S1664 (ix1 q') (ix2 (0 : Fin 1) q') ?_).trans ?_
  · rewrite [Shape.rowMajor_val_two, Shape.rowMajor_val_one]
    show 0 * 1664 + q'.val = q'.val
    omega
  · exact extractStridedSlice_apply ![2, 0] _ slices_S4x1664_S1x1664_2_0 (ix2 (0 : Fin 1) q') (ix2 (2 : Fin 4) q') (fun a => match a with
      | ⟨0, _⟩ => by show (2 : Nat) = 2 + 0; rfl
      | ⟨1, _⟩ => by show q'.val = 0 + q'.val; omega)

/-- Entry q' of row 3 of the transposed corner-form array, read as a vector. -/
theorem rowT3_apply (Wv : Valuation τ sig (Elt Ideal)) (q' : Fin 1664) :
    rowT3 Wv (ix1 q') = cornersT Wv (ix2 (3 : Fin 4) q') := by
  unfold rowT3
  refine (shapeCast_apply _ shapeCasts_S1x1664_S1664 (ix1 q') (ix2 (0 : Fin 1) q') ?_).trans ?_
  · rewrite [Shape.rowMajor_val_two, Shape.rowMajor_val_one]
    show 0 * 1664 + q'.val = q'.val
    omega
  · exact extractStridedSlice_apply ![3, 0] _ slices_S4x1664_S1x1664_3_0 (ix2 (0 : Fin 1) q') (ix2 (3 : Fin 4) q') (fun a => match a with
      | ⟨0, _⟩ => by show (3 : Nat) = 3 + 0; rfl
      | ⟨1, _⟩ => by show q'.val = 0 + q'.val; omega)

/-- Row 0 of the corner-form target boxes the region finds, at target q < 1600. -/
theorem V_v22_apply0 (m : (ℓ : Loc nD τ sig) → Buf (Elt Ideal) ℓ) (c : Dev nD) (q : Fin 1600) :
    (KEntry.V (F := Ideal) m c main_v22 : S4x1664.Idx → EReal) (ix2 (0 : Fin 4) (Fin.castLE (by decide) q : Fin 1664))
      = CostSpec.lo ((m ((c.tc : Thread nD τ).loc main_arg3) : S1600x4.Idx → EReal) (ix2 q (0 : Fin 4))) ((m ((c.tc : Thread nD τ).loc main_arg3) : S1600x4.Idx → EReal) (ix2 q (2 : Fin 4))) := by
  rw [V_split, tail_v22, cornersT_apply0, W_v8_apply]

/-- Row 1 of the corner-form target boxes the region finds, at target q < 1600. -/
theorem V_v22_apply1 (m : (ℓ : Loc nD τ sig) → Buf (Elt Ideal) ℓ) (c : Dev nD) (q : Fin 1600) :
    (KEntry.V (F := Ideal) m c main_v22 : S4x1664.Idx → EReal) (ix2 (1 : Fin 4) (Fin.castLE (by decide) q : Fin 1664))
      = CostSpec.lo ((m ((c.tc : Thread nD τ).loc main_arg3) : S1600x4.Idx → EReal) (ix2 q (1 : Fin 4))) ((m ((c.tc : Thread nD τ).loc main_arg3) : S1600x4.Idx → EReal) (ix2 q (3 : Fin 4))) := by
  rw [V_split, tail_v22, cornersT_apply1, W_v11_apply]

/-- Row 2 of the corner-form target boxes the region finds, at target q < 1600. -/
theorem V_v22_apply2 (m : (ℓ : Loc nD τ sig) → Buf (Elt Ideal) ℓ) (c : Dev nD) (q : Fin 1600) :
    (KEntry.V (F := Ideal) m c main_v22 : S4x1664.Idx → EReal) (ix2 (2 : Fin 4) (Fin.castLE (by decide) q : Fin 1664))
      = CostSpec.hi ((m ((c.tc : Thread nD τ).loc main_arg3) : S1600x4.Idx → EReal) (ix2 q (0 : Fin 4))) ((m ((c.tc : Thread nD τ).loc main_arg3) : S1600x4.Idx → EReal) (ix2 q (2 : Fin 4))) := by
  rw [V_split, tail_v22, cornersT_apply2, W_v14_apply]

/-- Row 3 of the corner-form target boxes the region finds, at target q < 1600. -/
theorem V_v22_apply3 (m : (ℓ : Loc nD τ sig) → Buf (Elt Ideal) ℓ) (c : Dev nD) (q : Fin 1600) :
    (KEntry.V (F := Ideal) m c main_v22 : S4x1664.Idx → EReal) (ix2 (3 : Fin 4) (Fin.castLE (by decide) q : Fin 1664))
      = CostSpec.hi ((m ((c.tc : Thread nD τ).loc main_arg3) : S1600x4.Idx → EReal) (ix2 q (1 : Fin 4))) ((m ((c.tc : Thread nD τ).loc main_arg3) : S1600x4.Idx → EReal) (ix2 q (3 : Fin 4))) := by
  rw [V_split, tail_v22, cornersT_apply3, W_v17_apply]

/-- The area of target box q < 1600 as the region finds it: (high x − low x) · (high y − low y). -/
theorem V_v34_apply (m : (ℓ : Loc nD τ sig) → Buf (Elt Ideal) ℓ) (c : Dev nD) (q : Fin 1600) :
    (KEntry.V (F := Ideal) m c main_v34 : S1x1664.Idx → EReal) (ix2 (0 : Fin 1) (Fin.castLE (by decide) q : Fin 1664))
      = (CostSpec.hi ((m ((c.tc : Thread nD τ).loc main_arg3) : S1600x4.Idx → EReal) (ix2 q (0 : Fin 4))) ((m ((c.tc : Thread nD τ).loc main_arg3) : S1600x4.Idx → EReal) (ix2 q (2 : Fin 4)))
          - CostSpec.lo ((m ((c.tc : Thread nD τ).loc main_arg3) : S1600x4.Idx → EReal) (ix2 q (0 : Fin 4))) ((m ((c.tc : Thread nD τ).loc main_arg3) : S1600x4.Idx → EReal) (ix2 q (2 : Fin 4))))
        * (CostSpec.hi ((m ((c.tc : Thread nD τ).loc main_arg3) : S1600x4.Idx → EReal) (ix2 q (1 : Fin 4))) ((m ((c.tc : Thread nD τ).loc main_arg3) : S1600x4.Idx → EReal) (ix2 q (3 : Fin 4)))
          - CostSpec.lo ((m ((c.tc : Thread nD τ).loc main_arg3) : S1600x4.Idx → EReal) (ix2 q (1 : Fin 4))) ((m ((c.tc : Thread nD τ).loc main_arg3) : S1600x4.Idx → EReal) (ix2 q (3 : Fin 4)))) := by
  rw [V_split, tail_v34]
  refine (shapeCast_apply _ shapeCasts_S1664_S1x1664 (ix2 (0 : Fin 1) (Fin.castLE (by decide) q : Fin 1664))
    (ix1 (Fin.castLE (by decide) q : Fin 1664)) ?_).trans ?_
  · rewrite [Shape.rowMajor_val_one, Shape.rowMajor_val_two]
    show q.val = 0 * 1664 + q.val
    omega
  · rw [mulf_apply, subf_apply, subf_apply, rowT0_apply, rowT1_apply, rowT2_apply, rowT3_apply,
      cornersT_apply0, cornersT_apply1, cornersT_apply2, cornersT_apply3,
      W_v8_apply, W_v11_apply, W_v14_apply, W_v17_apply]

end Cert.KernelIdeal.KPrefix
end
-- ==== Proof.KPrefix.lean ====
/-
  What the kernel's region finds in its operand arrays, gathered: the five argument arrays unchanged, the two
  reshaped prediction arrays, the transposed embeddings and target boxes (centre form), the transposed corner
  form of the target boxes, and the target areas, each read entry by entry from the launch memory.
-/
import proofs.«132197_j57208964382737_2_alg».proof.Proof.KPrefixArgs
import proofs.«132197_j57208964382737_2_alg».proof.Proof.KPrefixReshape
import proofs.«132197_j57208964382737_2_alg».proof.Proof.KPrefixCols
import proofs.«132197_j57208964382737_2_alg».proof.Proof.KPrefixCorner
-- ==== Proof.KFinal.lean ====
/-
  The kernel's run, read: the region's output array ends holding the row-merged cost volume — at every grid point
  the body's stored block is the block of that one whole-array function of the four float arguments, and the
  blocks tile the array — and the reshape after the region makes it the cost volume at [16, 900, 1600].
-/
import proofs.«132197_j57208964382737_2_alg».proof.Proof.KBlocks
import proofs.«132197_j57208964382737_2_alg».proof.Proof.KTail
import proofs.«132197_j57208964382737_2_alg».proof.Proof.KStored
import proofs.«132197_j57208964382737_2_alg».proof.Proof.KPrefix

noncomputable section

namespace Cert.KernelIdeal.KFinal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.KEntry Cert.KernelIdeal.KFrame Cert.KernelIdeal.KBlocks
open Cert.KernelIdeal.KTail Cert.KernelIdeal.KPrefix Cert.KernelIdeal.KValue Cert.CostSpec

variable (m : (ℓ : Loc nD τ sig) → Buf (Elt Ideal) ℓ) (ρ : Dev nD → PrngReg)

/-- The four float arguments as launched on core c. -/
abbrev A0 (c : Dev nD) : S16x900x256.Idx → EReal := m ((c.tc : Thread nD τ).loc main_arg0)
abbrev A1 (c : Dev nD) : S16x900x4.Idx → EReal := m ((c.tc : Thread nD τ).loc main_arg1)
abbrev A2 (c : Dev nD) : S1600x256.Idx → EReal := m ((c.tc : Thread nD τ).loc main_arg2)
abbrev A3 (c : Dev nD) : S1600x4.Idx → EReal := m ((c.tc : Thread nD τ).loc main_arg3)

theorem hz : (![0, 0] : Fin 2 → Nat) = fun _ => 0 := funext fun a => by fin_cases a <;> rfl

/-- What point t writes back is block t of the row-merged cost volume of the arguments. -/
theorem flushed_eq (c : Dev nD) (t : Fin cfg0.N) :
    (dats m 0 c).flushed 6 t = ((cfg0.win 6).blk t).view.read (Elt Ideal) (Grow (A0 m c) (A1 m c) (A2 m c) (A3 m c) : S14400x1600.Idx → EReal) := by
  show (cfg0.win 6).cut (grid0.coords t) ((dats m 0 c).after 6 t) = _
  rw [after6]
  unfold out6
  rw [View.canon_unit_zero hz]
  simp only [View.ld_unit_zero (S := S600x256) hz, View.ld_unit_zero (S := S600x4) hz, View.ld_unit_zero (S := S256x1664) hz,
    View.ld_unit_zero (S := S4x1664) hz, View.ld_unit_zero (S := S1x1664) hz]
  funext j
  obtain ⟨p, q, rfl⟩ : ∃ (p : Fin 600) (q : Fin 1600), j = ix2 p q := ⟨j 0, j 1, eq_ix2 j⟩
  have hN : cfg0.N = 24 := N_0
  have hr : t.val * 600 + p.val < 14400 := by have := t.isLt; have := p.isLt; omega
  rw [View.read_apply, emb6 t p q ⟨t.val * 600 + p.val, hr⟩ rfl]
  refine (stored_apply (iblk m c 0 t) (iblk m c 1 t) (iblk m c 2 t) (iblk m c 3 t) (iblk m c 4 t) (iblk m c 5 t) p q).trans ?_
  have h0 : ∀ k, (iblk m c 0 t : Vec Ideal S600x256 .f32) (ix2 p k) = _ :=
    fun k => (blk0_apply m c t p k ⟨t.val * 600 + p.val, hr⟩ rfl).trans (V_v35_apply m c ⟨t.val * 600 + p.val, hr⟩ k)
  have h1 : ∀ j, (iblk m c 1 t : Vec Ideal S600x4 .f32) (ix2 p j) = _ :=
    fun j => (blk1_apply m c t p j ⟨t.val * 600 + p.val, hr⟩ rfl).trans (V_v36_apply m c ⟨t.val * 600 + p.val, hr⟩ j)
  have h2 : ∀ k, (iblk m c 2 t : Vec Ideal S256x1664 .bf16) (ix2 k (Fin.castLE (by decide) q : Fin 1664)) = _ :=
    fun k => (blk2_apply m c t k _).trans (V_v20_apply m c k q)
  have h3 : ∀ j, (iblk m c 3 t : Vec Ideal S4x1664 .f32) (ix2 j (Fin.castLE (by decide) q : Fin 1664)) = _ :=
    fun j => (blk3_apply m c t j _).trans (V_v21_apply m c j q)
  have h40 := (blk4_apply m c t 0 (Fin.castLE (by decide) q : Fin 1664)).trans (V_v22_apply0 m c q)
  have h41 := (blk4_apply m c t 1 (Fin.castLE (by decide) q : Fin 1664)).trans (V_v22_apply1 m c q)
  have h42 := (blk4_apply m c t 2 (Fin.castLE (by decide) q : Fin 1664)).trans (V_v22_apply2 m c q)
  have h43 := (blk4_apply m c t 3 (Fin.castLE (by decide) q : Fin 1664)).trans (V_v22_apply3 m c q)
  have h5 := (blk5_apply m c t 0 (Fin.castLE (by decide) q : Fin 1664)).trans (V_v34_apply m c q)
  simp only [h0, h1, h2, h3]
  rw [h40, h41, h42, h43, h5]
  rfl

/-- The output array after the run. -/
theorem final (c : Dev nD) : (dats m 0 c).arrAt 6 cfg0.N = (Grow (A0 m c) (A1 m c) (A2 m c) (A3 m c) : S14400x1600.Idx → EReal) :=
  (dats m 0 c).arrAt_eq_of_cover 6 (Grow (A0 m c) (A1 m c) (A2 m c) (A3 m c) : S14400x1600.Idx → EReal) (fun t _ => flushed_eq m c t) cover6

/-- The run, read: the result buffer ends at the cost volume of the arguments, the arguments as launched. -/
theorem run : θ_run defs (onTc (τ := τ) (main (F := Ideal))) ⟨m, fun _ => 0, ρ⟩ fun r => ∀ c : Dev nD,
      r.2.mem ((c.tc : Thread nD τ).loc main_v38) = (Gout (A0 m c) (A1 m c) (A2 m c) (A3 m c) : S16x900x1600.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v38 (Pipeline.mem_restRefs_of main_v38 (by decide) (by decide))).trans
        ((tail_v38 m c _ (final m c)).trans (reshape_Grow _ _ _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KFinal

end
-- ==== Proof.RefValueRows.lean ====
/-
  The reference merges the batch and query axes into one row axis r = b·900 + q before it computes anything.
  This module names the batch and the query of a merged row and reads the two merged arrays — the logits
  [14400, 256] and the prediction boxes [14400, 4] — at a row and a column as entries of the original arrays.
-/
import proofs.«132197_j57208964382737_2_alg».proof.Proof.Gen.ReferenceIdeal.Read
import proofs.«132197_j57208964382737_2_alg».proof.Proof.Spec

noncomputable section

namespace Cert.ReferenceIdeal.RefValue

open Cert.ReferenceIdeal Cert.ReferenceIdeal.Read Idealize.ShloMosaic Idealize.ShloMosaic.ValueIdx

/-- The batch b of the merged row r = b·900 + q. -/
def rowB (r : Fin 14400) : Fin 16 := ⟨r.val / 900, by have := r.isLt; omega⟩
/-- The query q of the merged row r = b·900 + q. -/
def rowQ (r : Fin 14400) : Fin 900 := ⟨r.val % 900, Nat.mod_lt _ (by decide)⟩

/-- The merged logits at row r, column k: the logit k of batch r / 900, query r % 900. -/
theorem v0_at (x0 : (⟨S16x900x256, .f32⟩ : BufTy).Contents (Elt Ideal)) (r : Fin 14400) (k : Fin 256) :
    val_main_v0 (F := Ideal) x0 (ix2 r k) = x0 (ix3 (rowB r) (rowQ r) k) := by
  rw [val_main_v0_apply]
  refine congrArg x0 (funext fun a => Fin.ext ?_)
  have hr := r.isLt
  have hk := k.isLt
  match a with
  | ⟨0, _⟩ => show (r.val * 256 + k.val) / 230400 = r.val / 900; omega
  | ⟨1, _⟩ => show (r.val * 256 + k.val) / 256 % 900 = r.val % 900; omega
  | ⟨2, _⟩ => show (r.val * 256 + k.val) % 256 = k.val; omega

/-- The merged prediction boxes at row r, coordinate j. -/
theorem v1_at (x1 : (⟨S16x900x4, .f32⟩ : BufTy).Contents (Elt Ideal)) (r : Fin 14400) (j : Fin 4) :
    val_main_v1 (F := Ideal) x1 (ix2 r j) = x1 (ix3 (rowB r) (rowQ r) j) := by
  rw [val_main_v1_apply]
  refine congrArg x1 (funext fun a => Fin.ext ?_)
  have hr := r.isLt
  have hk := j.isLt
  match a with
  | ⟨0, _⟩ => show (r.val * 4 + j.val) / 3600 = r.val / 900; omega
  | ⟨1, _⟩ => show (r.val * 4 + j.val) / 4 % 900 = r.val % 900; omega
  | ⟨2, _⟩ => show (r.val * 4 + j.val) % 4 = j.val; omega

/-- The row b·900 + q has batch b. -/
theorem rowB_mk (b : Fin 16) (q : Fin 900) (h : b.val * 900 + q.val < 14400) : rowB ⟨b.val * 900 + q.val, h⟩ = b :=
  Fin.ext (by have := q.isLt; show (b.val * 900 + q.val) / 900 = b.val; omega)
/-- The row b·900 + q has query q. -/
theorem rowQ_mk (b : Fin 16) (q : Fin 900) (h : b.val * 900 + q.val < 14400) : rowQ ⟨b.val * 900 + q.val, h⟩ = q :=
  Fin.ext (by have := q.isLt; show (b.val * 900 + q.val) % 900 = q.val; omega)

end Cert.ReferenceIdeal.RefValue

end
-- ==== Proof.LibNormRatio.lean ====
/-
  Dividing by a square root against multiplying by a reciprocal square root, on the extended reals.

  For a positive s — a positive real or +∞ — and any extended real x,
      x / √s  =  x · (1/√s).
  At s = +∞ both sides are x · 0.  At a positive real s the root √s is a nonzero real and the quotient is the
  product with its inverse.  At s = 0 the equation is false (0 / 0 is the junk value ⊥ while 0 · ⊤ = 0), which
  is why positivity is a hypothesis.
-/
import Idealize.ShloMosaic.PureOps.Ideal
import Idealize.ShloMosaic.PureOps.Ideal.Laws

noncomputable section

namespace Cert.LibNormRatio

open Idealize.ShloMosaic

/-- For `0 < s` (a positive real or `⊤`) and every extended real `x`: `x / √s = x · rsqrt s`. -/
theorem div_sqrt_eq_mul_rsqrt (x s : EReal) (hs : 0 < s) :
    Ideal.div x (Ideal.sqrt s) = x * Ideal.rsqrt s := by
  induction s using EReal.rec with
  | bot => exact absurd hs (not_lt.mpr bot_le)
  | top =>
    rw [Ideal.sqrt_top, Ideal.rsqrt_top, Ideal.div, if_neg EReal.top_ne_zero, EReal.inv_top]
  | coe r =>
    have hr : 0 < r := EReal.coe_pos.mp hs
    have hsq : Real.sqrt r ≠ 0 := (Real.sqrt_pos.mpr hr).ne'
    rw [Ideal.sqrt_coe, Ideal.rsqrt_coe, if_neg (not_lt.mpr hr.le), if_neg (not_lt.mpr hr.le), if_neg hr.ne',
      Ideal.div, if_neg (by exact_mod_cast hsq), EReal.coe_inv]

end Cert.LibNormRatio

end
-- ==== Proof.RefValueCls.lean ====
/-
  The class cost of the reference at a merged row r and a target c.  The reference divides each logit of the row
  by the root of the row's sum of squares (a sum started from the word of 0), multiplies by the transposed
  embeddings and rectifies.  Where the row's sum of squares is positive — a positive real or +∞ — the quotient
  x / √s is the product x · (1/√s), and the cost is the specification's.
-/
import proofs.«132197_j57208964382737_2_alg».proof.Proof.Gen.ReferenceIdeal.Read
import proofs.«132197_j57208964382737_2_alg».proof.Proof.Spec
import proofs.«132197_j57208964382737_2_alg».proof.Proof.RefValueRows
import proofs.«132197_j57208964382737_2_alg».proof.Proof.LibNormRatio

noncomputable section

namespace Cert.ReferenceIdeal.RefValue

open Cert.ReferenceIdeal Cert.ReferenceIdeal.Read Idealize.ShloMosaic Idealize.ShloMosaic.ValueIdx

/-- The norm of row r, broadcast along the row: the root of 0 + Σ x². -/
theorem v3_at (x0 : (⟨S16x900x256, .f32⟩ : BufTy).Contents (Elt Ideal)) (r : Fin 14400) (k : Fin 256) :
    val_main_v3 (F := Ideal) x0 (ix2 r k) = Ideal.sqrt (Ideal.ofBits .f32 0x00000000#32 + (∑ j : Fin 256, x0 (ix3 (rowB r) (rowQ r) j) * x0 (ix3 (rowB r) (rowQ r) j))) := by
  rw [val_main_v3_apply, val_main_v2_apply, val_main_call0_v2_apply, val_main_call0_v1_apply, val_main_call0_cst_apply]
  rw [Ideal.hostUnary_sqrt_def, Ideal.ofBits_def]
  refine congrArg (fun s => Ideal.sqrt (_ + s)) (Finset.sum_congr rfl fun j _ => ?_)
  rw [val_main_call0_v0_apply, Ideal.mulf_def]
  have e : idx_main_call0_v1 (idx_main_call0_v2 (idx_main_v3 (ix2 r k))) j = ix2 r j :=
    funext fun a => Fin.ext (by match a with | ⟨0, _⟩ => rfl | ⟨1, _⟩ => rfl)
  rw [e, v0_at]

/-- The normalized logit at row r, column k. -/
theorem v4_at (x0 : (⟨S16x900x256, .f32⟩ : BufTy).Contents (Elt Ideal)) (r : Fin 14400) (k : Fin 256) :
    val_main_v4 (F := Ideal) x0 (ix2 r k)
      = Ideal.div (x0 (ix3 (rowB r) (rowQ r) k)) (Ideal.sqrt (Ideal.ofBits .f32 0x00000000#32 + (∑ j : Fin 256, x0 (ix3 (rowB r) (rowQ r) j) * x0 (ix3 (rowB r) (rowQ r) j)))) := by
  rw [val_main_v4_apply, Ideal.hostDivf_def, v0_at, v3_at]

/-- The transposed embeddings at (k, c). -/
theorem v5_at (x2 : (⟨S1600x256, .f32⟩ : BufTy).Contents (Elt Ideal)) (k : Fin 256) (c : Fin 1600) :
    val_main_v5 (F := Ideal) x2 (ix2 k c) = x2 (ix2 c k) := by
  rw [val_main_v5_apply]
  exact congrArg x2 (funext fun a => Fin.ext (by match a with | ⟨0, _⟩ => rfl | ⟨1, _⟩ => rfl))

/-- The product of the normalized row r with the embedding c. -/
theorem v6_at (x0 : (⟨S16x900x256, .f32⟩ : BufTy).Contents (Elt Ideal)) (x2 : (⟨S1600x256, .f32⟩ : BufTy).Contents (Elt Ideal)) (r : Fin 14400) (c : Fin 1600) :
    val_main_v6 (F := Ideal) x0 x2 (ix2 r c)
      = ∑ k : Fin 256, Ideal.div (x0 (ix3 (rowB r) (rowQ r) k)) (Ideal.sqrt (Ideal.ofBits .f32 0x00000000#32 + (∑ j : Fin 256, x0 (ix3 (rowB r) (rowQ r) j) * x0 (ix3 (rowB r) (rowQ r) j))))
          * x2 (ix2 c k) := by
  rw [val_main_v6_apply]
  refine Finset.sum_congr rfl fun k _ => ?_
  have el : lidx_main_v6 (ix2 r c) k = ix2 r k :=
    funext fun a => Fin.ext (by match a with | ⟨0, _⟩ => rfl | ⟨1, _⟩ => rfl)
  have er : ridx_main_v6 (ix2 r c) k = ix2 k c :=
    funext fun a => Fin.ext (by match a with | ⟨0, _⟩ => rfl | ⟨1, _⟩ => rfl)
  rw [el, er, v4_at, v5_at]

/-- The rectified class cost at (r, c) is the specification's, where row r has a positive sum of squares. -/
theorem cls_at (x0 : (⟨S16x900x256, .f32⟩ : BufTy).Contents (Elt Ideal)) (x2 : (⟨S1600x256, .f32⟩ : BufTy).Contents (Elt Ideal)) (r : Fin 14400) (c : Fin 1600) (h : 0 < (∑ j : Fin 256, x0 (ix3 (rowB r) (rowQ r) j) * x0 (ix3 (rowB r) (rowQ r) j))) :
    val_main_v7 (F := Ideal) x0 x2 (ix2 r c)
      = Cert.CostSpec.cls (fun k => x0 (ix3 (rowB r) (rowQ r) k)) (fun k => x2 (ix2 c k)) := by
  rw [val_main_v7_apply, Ideal.maximumf_def, val_main_call1_v0_apply, val_main_call1_cst_apply, Ideal.ofBits_def, v6_at]
  unfold Cert.CostSpec.cls
  refine congrArg (fun s => max s _) (Finset.sum_congr rfl fun k _ => ?_)
  rw [Ideal.ofBits_zero_f32, zero_add, Cert.LibNormRatio.div_sqrt_eq_mul_rsqrt _ _ h]

end Cert.ReferenceIdeal.RefValue

end
-- ==== Proof.RefValueL1.lean ====
/-
  The box distance of the reference at a merged row r and a target c: the sum over the four box coordinates,
  started from the word of 0, of |prediction − target|.  The word of 0 is 0, and the sum over the four
  coordinates written out is the specification's left-to-right sum.
-/
import proofs.«132197_j57208964382737_2_alg».proof.Proof.Gen.ReferenceIdeal.Read
import proofs.«132197_j57208964382737_2_alg».proof.Proof.Spec
import proofs.«132197_j57208964382737_2_alg».proof.Proof.RefValueRows

noncomputable section

namespace Cert.ReferenceIdeal.RefValue

open Cert.ReferenceIdeal Cert.ReferenceIdeal.Read Idealize.ShloMosaic Idealize.ShloMosaic.ValueIdx

/-- The coordinate difference at (r, c, k). -/
theorem v12_at (x1 : (⟨S16x900x4, .f32⟩ : BufTy).Contents (Elt Ideal)) (x3 : (⟨S1600x4, .f32⟩ : BufTy).Contents (Elt Ideal)) (r : Fin 14400) (c : Fin 1600) (k : Fin 4) :
    val_main_v12 (F := Ideal) x1 x3 (ix3 r c k) = x1 (ix3 (rowB r) (rowQ r) k) - x3 (ix2 c k) := by
  rw [val_main_v12_apply, Ideal.subf_def, val_main_v10_apply, val_main_v8_apply, val_main_v11_apply, val_main_v9_apply]
  have e1 : idx_main_v8 (idx_main_v10 (ix3 r c k)) = ix2 r k :=
    funext fun a => Fin.ext (by match a with | ⟨0, _⟩ => rfl | ⟨1, _⟩ => rfl)
  have e3 : idx_main_v9 (idx_main_v11 (ix3 r c k)) = ix2 c k :=
    funext fun a => Fin.ext (by match a with | ⟨0, _⟩ => rfl | ⟨1, _⟩ => rfl)
  rw [e1, e3, v1_at]

/-- The box distance at (r, c) is the specification's. -/
theorem l1_at (x1 : (⟨S16x900x4, .f32⟩ : BufTy).Contents (Elt Ideal)) (x3 : (⟨S1600x4, .f32⟩ : BufTy).Contents (Elt Ideal)) (r : Fin 14400) (c : Fin 1600) :
    val_main_v14 (F := Ideal) x1 x3 (ix2 r c)
      = Cert.CostSpec.boxL1 (x1 (ix3 (rowB r) (rowQ r) 0)) (x1 (ix3 (rowB r) (rowQ r) 1))
          (x1 (ix3 (rowB r) (rowQ r) 2)) (x1 (ix3 (rowB r) (rowQ r) 3))
          (x3 (ix2 c 0)) (x3 (ix2 c 1)) (x3 (ix2 c 2)) (x3 (ix2 c 3)) := by
  have e : ∀ k : Fin 4, idx_main_v14 (ix2 r c) k = ix3 r c k := fun k =>
    funext fun a => Fin.ext (by match a with | ⟨0, _⟩ => rfl | ⟨1, _⟩ => rfl | ⟨2, _⟩ => rfl)
  rw [val_main_v14_apply, val_main_cst_apply, Ideal.ofBits_def, Ideal.ofBits_zero_f32, zero_add, Fin.sum_univ_four]
  simp only [e, val_main_v13_apply, Ideal.hostAbsf_def, Ideal.absf_def, v12_at]
  rfl

end Cert.ReferenceIdeal.RefValue

end
-- ==== Proof.RefValueCorners.lean ====
/-
  The corner form of the boxes.  The reference cuts a box array [n, 4] into its four columns, forms
  centre ∓ ½·extent column by column, and joins the four columns again along axis 1.  Read at (row, j) the
  joined array is column j at (row, 0): the low corners for j = 0, 1 and the high corners for j = 2, 3.
-/
import proofs.«132197_j57208964382737_2_alg».proof.Proof.Gen.ReferenceIdeal.Read
import proofs.«132197_j57208964382737_2_alg».proof.Proof.Spec
import proofs.«132197_j57208964382737_2_alg».proof.Proof.RefValueRows

noncomputable section

namespace Cert.ReferenceIdeal.RefValue

open Cert.ReferenceIdeal Cert.ReferenceIdeal.Read Idealize.ShloMosaic Idealize.ShloMosaic.ValueIdx

/-- A corner column of the prediction boxes at row r. -/
theorem v21_at (x1 : (⟨S16x900x4, .f32⟩ : BufTy).Contents (Elt Ideal)) (r : Fin 14400) :
    val_main_v21 (F := Ideal) x1 (ix2 r (0 : Fin 1)) = Cert.CostSpec.lo (x1 (ix3 (rowB r) (rowQ r) 0)) (x1 (ix3 (rowB r) (rowQ r) 2)) := by
  rw [val_main_v21_apply, val_main_v20_apply, val_main_v15_apply, val_main_v19_apply, val_main_v17_apply,
    val_main_cst_0_apply]
  have es : idx_main_v15 (ix2 r (0 : Fin 1)) = ix2 r (0 : Fin 4) := funext fun a => Fin.ext (by match a with | ⟨0, _⟩ => rfl | ⟨1, _⟩ => rfl)
  have ee : idx_main_v17 (ix2 r (0 : Fin 1)) = ix2 r (2 : Fin 4) := funext fun a => Fin.ext (by match a with | ⟨0, _⟩ => rfl | ⟨1, _⟩ => rfl)
  rw [es, ee, v1_at, v1_at]
  rfl

/-- A corner column of the prediction boxes at row r. -/
theorem v24_at (x1 : (⟨S16x900x4, .f32⟩ : BufTy).Contents (Elt Ideal)) (r : Fin 14400) :
    val_main_v24 (F := Ideal) x1 (ix2 r (0 : Fin 1)) = Cert.CostSpec.lo (x1 (ix3 (rowB r) (rowQ r) 1)) (x1 (ix3 (rowB r) (rowQ r) 3)) := by
  rw [val_main_v24_apply, val_main_v23_apply, val_main_v16_apply, val_main_v22_apply, val_main_v18_apply,
    val_main_cst_1_apply]
  have es : idx_main_v16 (ix2 r (0 : Fin 1)) = ix2 r (1 : Fin 4) := funext fun a => Fin.ext (by match a with | ⟨0, _⟩ => rfl | ⟨1, _⟩ => rfl)
  have ee : idx_main_v18 (ix2 r (0 : Fin 1)) = ix2 r (3 : Fin 4) := funext fun a => Fin.ext (by match a with | ⟨0, _⟩ => rfl | ⟨1, _⟩ => rfl)
  rw [es, ee, v1_at, v1_at]
  rfl

/-- A corner column of the prediction boxes at row r. -/
theorem v27_at (x1 : (⟨S16x900x4, .f32⟩ : BufTy).Contents (Elt Ideal)) (r : Fin 14400) :
    val_main_v27 (F := Ideal) x1 (ix2 r (0 : Fin 1)) = Cert.CostSpec.hi (x1 (ix3 (rowB r) (rowQ r) 0)) (x1 (ix3 (rowB r) (rowQ r) 2)) := by
  rw [val_main_v27_apply, val_main_v26_apply, val_main_v15_apply, val_main_v25_apply, val_main_v17_apply,
    val_main_cst_2_apply]
  have es : idx_main_v15 (ix2 r (0 : Fin 1)) = ix2 r (0 : Fin 4) := funext fun a => Fin.ext (by match a with | ⟨0, _⟩ => rfl | ⟨1, _⟩ => rfl)
  have ee : idx_main_v17 (ix2 r (0 : Fin 1)) = ix2 r (2 : Fin 4) := funext fun a => Fin.ext (by match a with | ⟨0, _⟩ => rfl | ⟨1, _⟩ => rfl)
  rw [es, ee, v1_at, v1_at]
  rfl

/-- A corner column of the prediction boxes at row r. -/
theorem v30_at (x1 : (⟨S16x900x4, .f32⟩ : BufTy).Contents (Elt Ideal)) (r : Fin 14400) :
    val_main_v30 (F := Ideal) x1 (ix2 r (0 : Fin 1)) = Cert.CostSpec.hi (x1 (ix3 (rowB r) (rowQ r) 1)) (x1 (ix3 (rowB r) (rowQ r) 3)) := by
  rw [val_main_v30_apply, val_main_v29_apply, val_main_v16_apply, val_main_v28_apply, val_main_v18_apply,
    val_main_cst_3_apply]
  have es : idx_main_v16 (ix2 r (0 : Fin 1)) = ix2 r (1 : Fin 4) := funext fun a => Fin.ext (by match a with | ⟨0, _⟩ => rfl | ⟨1, _⟩ => rfl)
  have ee : idx_main_v18 (ix2 r (0 : Fin 1)) = ix2 r (3 : Fin 4) := funext fun a => Fin.ext (by match a with | ⟨0, _⟩ => rfl | ⟨1, _⟩ => rfl)
  rw [es, ee, v1_at, v1_at]
  rfl

/-- A corner column of the target boxes at target c. -/
theorem v38_at (x3 : (⟨S1600x4, .f32⟩ : BufTy).Contents (Elt Ideal)) (c : Fin 1600) :
    val_main_v38 (F := Ideal) x3 (ix2 c (0 : Fin 1)) = Cert.CostSpec.lo (x3 (ix2 c 0)) (x3 (ix2 c 2)) := by
  rw [val_main_v38_apply, val_main_v37_apply, val_main_v32_apply, val_main_v36_apply, val_main_v34_apply,
    val_main_cst_4_apply]
  have es : idx_main_v32 (ix2 c (0 : Fin 1)) = ix2 c (0 : Fin 4) := funext fun a => Fin.ext (by match a with | ⟨0, _⟩ => rfl | ⟨1, _⟩ => rfl)
  have ee : idx_main_v34 (ix2 c (0 : Fin 1)) = ix2 c (2 : Fin 4) := funext fun a => Fin.ext (by match a with | ⟨0, _⟩ => rfl | ⟨1, _⟩ => rfl)
  rw [es, ee]
  rfl

/-- A corner column of the target boxes at target c. -/
theorem v41_at (x3 : (⟨S1600x4, .f32⟩ : BufTy).Contents (Elt Ideal)) (c : Fin 1600) :
    val_main_v41 (F := Ideal) x3 (ix2 c (0 : Fin 1)) = Cert.CostSpec.lo (x3 (ix2 c 1)) (x3 (ix2 c 3)) := by
  rw [val_main_v41_apply, val_main_v40_apply, val_main_v33_apply, val_main_v39_apply, val_main_v35_apply,
    val_main_cst_5_apply]
  have es : idx_main_v33 (ix2 c (0 : Fin 1)) = ix2 c (1 : Fin 4) := funext fun a => Fin.ext (by match a with | ⟨0, _⟩ => rfl | ⟨1, _⟩ => rfl)
  have ee : idx_main_v35 (ix2 c (0 : Fin 1)) = ix2 c (3 : Fin 4) := funext fun a => Fin.ext (by match a with | ⟨0, _⟩ => rfl | ⟨1, _⟩ => rfl)
  rw [es, ee]
  rfl

/-- A corner column of the target boxes at target c. -/
theorem v44_at (x3 : (⟨S1600x4, .f32⟩ : BufTy).Contents (Elt Ideal)) (c : Fin 1600) :
    val_main_v44 (F := Ideal) x3 (ix2 c (0 : Fin 1)) = Cert.CostSpec.hi (x3 (ix2 c 0)) (x3 (ix2 c 2)) := by
  rw [val_main_v44_apply, val_main_v43_apply, val_main_v32_apply, val_main_v42_apply, val_main_v34_apply,
    val_main_cst_6_apply]
  have es : idx_main_v32 (ix2 c (0 : Fin 1)) = ix2 c (0 : Fin 4) := funext fun a => Fin.ext (by match a with | ⟨0, _⟩ => rfl | ⟨1, _⟩ => rfl)
  have ee : idx_main_v34 (ix2 c (0 : Fin 1)) = ix2 c (2 : Fin 4) := funext fun a => Fin.ext (by match a with | ⟨0, _⟩ => rfl | ⟨1, _⟩ => rfl)
  rw [es, ee]
  rfl

/-- A corner column of the target boxes at target c. -/
theorem v47_at (x3 : (⟨S1600x4, .f32⟩ : BufTy).Contents (Elt Ideal)) (c : Fin 1600) :
    val_main_v47 (F := Ideal) x3 (ix2 c (0 : Fin 1)) = Cert.CostSpec.hi (x3 (ix2 c 1)) (x3 (ix2 c 3)) := by
  rw [val_main_v47_apply, val_main_v46_apply, val_main_v33_apply, val_main_v45_apply, val_main_v35_apply,
    val_main_cst_7_apply]
  have es : idx_main_v33 (ix2 c (0 : Fin 1)) = ix2 c (1 : Fin 4) := funext fun a => Fin.ext (by match a with | ⟨0, _⟩ => rfl | ⟨1, _⟩ => rfl)
  have ee : idx_main_v35 (ix2 c (0 : Fin 1)) = ix2 c (3 : Fin 4) := funext fun a => Fin.ext (by match a with | ⟨0, _⟩ => rfl | ⟨1, _⟩ => rfl)
  rw [es, ee]
  rfl

/-- The joined corner array at column 0 is its piece 0. -/
theorem v31_col0 (x1 : (⟨S16x900x4, .f32⟩ : BufTy).Contents (Elt Ideal)) (r : Fin 14400) :
    val_main_v31 (F := Ideal) x1 (ix2 r (0 : Fin 4)) = val_main_v21 (F := Ideal) x1 (ix2 r (0 : Fin 1)) := by
  unfold val_main_v31
  generalize val_main_v21 (F := Ideal) x1 = p0
  generalize val_main_v24 (F := Ideal) x1 = p1
  generalize val_main_v27 (F := Ideal) x1 = p2
  generalize val_main_v30 (F := Ideal) x1 = p3
  exact concatenate_apply_piece _ _ _ (ix2 r (0 : Fin 4)) 0 (by simp) S14400x1 p0 rfl rfl 0 rfl (ix2 r (0 : Fin 1))
    (fun b hb => by match b with | ⟨0, _⟩ => rfl | ⟨1, _⟩ => exact absurd rfl hb) rfl

/-- The joined corner array at column 1 is its piece 1. -/
theorem v31_col1 (x1 : (⟨S16x900x4, .f32⟩ : BufTy).Contents (Elt Ideal)) (r : Fin 14400) :
    val_main_v31 (F := Ideal) x1 (ix2 r (1 : Fin 4)) = val_main_v24 (F := Ideal) x1 (ix2 r (0 : Fin 1)) := by
  unfold val_main_v31
  generalize val_main_v21 (F := Ideal) x1 = p0
  generalize val_main_v24 (F := Ideal) x1 = p1
  generalize val_main_v27 (F := Ideal) x1 = p2
  generalize val_main_v30 (F := Ideal) x1 = p3
  exact concatenate_apply_piece _ _ _ (ix2 r (1 : Fin 4)) 1 (by simp) S14400x1 p1 rfl rfl 1 rfl (ix2 r (0 : Fin 1))
    (fun b hb => by match b with | ⟨0, _⟩ => rfl | ⟨1, _⟩ => exact absurd rfl hb) rfl

/-- The joined corner array at column 2 is its piece 2. -/
theorem v31_col2 (x1 : (⟨S16x900x4, .f32⟩ : BufTy).Contents (Elt Ideal)) (r : Fin 14400) :
    val_main_v31 (F := Ideal) x1 (ix2 r (2 : Fin 4)) = val_main_v27 (F := Ideal) x1 (ix2 r (0 : Fin 1)) := by
  unfold val_main_v31
  generalize val_main_v21 (F := Ideal) x1 = p0
  generalize val_main_v24 (F := Ideal) x1 = p1
  generalize val_main_v27 (F := Ideal) x1 = p2
  generalize val_main_v30 (F := Ideal) x1 = p3
  exact concatenate_apply_piece _ _ _ (ix2 r (2 : Fin 4)) 2 (by simp) S14400x1 p2 rfl rfl 2 rfl (ix2 r (0 : Fin 1))
    (fun b hb => by match b with | ⟨0, _⟩ => rfl | ⟨1, _⟩ => exact absurd rfl hb) rfl

/-- The joined corner array at column 3 is its piece 3. -/
theorem v31_col3 (x1 : (⟨S16x900x4, .f32⟩ : BufTy).Contents (Elt Ideal)) (r : Fin 14400) :
    val_main_v31 (F := Ideal) x1 (ix2 r (3 : Fin 4)) = val_main_v30 (F := Ideal) x1 (ix2 r (0 : Fin 1)) := by
  unfold val_main_v31
  generalize val_main_v21 (F := Ideal) x1 = p0
  generalize val_main_v24 (F := Ideal) x1 = p1
  generalize val_main_v27 (F := Ideal) x1 = p2
  generalize val_main_v30 (F := Ideal) x1 = p3
  exact concatenate_apply_piece _ _ _ (ix2 r (3 : Fin 4)) 3 (by simp) S14400x1 p3 rfl rfl 3 rfl (ix2 r (0 : Fin 1))
    (fun b hb => by match b with | ⟨0, _⟩ => rfl | ⟨1, _⟩ => exact absurd rfl hb) rfl

/-- The joined corner array at column 0 is its piece 0. -/
theorem v48_col0 (x3 : (⟨S1600x4, .f32⟩ : BufTy).Contents (Elt Ideal)) (c : Fin 1600) :
    val_main_v48 (F := Ideal) x3 (ix2 c (0 : Fin 4)) = val_main_v38 (F := Ideal) x3 (ix2 c (0 : Fin 1)) := by
  unfold val_main_v48
  generalize val_main_v38 (F := Ideal) x3 = p0
  generalize val_main_v41 (F := Ideal) x3 = p1
  generalize val_main_v44 (F := Ideal) x3 = p2
  generalize val_main_v47 (F := Ideal) x3 = p3
  exact concatenate_apply_piece _ _ _ (ix2 c (0 : Fin 4)) 0 (by simp) S1600x1 p0 rfl rfl 0 rfl (ix2 c (0 : Fin 1))
    (fun b hb => by match b with | ⟨0, _⟩ => rfl | ⟨1, _⟩ => exact absurd rfl hb) rfl

/-- The joined corner array at column 1 is its piece 1. -/
theorem v48_col1 (x3 : (⟨S1600x4, .f32⟩ : BufTy).Contents (Elt Ideal)) (c : Fin 1600) :
    val_main_v48 (F := Ideal) x3 (ix2 c (1 : Fin 4)) = val_main_v41 (F := Ideal) x3 (ix2 c (0 : Fin 1)) := by
  unfold val_main_v48
  generalize val_main_v38 (F := Ideal) x3 = p0
  generalize val_main_v41 (F := Ideal) x3 = p1
  generalize val_main_v44 (F := Ideal) x3 = p2
  generalize val_main_v47 (F := Ideal) x3 = p3
  exact concatenate_apply_piece _ _ _ (ix2 c (1 : Fin 4)) 1 (by simp) S1600x1 p1 rfl rfl 1 rfl (ix2 c (0 : Fin 1))
    (fun b hb => by match b with | ⟨0, _⟩ => rfl | ⟨1, _⟩ => exact absurd rfl hb) rfl

/-- The joined corner array at column 2 is its piece 2. -/
theorem v48_col2 (x3 : (⟨S1600x4, .f32⟩ : BufTy).Contents (Elt Ideal)) (c : Fin 1600) :
    val_main_v48 (F := Ideal) x3 (ix2 c (2 : Fin 4)) = val_main_v44 (F := Ideal) x3 (ix2 c (0 : Fin 1)) := by
  unfold val_main_v48
  generalize val_main_v38 (F := Ideal) x3 = p0
  generalize val_main_v41 (F := Ideal) x3 = p1
  generalize val_main_v44 (F := Ideal) x3 = p2
  generalize val_main_v47 (F := Ideal) x3 = p3
  exact concatenate_apply_piece _ _ _ (ix2 c (2 : Fin 4)) 2 (by simp) S1600x1 p2 rfl rfl 2 rfl (ix2 c (0 : Fin 1))
    (fun b hb => by match b with | ⟨0, _⟩ => rfl | ⟨1, _⟩ => exact absurd rfl hb) rfl

/-- The joined corner array at column 3 is its piece 3. -/
theorem v48_col3 (x3 : (⟨S1600x4, .f32⟩ : BufTy).Contents (Elt Ideal)) (c : Fin 1600) :
    val_main_v48 (F := Ideal) x3 (ix2 c (3 : Fin 4)) = val_main_v47 (F := Ideal) x3 (ix2 c (0 : Fin 1)) := by
  unfold val_main_v48
  generalize val_main_v38 (F := Ideal) x3 = p0
  generalize val_main_v41 (F := Ideal) x3 = p1
  generalize val_main_v44 (F := Ideal) x3 = p2
  generalize val_main_v47 (F := Ideal) x3 = p3
  exact concatenate_apply_piece _ _ _ (ix2 c (3 : Fin 4)) 3 (by simp) S1600x1 p3 rfl rfl 3 rfl (ix2 c (0 : Fin 1))
    (fun b hb => by match b with | ⟨0, _⟩ => rfl | ⟨1, _⟩ => exact absurd rfl hb) rfl

/-- Corner coordinate 0 of prediction r from its centre form. -/
theorem pred_corner0 (x1 : (⟨S16x900x4, .f32⟩ : BufTy).Contents (Elt Ideal)) (r : Fin 14400) :
    val_main_v31 (F := Ideal) x1 (ix2 r (0 : Fin 4)) = Cert.CostSpec.lo (x1 (ix3 (rowB r) (rowQ r) 0)) (x1 (ix3 (rowB r) (rowQ r) 2)) := by
  rw [v31_col0, v21_at]

/-- Corner coordinate 0 of target c from its centre form. -/
theorem tgt_corner0 (x3 : (⟨S1600x4, .f32⟩ : BufTy).Contents (Elt Ideal)) (c : Fin 1600) :
    val_main_v48 (F := Ideal) x3 (ix2 c (0 : Fin 4)) = Cert.CostSpec.lo (x3 (ix2 c 0)) (x3 (ix2 c 2)) := by
  rw [v48_col0, v38_at]

/-- Corner coordinate 1 of prediction r from its centre form. -/
theorem pred_corner1 (x1 : (⟨S16x900x4, .f32⟩ : BufTy).Contents (Elt Ideal)) (r : Fin 14400) :
    val_main_v31 (F := Ideal) x1 (ix2 r (1 : Fin 4)) = Cert.CostSpec.lo (x1 (ix3 (rowB r) (rowQ r) 1)) (x1 (ix3 (rowB r) (rowQ r) 3)) := by
  rw [v31_col1, v24_at]

/-- Corner coordinate 1 of target c from its centre form. -/
theorem tgt_corner1 (x3 : (⟨S1600x4, .f32⟩ : BufTy).Contents (Elt Ideal)) (c : Fin 1600) :
    val_main_v48 (F := Ideal) x3 (ix2 c (1 : Fin 4)) = Cert.CostSpec.lo (x3 (ix2 c 1)) (x3 (ix2 c 3)) := by
  rw [v48_col1, v41_at]

/-- Corner coordinate 2 of prediction r from its centre form. -/
theorem pred_corner2 (x1 : (⟨S16x900x4, .f32⟩ : BufTy).Contents (Elt Ideal)) (r : Fin 14400) :
    val_main_v31 (F := Ideal) x1 (ix2 r (2 : Fin 4)) = Cert.CostSpec.hi (x1 (ix3 (rowB r) (rowQ r) 0)) (x1 (ix3 (rowB r) (rowQ r) 2)) := by
  rw [v31_col2, v27_at]

/-- Corner coordinate 2 of target c from its centre form. -/
theorem tgt_corner2 (x3 : (⟨S1600x4, .f32⟩ : BufTy).Contents (Elt Ideal)) (c : Fin 1600) :
    val_main_v48 (F := Ideal) x3 (ix2 c (2 : Fin 4)) = Cert.CostSpec.hi (x3 (ix2 c 0)) (x3 (ix2 c 2)) := by
  rw [v48_col2, v44_at]

/-- Corner coordinate 3 of prediction r from its centre form. -/
theorem pred_corner3 (x1 : (⟨S16x900x4, .f32⟩ : BufTy).Contents (Elt Ideal)) (r : Fin 14400) :
    val_main_v31 (F := Ideal) x1 (ix2 r (3 : Fin 4)) = Cert.CostSpec.hi (x1 (ix3 (rowB r) (rowQ r) 1)) (x1 (ix3 (rowB r) (rowQ r) 3)) := by
  rw [v31_col3, v30_at]

/-- Corner coordinate 3 of target c from its centre form. -/
theorem tgt_corner3 (x3 : (⟨S1600x4, .f32⟩ : BufTy).Contents (Elt Ideal)) (c : Fin 1600) :
    val_main_v48 (F := Ideal) x3 (ix2 c (3 : Fin 4)) = Cert.CostSpec.hi (x3 (ix2 c 1)) (x3 (ix2 c 3)) := by
  rw [v48_col3, v47_at]

end Cert.ReferenceIdeal.RefValue

end
-- ==== Proof.RefValueAreas.lean ====
/-
  The areas of the boxes from their corner form: the reference reads the four corner columns back out of the
  joined corner array, drops the unit axis, and multiplies width by height.
-/
import proofs.«132197_j57208964382737_2_alg».proof.Proof.Gen.ReferenceIdeal.Read
import proofs.«132197_j57208964382737_2_alg».proof.Proof.Spec
import proofs.«132197_j57208964382737_2_alg».proof.Proof.RefValueCorners

noncomputable section

namespace Cert.ReferenceIdeal.RefValue

open Cert.ReferenceIdeal Cert.ReferenceIdeal.Read Idealize.ShloMosaic Idealize.ShloMosaic.ValueIdx

/-- The area of prediction r: (x₂ − x₁)·(y₂ − y₁) of its corners. -/
theorem v59_at (x1 : (⟨S16x900x4, .f32⟩ : BufTy).Contents (Elt Ideal)) (r : Fin 14400) :
    val_main_v59 (F := Ideal) x1 (ix1 r)
      = (Cert.CostSpec.hi (x1 (ix3 (rowB r) (rowQ r) 0)) (x1 (ix3 (rowB r) (rowQ r) 2)) - Cert.CostSpec.lo (x1 (ix3 (rowB r) (rowQ r) 0)) (x1 (ix3 (rowB r) (rowQ r) 2))) * (Cert.CostSpec.hi (x1 (ix3 (rowB r) (rowQ r) 1)) (x1 (ix3 (rowB r) (rowQ r) 3)) - Cert.CostSpec.lo (x1 (ix3 (rowB r) (rowQ r) 1)) (x1 (ix3 (rowB r) (rowQ r) 3))) := by
  rw [val_main_v59_apply, val_main_v53_apply, val_main_v58_apply, val_main_v50_apply, val_main_v52_apply, val_main_v55_apply,
    val_main_v57_apply, val_main_v49_apply, val_main_v51_apply, val_main_v54_apply, val_main_v56_apply]
  have e2 : idx_main_v49 (idx_main_v50 (ix1 r)) = ix2 r (2 : Fin 4) := funext fun a => Fin.ext (by match a with | ⟨0, _⟩ => exact Nat.div_one _ | ⟨1, _⟩ => rfl)
  have e0 : idx_main_v51 (idx_main_v52 (ix1 r)) = ix2 r (0 : Fin 4) := funext fun a => Fin.ext (by match a with | ⟨0, _⟩ => exact Nat.div_one _ | ⟨1, _⟩ => rfl)
  have e3 : idx_main_v54 (idx_main_v55 (ix1 r)) = ix2 r (3 : Fin 4) := funext fun a => Fin.ext (by match a with | ⟨0, _⟩ => exact Nat.div_one _ | ⟨1, _⟩ => rfl)
  have e1 : idx_main_v56 (idx_main_v57 (ix1 r)) = ix2 r (1 : Fin 4) := funext fun a => Fin.ext (by match a with | ⟨0, _⟩ => exact Nat.div_one _ | ⟨1, _⟩ => rfl)
  rw [e2, e0, e3, e1, pred_corner0, pred_corner1, pred_corner2, pred_corner3]
  rfl

/-- The area of target c. -/
theorem v70_at (x3 : (⟨S1600x4, .f32⟩ : BufTy).Contents (Elt Ideal)) (c : Fin 1600) :
    val_main_v70 (F := Ideal) x3 (ix1 c)
      = (Cert.CostSpec.hi (x3 (ix2 c 0)) (x3 (ix2 c 2)) - Cert.CostSpec.lo (x3 (ix2 c 0)) (x3 (ix2 c 2))) * (Cert.CostSpec.hi (x3 (ix2 c 1)) (x3 (ix2 c 3)) - Cert.CostSpec.lo (x3 (ix2 c 1)) (x3 (ix2 c 3))) := by
  rw [val_main_v70_apply, val_main_v64_apply, val_main_v69_apply, val_main_v61_apply, val_main_v63_apply, val_main_v66_apply,
    val_main_v68_apply, val_main_v60_apply, val_main_v62_apply, val_main_v65_apply, val_main_v67_apply]
  have e2 : idx_main_v60 (idx_main_v61 (ix1 c)) = ix2 c (2 : Fin 4) := funext fun a => Fin.ext (by match a with | ⟨0, _⟩ => exact Nat.div_one _ | ⟨1, _⟩ => rfl)
  have e0 : idx_main_v62 (idx_main_v63 (ix1 c)) = ix2 c (0 : Fin 4) := funext fun a => Fin.ext (by match a with | ⟨0, _⟩ => exact Nat.div_one _ | ⟨1, _⟩ => rfl)
  have e3 : idx_main_v65 (idx_main_v66 (ix1 c)) = ix2 c (3 : Fin 4) := funext fun a => Fin.ext (by match a with | ⟨0, _⟩ => exact Nat.div_one _ | ⟨1, _⟩ => rfl)
  have e1 : idx_main_v67 (idx_main_v68 (ix1 c)) = ix2 c (1 : Fin 4) := funext fun a => Fin.ext (by match a with | ⟨0, _⟩ => exact Nat.div_one _ | ⟨1, _⟩ => rfl)
  rw [e2, e0, e3, e1, tgt_corner0, tgt_corner1, tgt_corner2, tgt_corner3]
  rfl

end Cert.ReferenceIdeal.RefValue

end
-- ==== Proof.RefValuePairs.lean ====
/-
  The reference carries the x and y coordinates of a corner as a trailing axis of size 2: it cuts the low
  corners (columns 0, 1) and the high corners (columns 2, 3) out of the corner arrays, broadcasts the predictions
  along the targets and the targets along the predictions, takes max / min entrywise, subtracts, clips at 0, and
  cuts the two coordinates apart again to multiply them.  Read at (r, c, d) every stage is a scalar expression in
  corner coordinate d (low) or 2 + d (high) of prediction r and target c.
-/
import proofs.«132197_j57208964382737_2_alg».proof.Proof.Gen.ReferenceIdeal.Read
import proofs.«132197_j57208964382737_2_alg».proof.Proof.Spec

noncomputable section

namespace Cert.ReferenceIdeal.RefValue

open Cert.ReferenceIdeal Cert.ReferenceIdeal.Read Idealize.ShloMosaic Idealize.ShloMosaic.ValueIdx

/-- The larger of the two low corners, coordinate d (d = 0: x, d = 1: y). -/
theorem v77_at (x1 : (⟨S16x900x4, .f32⟩ : BufTy).Contents (Elt Ideal)) (x3 : (⟨S1600x4, .f32⟩ : BufTy).Contents (Elt Ideal)) (r : Fin 14400) (c : Fin 1600) (d : Fin 2) (j : Fin 4) (hj : j.val = d.val) :
    val_main_v77 (F := Ideal) x1 x3 (ix3 r c d) = max (val_main_v31 (F := Ideal) x1 (ix2 r j)) (val_main_v48 (F := Ideal) x3 (ix2 c j)) := by
  rw [val_main_v77_apply, Ideal.maximumf_def, val_main_v75_apply, val_main_v72_apply, val_main_v71_apply,
    val_main_v76_apply, val_main_v74_apply, val_main_v73_apply]
  have e1 : idx_main_v71 (idx_main_v72 (idx_main_v75 (ix3 r c d))) = ix2 r j :=
    funext fun a => Fin.ext (by match a with | ⟨0, _⟩ => rfl | ⟨1, _⟩ => exact hj.symm)
  have e3 : idx_main_v73 (idx_main_v74 (idx_main_v76 (ix3 r c d))) = ix2 c j :=
    funext fun a => Fin.ext (by match a with | ⟨0, _⟩ => rfl | ⟨1, _⟩ => exact hj.symm)
  rw [e1, e3]

/-- The smaller of the two high corners, coordinate d. -/
theorem v84_at (x1 : (⟨S16x900x4, .f32⟩ : BufTy).Contents (Elt Ideal)) (x3 : (⟨S1600x4, .f32⟩ : BufTy).Contents (Elt Ideal)) (r : Fin 14400) (c : Fin 1600) (d : Fin 2) (j : Fin 4) (hj : j.val = 2 + d.val) :
    val_main_v84 (F := Ideal) x1 x3 (ix3 r c d) = min (val_main_v31 (F := Ideal) x1 (ix2 r j)) (val_main_v48 (F := Ideal) x3 (ix2 c j)) := by
  rw [val_main_v84_apply, Ideal.minimumf_def, val_main_v82_apply, val_main_v79_apply, val_main_v78_apply,
    val_main_v83_apply, val_main_v81_apply, val_main_v80_apply]
  have e1 : idx_main_v78 (idx_main_v79 (idx_main_v82 (ix3 r c d))) = ix2 r j :=
    funext fun a => Fin.ext (by match a with | ⟨0, _⟩ => rfl | ⟨1, _⟩ => exact hj.symm)
  have e3 : idx_main_v80 (idx_main_v81 (idx_main_v83 (ix3 r c d))) = ix2 c j :=
    funext fun a => Fin.ext (by match a with | ⟨0, _⟩ => rfl | ⟨1, _⟩ => exact hj.symm)
  rw [e1, e3]

/-- The smaller of the two low corners, coordinate d. -/
theorem v105_at (x1 : (⟨S16x900x4, .f32⟩ : BufTy).Contents (Elt Ideal)) (x3 : (⟨S1600x4, .f32⟩ : BufTy).Contents (Elt Ideal)) (r : Fin 14400) (c : Fin 1600) (d : Fin 2) (j : Fin 4) (hj : j.val = d.val) :
    val_main_v105 (F := Ideal) x1 x3 (ix3 r c d) = min (val_main_v31 (F := Ideal) x1 (ix2 r j)) (val_main_v48 (F := Ideal) x3 (ix2 c j)) := by
  rw [val_main_v105_apply, Ideal.minimumf_def, val_main_v103_apply, val_main_v100_apply, val_main_v99_apply,
    val_main_v104_apply, val_main_v102_apply, val_main_v101_apply]
  have e1 : idx_main_v99 (idx_main_v100 (idx_main_v103 (ix3 r c d))) = ix2 r j :=
    funext fun a => Fin.ext (by match a with | ⟨0, _⟩ => rfl | ⟨1, _⟩ => exact hj.symm)
  have e3 : idx_main_v101 (idx_main_v102 (idx_main_v104 (ix3 r c d))) = ix2 c j :=
    funext fun a => Fin.ext (by match a with | ⟨0, _⟩ => rfl | ⟨1, _⟩ => exact hj.symm)
  rw [e1, e3]

/-- The larger of the two high corners, coordinate d. -/
theorem v112_at (x1 : (⟨S16x900x4, .f32⟩ : BufTy).Contents (Elt Ideal)) (x3 : (⟨S1600x4, .f32⟩ : BufTy).Contents (Elt Ideal)) (r : Fin 14400) (c : Fin 1600) (d : Fin 2) (j : Fin 4) (hj : j.val = 2 + d.val) :
    val_main_v112 (F := Ideal) x1 x3 (ix3 r c d) = max (val_main_v31 (F := Ideal) x1 (ix2 r j)) (val_main_v48 (F := Ideal) x3 (ix2 c j)) := by
  rw [val_main_v112_apply, Ideal.maximumf_def, val_main_v110_apply, val_main_v107_apply, val_main_v106_apply,
    val_main_v111_apply, val_main_v109_apply, val_main_v108_apply]
  have e1 : idx_main_v106 (idx_main_v107 (idx_main_v110 (ix3 r c d))) = ix2 r j :=
    funext fun a => Fin.ext (by match a with | ⟨0, _⟩ => rfl | ⟨1, _⟩ => exact hj.symm)
  have e3 : idx_main_v108 (idx_main_v109 (idx_main_v111 (ix3 r c d))) = ix2 c j :=
    funext fun a => Fin.ext (by match a with | ⟨0, _⟩ => rfl | ⟨1, _⟩ => exact hj.symm)
  rw [e1, e3]

/-- The clipped extent of the intersection along coordinate d: the reference clips with the bound first, max 0 x, and max is commutative. -/
theorem v86_at (x1 : (⟨S16x900x4, .f32⟩ : BufTy).Contents (Elt Ideal)) (x3 : (⟨S1600x4, .f32⟩ : BufTy).Contents (Elt Ideal)) (r : Fin 14400) (c : Fin 1600) (d : Fin 2) (j0 j2 : Fin 4)
    (h0 : j0.val = d.val) (h2 : j2.val = 2 + d.val) :
    val_main_v86 (F := Ideal) x1 x3 (ix3 r c d)
      = max (min (val_main_v31 (F := Ideal) x1 (ix2 r j2)) (val_main_v48 (F := Ideal) x3 (ix2 c j2)) - max (val_main_v31 (F := Ideal) x1 (ix2 r j0)) (val_main_v48 (F := Ideal) x3 (ix2 c j0))) (Ideal.ofBits .f32 0x00000000#32) := by
  rw [val_main_v86_apply, Ideal.maximumf_def, val_main_call2_v1_apply, val_main_call2_v0_apply, val_main_cst_8_apply,
    Ideal.ofBits_def, val_main_v85_apply, Ideal.subf_def, v84_at x1 x3 r c d j2 h2, v77_at x1 x3 r c d j0 h0]
  exact max_comm _ _

/-- The clipped extent of the enclosing box along coordinate d. -/
theorem v114_at (x1 : (⟨S16x900x4, .f32⟩ : BufTy).Contents (Elt Ideal)) (x3 : (⟨S1600x4, .f32⟩ : BufTy).Contents (Elt Ideal)) (r : Fin 14400) (c : Fin 1600) (d : Fin 2) (j0 j2 : Fin 4)
    (h0 : j0.val = d.val) (h2 : j2.val = 2 + d.val) :
    val_main_v114 (F := Ideal) x1 x3 (ix3 r c d)
      = max (max (val_main_v31 (F := Ideal) x1 (ix2 r j2)) (val_main_v48 (F := Ideal) x3 (ix2 c j2)) - min (val_main_v31 (F := Ideal) x1 (ix2 r j0)) (val_main_v48 (F := Ideal) x3 (ix2 c j0))) (Ideal.ofBits .f32 0x00000000#32) := by
  rw [val_main_v114_apply, Ideal.maximumf_def, val_main_call3_v1_apply, val_main_call3_v0_apply, val_main_cst_9_apply,
    Ideal.ofBits_def, val_main_v113_apply, Ideal.subf_def, v112_at x1 x3 r c d j2 h2, v105_at x1 x3 r c d j0 h0]
  exact max_comm _ _

/-- The intersection area: the product of the two clipped extents, each cut out of the trailing axis of size 2. -/
theorem v91_at (x1 : (⟨S16x900x4, .f32⟩ : BufTy).Contents (Elt Ideal)) (x3 : (⟨S1600x4, .f32⟩ : BufTy).Contents (Elt Ideal)) (r : Fin 14400) (c : Fin 1600) :
    val_main_v91 (F := Ideal) x1 x3 (ix2 r c)
      = val_main_v86 (F := Ideal) x1 x3 (ix3 r c (0 : Fin 2)) * val_main_v86 (F := Ideal) x1 x3 (ix3 r c (1 : Fin 2)) := by
  rw [val_main_v91_apply, Ideal.mulf_def, val_main_v88_apply, val_main_v87_apply, val_main_v90_apply, val_main_v89_apply]
  have hr := r.isLt
  have hc := c.isLt
  have e0 : idx_main_v87 (idx_main_v88 (ix2 r c)) = ix3 r c (0 : Fin 2) :=
    funext fun a => Fin.ext (by
      match a with
      | ⟨0, _⟩ => show (r.val * 1600 + c.val) / 1600 = r.val; omega
      | ⟨1, _⟩ => show (r.val * 1600 + c.val) / 1 % 1600 = c.val; omega
      | ⟨2, _⟩ => rfl)
  have e1 : idx_main_v89 (idx_main_v90 (ix2 r c)) = ix3 r c (1 : Fin 2) :=
    funext fun a => Fin.ext (by
      match a with
      | ⟨0, _⟩ => show (r.val * 1600 + c.val) / 1600 = r.val; omega
      | ⟨1, _⟩ => show (r.val * 1600 + c.val) / 1 % 1600 = c.val; omega
      | ⟨2, _⟩ => rfl)
  rw [e0, e1]

/-- The area of the enclosing box. -/
theorem v119_at (x1 : (⟨S16x900x4, .f32⟩ : BufTy).Contents (Elt Ideal)) (x3 : (⟨S1600x4, .f32⟩ : BufTy).Contents (Elt Ideal)) (r : Fin 14400) (c : Fin 1600) :
    val_main_v119 (F := Ideal) x1 x3 (ix2 r c)
      = val_main_v114 (F := Ideal) x1 x3 (ix3 r c (0 : Fin 2)) * val_main_v114 (F := Ideal) x1 x3 (ix3 r c (1 : Fin 2)) := by
  rw [val_main_v119_apply, Ideal.mulf_def, val_main_v116_apply, val_main_v115_apply, val_main_v118_apply, val_main_v117_apply]
  have hr := r.isLt
  have hc := c.isLt
  have e0 : idx_main_v115 (idx_main_v116 (ix2 r c)) = ix3 r c (0 : Fin 2) :=
    funext fun a => Fin.ext (by
      match a with
      | ⟨0, _⟩ => show (r.val * 1600 + c.val) / 1600 = r.val; omega
      | ⟨1, _⟩ => show (r.val * 1600 + c.val) / 1 % 1600 = c.val; omega
      | ⟨2, _⟩ => rfl)
  have e1 : idx_main_v117 (idx_main_v118 (ix2 r c)) = ix3 r c (1 : Fin 2) :=
    funext fun a => Fin.ext (by
      match a with
      | ⟨0, _⟩ => show (r.val * 1600 + c.val) / 1600 = r.val; omega
      | ⟨1, _⟩ => show (r.val * 1600 + c.val) / 1 % 1600 = c.val; omega
      | ⟨2, _⟩ => rfl)
  rw [e0, e1]

end Cert.ReferenceIdeal.RefValue

end
-- ==== Proof.RefValueGiou.lean ====
/-
  The generalized intersection over union of the reference at (r, c): intersection over union minus
  (hull − union) over hull, with union = (area of r + area of c) − intersection, and its negation.
-/
import proofs.«132197_j57208964382737_2_alg».proof.Proof.Gen.ReferenceIdeal.Read
import proofs.«132197_j57208964382737_2_alg».proof.Proof.Spec
import proofs.«132197_j57208964382737_2_alg».proof.Proof.RefValuePairs

noncomputable section

namespace Cert.ReferenceIdeal.RefValue

open Cert.ReferenceIdeal Cert.ReferenceIdeal.Read Idealize.ShloMosaic Idealize.ShloMosaic.ValueIdx

/-- The generalized intersection over union at (r, c), negated, in terms of the corner arrays and the areas. -/
theorem v123_at (x1 : (⟨S16x900x4, .f32⟩ : BufTy).Contents (Elt Ideal)) (x3 : (⟨S1600x4, .f32⟩ : BufTy).Contents (Elt Ideal)) (r : Fin 14400) (c : Fin 1600) :
    val_main_v123 (F := Ideal) x1 x3 (ix2 r c)
      = -(Cert.CostSpec.giou (val_main_v31 (F := Ideal) x1 (ix2 r (0 : Fin 4))) (val_main_v31 (F := Ideal) x1 (ix2 r (1 : Fin 4))) (val_main_v31 (F := Ideal) x1 (ix2 r (2 : Fin 4))) (val_main_v31 (F := Ideal) x1 (ix2 r (3 : Fin 4)))
          (val_main_v48 (F := Ideal) x3 (ix2 c (0 : Fin 4))) (val_main_v48 (F := Ideal) x3 (ix2 c (1 : Fin 4))) (val_main_v48 (F := Ideal) x3 (ix2 c (2 : Fin 4))) (val_main_v48 (F := Ideal) x3 (ix2 c (3 : Fin 4)))
          (val_main_v59 (F := Ideal) x1 (ix1 r)) (val_main_v70 (F := Ideal) x3 (ix1 c))) := by
  have ea : idx_main_v92 (idx_main_v94 (ix2 r c)) = ix1 r :=
    funext fun a => Fin.ext (by match a with | ⟨0, _⟩ => rfl)
  have eb : idx_main_v93 (idx_main_v95 (ix2 r c)) = ix1 c :=
    funext fun a => Fin.ext (by match a with | ⟨0, _⟩ => rfl)
  have hu : val_main_v97 (F := Ideal) x1 x3 (ix2 r c)
      = (val_main_v59 (F := Ideal) x1 (ix1 r) + val_main_v70 (F := Ideal) x3 (ix1 c)) - val_main_v91 (F := Ideal) x1 x3 (ix2 r c) := by
    rw [val_main_v97_apply, Ideal.subf_def, val_main_v96_apply, Ideal.addf_def, val_main_v94_apply, val_main_v92_apply,
      val_main_v95_apply, val_main_v93_apply, ea, eb]
  rw [val_main_v123_apply, Ideal.hostNegf_def, Ideal.negf_def, val_main_v122_apply, Ideal.subf_def, val_main_v98_apply,
    Ideal.hostDivf_def, val_main_v121_apply, Ideal.hostDivf_def, val_main_v120_apply, Ideal.subf_def, hu,
    v91_at, v119_at,
    v86_at x1 x3 r c 0 0 2 rfl rfl, v86_at x1 x3 r c 1 1 3 rfl rfl,
    v114_at x1 x3 r c 0 0 2 rfl rfl, v114_at x1 x3 r c 1 1 3 rfl rfl]
  rfl

end Cert.ReferenceIdeal.RefValue

end
-- ==== Proof.RefValue.lean ====
/-
  The reference side of the value claim: the reference program's result array is the specification's cost
  volume.  The class cost, the box distance and the generalized intersection over union are read at a merged
  row and a target in their own modules; here they are put together — the three weighted terms, the final
  reshape [14400, 1600] → [16, 900, 1600] and the squashing 1 / (1 + exp (−z)).
-/
import proofs.«132197_j57208964382737_2_alg».proof.Proof.Gen.ReferenceIdeal.Read
import proofs.«132197_j57208964382737_2_alg».proof.Proof.Spec
import proofs.«132197_j57208964382737_2_alg».proof.Proof.RefValueCls
import proofs.«132197_j57208964382737_2_alg».proof.Proof.RefValueL1
import proofs.«132197_j57208964382737_2_alg».proof.Proof.RefValueAreas
import proofs.«132197_j57208964382737_2_alg».proof.Proof.RefValueGiou
import Idealize.ShloMosaic.Lib.IdealHost

noncomputable section

namespace Cert.ReferenceIdeal.RefValue

open Cert.ReferenceIdeal Cert.ReferenceIdeal.Read Idealize.ShloMosaic Idealize.ShloMosaic.ValueIdx

/-- The cost at merged row r and target c before the final squashing: the specification's weighted sum, where
    row r has a positive sum of squares.  The reference negates the generalized intersection over union where
    the specification subtracts it from the word of 0. -/
theorem pre_at (x0 : (⟨S16x900x256, .f32⟩ : BufTy).Contents (Elt Ideal)) (x1 : (⟨S16x900x4, .f32⟩ : BufTy).Contents (Elt Ideal)) (x2 : (⟨S1600x256, .f32⟩ : BufTy).Contents (Elt Ideal)) (x3 : (⟨S1600x4, .f32⟩ : BufTy).Contents (Elt Ideal)) (r : Fin 14400) (c : Fin 1600) (h : 0 < (∑ j : Fin 256, x0 (ix3 (rowB r) (rowQ r) j) * x0 (ix3 (rowB r) (rowQ r) j))) :
    val_main_v131 (F := Ideal) x0 x1 x2 x3 (ix2 r c)
      = (Cert.CostSpec.one * Cert.CostSpec.boxL1 (x1 (ix3 (rowB r) (rowQ r) 0)) (x1 (ix3 (rowB r) (rowQ r) 1)) (x1 (ix3 (rowB r) (rowQ r) 2)) (x1 (ix3 (rowB r) (rowQ r) 3)) (x3 (ix2 c 0)) (x3 (ix2 c 1)) (x3 (ix2 c 2)) (x3 (ix2 c 3))
          + Cert.CostSpec.one * Cert.CostSpec.cls (fun k => x0 (ix3 (rowB r) (rowQ r) k)) (fun k => x2 (ix2 c k)))
        + Cert.CostSpec.one * (Cert.CostSpec.zero - Cert.CostSpec.giou (Cert.CostSpec.lo (x1 (ix3 (rowB r) (rowQ r) 0)) (x1 (ix3 (rowB r) (rowQ r) 2))) (Cert.CostSpec.lo (x1 (ix3 (rowB r) (rowQ r) 1)) (x1 (ix3 (rowB r) (rowQ r) 3))) (Cert.CostSpec.hi (x1 (ix3 (rowB r) (rowQ r) 0)) (x1 (ix3 (rowB r) (rowQ r) 2))) (Cert.CostSpec.hi (x1 (ix3 (rowB r) (rowQ r) 1)) (x1 (ix3 (rowB r) (rowQ r) 3)))
            (Cert.CostSpec.lo (x3 (ix2 c 0)) (x3 (ix2 c 2))) (Cert.CostSpec.lo (x3 (ix2 c 1)) (x3 (ix2 c 3))) (Cert.CostSpec.hi (x3 (ix2 c 0)) (x3 (ix2 c 2))) (Cert.CostSpec.hi (x3 (ix2 c 1)) (x3 (ix2 c 3)))
            (((Cert.CostSpec.hi (x1 (ix3 (rowB r) (rowQ r) 0)) (x1 (ix3 (rowB r) (rowQ r) 2))) - (Cert.CostSpec.lo (x1 (ix3 (rowB r) (rowQ r) 0)) (x1 (ix3 (rowB r) (rowQ r) 2)))) * ((Cert.CostSpec.hi (x1 (ix3 (rowB r) (rowQ r) 1)) (x1 (ix3 (rowB r) (rowQ r) 3))) - (Cert.CostSpec.lo (x1 (ix3 (rowB r) (rowQ r) 1)) (x1 (ix3 (rowB r) (rowQ r) 3)))))
            (((Cert.CostSpec.hi (x3 (ix2 c 0)) (x3 (ix2 c 2))) - (Cert.CostSpec.lo (x3 (ix2 c 0)) (x3 (ix2 c 2)))) * ((Cert.CostSpec.hi (x3 (ix2 c 1)) (x3 (ix2 c 3))) - (Cert.CostSpec.lo (x3 (ix2 c 1)) (x3 (ix2 c 3)))))) := by
  have hz : ∀ g : EReal, Cert.CostSpec.zero - g = -g := fun g => by
    rw [show Cert.CostSpec.zero = 0 from Ideal.ofBits_zero_f32, zero_sub]
  rw [hz, val_main_v131_apply, Ideal.addf_def, val_main_v128_apply, Ideal.addf_def,
    val_main_v125_apply, Ideal.mulf_def, val_main_v124_apply, val_main_cst_10_apply,
    val_main_v127_apply, Ideal.mulf_def, val_main_v126_apply, val_main_cst_11_apply,
    val_main_v130_apply, Ideal.mulf_def, val_main_v129_apply, val_main_cst_12_apply,
    l1_at, cls_at x0 x2 r c h, v123_at,
    pred_corner0, pred_corner1, pred_corner2, pred_corner3, tgt_corner0, tgt_corner1, tgt_corner2, tgt_corner3,
    v59_at, v70_at]
  rfl

/-- The reference's result is the specification's cost volume, entry by entry, where every logit row has a
    positive sum of squares.  At index (b, q, c) the final reshape reads merged row b·900 + q, column c; the
    printed 1 / (1 + exp (−z)), whose two ones are the word of 1, is the logistic function. -/
theorem ref_eq (x0 : (⟨S16x900x256, .f32⟩ : BufTy).Contents (Elt Ideal)) (x1 : (⟨S16x900x4, .f32⟩ : BufTy).Contents (Elt Ideal)) (x2 : (⟨S1600x256, .f32⟩ : BufTy).Contents (Elt Ideal)) (x3 : (⟨S1600x4, .f32⟩ : BufTy).Contents (Elt Ideal))
    (hpos : ∀ (b : Fin 16) (q : Fin 900), 0 < ∑ j : Fin 256, x0 (ValueIdx.ix3 b q j) * x0 (ValueIdx.ix3 b q j)) :
    Cert.ReferenceIdeal.Read.val_main_v138 (F := Ideal) x0 x1 x2 x3 = Cert.CostSpec.Gout x0 x1 x2 x3 := by
  funext i
  obtain ⟨b, q, c, rfl⟩ : ∃ (b : Fin 16) (q : Fin 900) (c : Fin 1600), i = ix3 b q c := ⟨i 0, i 1, i 2, eq_ix3 i⟩
  have hlt : b.val * 900 + q.val < 14400 := by have := b.isLt; have := q.isLt; omega
  have e : idx_main_v132 (ix3 b q c) = ix2 (⟨b.val * 900 + q.val, hlt⟩ : Fin 14400) c :=
    funext fun a => Fin.ext (by
      have := c.isLt
      match a with
      | ⟨0, _⟩ => show ((b.val * 900 + q.val) * 1600 + c.val) / 1600 = b.val * 900 + q.val; omega
      | ⟨1, _⟩ => show ((b.val * 900 + q.val) * 1600 + c.val) % 1600 = c.val; omega)
  have hp : 0 < (∑ j : Fin 256, x0 (ix3 (rowB (⟨b.val * 900 + q.val, hlt⟩ : Fin 14400)) (rowQ (⟨b.val * 900 + q.val, hlt⟩ : Fin 14400)) j) * x0 (ix3 (rowB (⟨b.val * 900 + q.val, hlt⟩ : Fin 14400)) (rowQ (⟨b.val * 900 + q.val, hlt⟩ : Fin 14400)) j)) := by
    rw [rowB_mk, rowQ_mk]; exact hpos b q
  have hone : Ideal.ofBits .f32 0x3F800000#32 = 1 := Ideal.ofBits_one_f32
  rw [val_main_v138_apply, Ideal.hostDivf_def, val_main_v137_apply, val_main_cst_14_apply, Ideal.ofBits_def,
    val_main_v136_apply, Ideal.addf_def, val_main_v135_apply, val_main_cst_13_apply, Ideal.ofBits_def, hone,
    val_main_v134_apply, Ideal.hostUnary_exp_def, val_main_v133_apply, Ideal.hostNegf_def, Ideal.negf_def,
    val_main_v132_apply, e, pre_at x0 x1 x2 x3 ⟨b.val * 900 + q.val, hlt⟩ c hp, rowB_mk, rowQ_mk]
  rfl

end Cert.ReferenceIdeal.RefValue

end
-- ==== Proof.PreDecode.lean ====
/-
  The added domain conjunct read back: when the precondition's word is one, every logit row has a positive sum
  of squares (the divisor of the reference's normalization is not zero).  Nothing is said of finiteness here: the
  sum may be +∞.
-/
import proofs.«132197_j57208964382737_2_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.PreDecode

open Idealize.ShloMosaic Idealize.ShloMosaic.ValueIdx Cert.Pre_finite_inputs

instance : Subsingleton S_.Idx := ⟨fun a b => funext fun d => d.elim0⟩

/-- The sum of a row's squares as the host prints it — the reduction over the last axis from the zero word — is
    the plain sum over the 256 entries. -/
theorem rowsum_apply (h' : S16x900x256.ReducesTo [2] S16x900) (hu : 0 < S_.numel) (a0 : FVec Ideal S16x900x256 .f32)
    (b : Fin 16) (q : Fin 900) :
    Host.reduceAdd (F := Ideal) (mulf a0 a0) (constant (F := Ideal) S_ .f32 0x00000000#32) h' hu (ix2 b q)
      = ∑ j : Fin 256, a0 (ix3 b q j) * a0 (ix3 b q j) := by
  have hr : S16x900x256.Reduces [2] S16x900 := by decide
  show Ideal.hostReduceAdd h' (mulf a0 a0) (Ideal.ofBits .f32 0x00000000#32) (ix2 b q) = _
  rw [Ideal.hostReduceAdd_single h' hr, Ideal.ofBits_zero_f32, zero_add]
  refine Finset.sum_congr rfl fun j _ => ?_
  have e : hr.lift (ix2 b q) j = ix3 b q j := by
    funext a; apply Fin.ext
    match a with
    | ⟨0, _⟩ => rfl
    | ⟨1, _⟩ => rfl
    | ⟨2, _⟩ => rfl
  rw [e]; rfl

/-- Under the precondition every logit row has a positive sum of squares. -/
theorem rows_pos [Cert.Pre_finite_inputs.Facts] (a0 : FVec Ideal S16x900x256 .f32) (a1 : FVec Ideal S16x900x4 .f32)
    (a2 : FVec Ideal S1600x256 .f32) (a3 : FVec Ideal S1600x4 .f32) (a4 : IVec S16 32)
    (h : Cert.Pre_finite_inputs.fn (F := Ideal) a0 a1 a2 a3 a4 = fun _ => 1#1) (b : Fin 16) (q : Fin 900) :
    0 < ∑ j : Fin 256, a0 (ix3 b q j) * a0 (ix3 b q j) := by
  have h0 := congrFun h ix0
  dsimp only [fn, fn_part1] at h0
  obtain ⟨-, h1⟩ := IntOp.andi_eq_one.1 h0
  have h2 := Host.reduce_andi_all _ _ _ _ ix0 h1 (ix2 b q)
  have h3 : Ideal.cmp .ogt (Host.reduceAdd (F := Ideal) (mulf a0 a0) (constant (F := Ideal) S_ .f32 0x00000000#32)
      Facts.reducesTo_S16x900x256_S16x900_d2 Facts.h_S_ (ix2 b q)) (Ideal.ofBits .f32 0x00000000#32) = 1#1 := h2
  rw [rowsum_apply, Ideal.ofBits_zero_f32] at h3
  by_contra hn
  simp [Ideal.cmp, hn] at h3

end Cert.PreDecode

end
-- ==== Proof.lean ====
/-
  The claim, assembled.  The kernel computes the matching-cost volume of a set-prediction matcher,
      C[b, q, c] = logistic ( L1(box[b,q], tbox[c]) + max(⟨x̂[b,q], e[c]⟩, 0) − GIoU(box[b,q], tbox[c]) ),
  x̂ the logit row scaled by the reciprocal square root of its sum of squares, in one region over 24 blocks of
  600 prediction rows, the target-side operands padded, put in corner form and transposed by host lines before
  it; the reference computes the same volume with jnp operations and normalizes by x / ‖x‖.
  The two agree on the extended reals wherever every logit row has a positive sum of squares (the precondition's
  added conjunct: at a zero row the reference's 0/0 has no value): for a divisor s > 0, x / √s = x · rsqrt s on
  every extended real; the L1 sum, the rectifications max(·, 0), the negation and the logistic function are the
  same functions written in two orders; everything else is the same operation in the same order.
  The three frames: each program runs to the end without a fault and leaves its arguments as launched.
-/
import proofs.«132197_j57208964382737_2_alg».proof.Defs
import proofs.«132197_j57208964382737_2_alg».proof.Proof.Gen.Kernel
import proofs.«132197_j57208964382737_2_alg».proof.Proof.Gen.KernelIdeal
import proofs.«132197_j57208964382737_2_alg».proof.Proof.Gen.ReferenceIdeal
import proofs.«132197_j57208964382737_2_alg».proof.Proof.Gen.Pre_finite_inputs
import proofs.«132197_j57208964382737_2_alg».proof.Proof.Gen.ReferenceIdeal.Run
import proofs.«132197_j57208964382737_2_alg».proof.Proof.Gen.ReferenceIdeal.Read
import proofs.«132197_j57208964382737_2_alg».proof.Proof.BFrame
import proofs.«132197_j57208964382737_2_alg».proof.Proof.KFinal
import proofs.«132197_j57208964382737_2_alg».proof.Proof.RefValue
import proofs.«132197_j57208964382737_2_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.BFrame.frame m ρ

/-- The idealized kernel program runs and keeps its arguments. -/
theorem frame_ki : Cert.frame_KernelIdeal := fun m ρ _ => Cert.KernelIdeal.KFrame.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the cost volume of the arguments. -/
theorem algebraic : Cert.algebraic_KernelIdeal_ReferenceIdeal := by
  intro m ρ m' ρ' hpre hagree
  refine ⟨fun c => (Cert.CostSpec.Gout (Cert.KernelIdeal.KFinal.A0 m c) (Cert.KernelIdeal.KFinal.A1 m c)
      (Cert.KernelIdeal.KFinal.A2 m c) (Cert.KernelIdeal.KFinal.A3 m c) : Cert.KernelIdeal.S16x900x1600.Idx → EReal),
    Cert.KernelIdeal.KFinal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v138_eq, (hagree c).1, (hagree c).2.1, (hagree c).2.2.1, (hagree c).2.2.2.1]
  exact Cert.ReferenceIdeal.RefValue.ref_eq _ _ _ _ (fun b q => Cert.PreDecode.rows_pos _ _ _ _ _ (hpre c) b q)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
